-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S258x1 : Shape := ⟨2, ![258, 1]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S258x1 : S_.BroadcastsInDim S258x1 (![] : Fin 0 → Fin S258x1.rank)
  reducesTo_S258x1_S_d0_1 : S258x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128 .f32) (main_arg10 : FVec F S128x40 .f32) (main_arg11 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x40 .f32 := Host.absf main_arg10
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S640000 .f32) (main_arg2 : IVec S640000 32) (main_arg3 : IVec S640000 32) (main_arg4 : FVec F S258x1 .f32) (main_arg5 : FVec F S1 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg1
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S258x1 .f32 := Host.absf main_arg4
  let main_cst_2 : FVec F S_ .f32 := constant S_ .f32 0x7F800000#32
  let main_v10 : FVec F S258x1 .f32 := broadcastInDim S258x1 ![] bcast_S_S258x1 main_cst_2
  let main_v11 : IVec S258x1 1 := cmpf .olt main_v9 main_v10
  let main_c_3 : IVec S_ 1 := constantI S_ 1 1#1
  let main_v12 : IVec S_ 1 := (fun x v => Host.reduce IntOp.andi x v reducesTo_S258x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S640000 : Shape := ⟨1, ![640000]⟩
abbrev S258x1 : Shape := ⟨2, ![258, 1]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S640000x5 : Shape := ⟨2, ![640000, 5]⟩
abbrev S640000x8 : Shape := ⟨2, ![640000, 8]⟩
abbrev S128x1 : Shape := ⟨2, ![128, 1]⟩
abbrev S1x128 : Shape := ⟨2, ![1, 128]⟩
abbrev S1x1 : Shape := ⟨2, ![1, 1]⟩
abbrev S3 : Shape := ⟨1, ![3]⟩
abbrev S8 : Shape := ⟨1, ![8]⟩
abbrev S1x8 : Shape := ⟨2, ![1, 8]⟩
abbrev S5000x128 : Shape := ⟨2, ![5000, 128]⟩
abbrev S5000x8 : Shape := ⟨2, ![5000, 8]⟩
abbrev S5000x1 : Shape := ⟨2, ![5000, 1]⟩
abbrev S5000 : Shape := ⟨1, ![5000]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 162
  | .vmem => 29
  | .smem => 0
  | _ => 0

abbrev hbmTy0_0 (i : Nat) : BufTy := match i % 128 with
  | 0 => ⟨S50000x128, .f32⟩
  | 1 => ⟨S640000, .f32⟩
  | 2 => ⟨S640000, .i32⟩
  | 3 => ⟨S640000, .i32⟩
  | 4 => ⟨S258x1, .f32⟩
  | 5 => ⟨S1, .f32⟩
  | 6 => ⟨S128x128, .f32⟩
  | 7 => ⟨S128, .f32⟩
  | 8 => ⟨S128x128, .f32⟩
  | 9 => ⟨S128, .f32⟩
  | 10 => ⟨S128x40, .f32⟩
  | 11 => ⟨S40, .f32⟩
  | 12 => ⟨S_, .f32⟩
  | 13 => ⟨S640000, .f32⟩
  | 14 => ⟨S_, .f32⟩
  | 15 => ⟨S50000, .f32⟩
  | 16 => ⟨S640000x1, .i32⟩
  | 17 => ⟨S50000, .f32⟩
  | 18 => ⟨S_, .f32⟩
  | 19 => ⟨S50000, .f32⟩
  | 20 => ⟨S640000x1, .i32⟩
  | 21 => ⟨S50000, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S640000x128, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000, .f32⟩
  | 64 => ⟨S_, .i32⟩
  | 65 => ⟨S640000, .i32⟩
  | 66 => ⟨S640000, .i1⟩
  | 67 => ⟨S_, .i32⟩
  | 68 => ⟨S640000, .i32⟩
  | 69 => ⟨S640000, .i32⟩
  | 70 => ⟨S640000, .i32⟩
  | 71 => ⟨S640000x1, .i32⟩
  | 72 => ⟨S640000, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000, .f32⟩
  | 82 => ⟨S640000x1, .f32⟩
  | 83 => ⟨S640000x1, .f32⟩
  | 84 => ⟨S640000x1, .f32⟩
  | 85 => ⟨S640000x1, .f32⟩
  | 86 => ⟨S640000x1, .f32⟩
  | 87 => ⟨S640000x5, .f32⟩
  | 88 => ⟨S_, .i32⟩
  | 89 => ⟨S_, .f32⟩
  | 90 => ⟨S640000x8, .f32⟩
  | 91 => ⟨S128x1, .f32⟩
  | 92 => ⟨S128, .f32⟩
  | 93 => ⟨S1x128, .f32⟩
  | 94 => ⟨S128x1, .f32⟩
  | 95 => ⟨S128, .f32⟩
  | 96 => ⟨S1x128, .f32⟩
  | 97 => ⟨S1x1, .f32⟩
  | 98 => ⟨S_, .f32⟩
  | 99 => ⟨S1x1, .f32⟩
  | 100 => ⟨S_, .f32⟩
  | 101 => ⟨S_, .f32⟩
  | 102 => ⟨S1, .f32⟩
  | 103 => ⟨S1, .f32⟩
  | 104 => ⟨S1, .f32⟩
  | 105 => ⟨S3, .f32⟩
  | 106 => ⟨S_, .i32⟩
  | 107 => ⟨S_, .f32⟩
  | 108 => ⟨S8, .f32⟩
  | 109 => ⟨S1x8, .f32⟩
  | 110 => ⟨S640000x1, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x128, .f32⟩
  | 120 => ⟨S640000x128, .f32⟩
  | 121 => ⟨S640000x128, .f32⟩
  | 122 => ⟨S_, .f32⟩
  | 123 => ⟨S50000x128, .f32⟩
  | 124 => ⟨S640000x1, .i32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S_, .i32⟩
  | 1 => ⟨S640000, .i32⟩
  | 2 => ⟨S640000, .i1⟩
  | 3 => ⟨S_, .i32⟩
  | 4 => ⟨S640000, .i32⟩
  | 5 => ⟨S640000, .i32⟩
  | 6 => ⟨S640000, .i32⟩
  | 7 => ⟨S640000x1, .i32⟩
  | 8 => ⟨S640000x128, .f32⟩
  | 9 => ⟨S640000x128, .f32⟩
  | 10 => ⟨S640000x128, .f32⟩
  | 11 => ⟨S_, .f32⟩
  | 12 => ⟨S50000x128, .f32⟩
  | 13 => ⟨S640000x1, .i32⟩
  | 14 => ⟨S50000x128, .f32⟩
  | 15 => ⟨S1x128, .f32⟩
  | 16 => ⟨S50000x128, .f32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000x128, .f32⟩
  | 26 => ⟨S640000x128, .f32⟩
  | 27 => ⟨S640000x128, .f32⟩
  | 28 => ⟨S_, .f32⟩
  | 29 => ⟨S50000x128, .f32⟩
  | 30 => ⟨S640000x1, .i32⟩
  | 31 => ⟨S50000x128, .f32⟩
  | 32 => ⟨S1x40, .f32⟩
  | 33 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x8, .f32⟩
  | .local _ .vmem, ⟨5, _⟩ => ⟨S5000x8, .f32⟩
  | .local _ .vmem, ⟨6, _⟩ => ⟨S1x128, .f32⟩
  | .local _ .vmem, ⟨7, _⟩ => ⟨S1x128, .f32⟩
  | .local _ .vmem, ⟨8, _⟩ => ⟨S1x8, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x40, .f32⟩
  | .local _ .vmem, ⟨26, _⟩ => ⟨S1x40, .f32⟩
  | .local _ .vmem, ⟨27, _⟩ => ⟨S5000x40, .f32⟩
  | .local _ .vmem, ⟨28, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_c_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_14 : Ref sig .tc := ⟨.hbm, 88, rfl⟩
abbrev main_call0_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_call1_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_16 : Ref sig .tc := ⟨.hbm, 111, rfl⟩
abbrev main_v79 : Ref sig .tc := ⟨.hbm, 112, rfl⟩
abbrev main_v80 : Ref sig .tc := ⟨.hbm, 113, rfl⟩
abbrev main_c_17 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_19 : Ref sig .tc := ⟨.hbm, 128, rfl⟩
abbrev main_v93 : Ref sig .tc := ⟨.hbm, 129, rfl⟩
abbrev main_v94 : Ref sig .tc := ⟨.hbm, 130, rfl⟩
abbrev main_c_20 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_21 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_22 : Ref sig .tc := ⟨.hbm, 145, rfl⟩
abbrev main_v107 : Ref sig .tc := ⟨.hbm, 146, rfl⟩
abbrev main_v108 : Ref sig .tc := ⟨.hbm, 147, rfl⟩
abbrev main_c_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_24 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  concatenates_S640000x1_S640000x1_S640000x1_S640000x1_S640000x1_S640000x5_d1 : Shape.Concatenates [S640000x1, S640000x1, S640000x1, S640000x1, S640000x1] S640000x5 1
  pads_S640000x5_S640000x8_000_030 : S640000x5.Pads (![0, 0] : Fin 2 → Nat) ![0, 3] ![0, 0] S640000x8
  h_S_ : 0 < S_.numel
  slices_S258x1_S128x1_0_0 : S258x1.Slices ![0, 0] S128x1
  shapeCasts_S128x1_S128 : S128x1.ShapeCasts S128
  bcast_S128_S1x128_1 : S128.BroadcastsInDim S1x128 (![1] : Fin 1 → Fin S1x128.rank)
  slices_S258x1_S128x1_128_0 : S258x1.Slices ![128, 0] S128x1
  slices_S258x1_S1x1_256_0 : S258x1.Slices ![256, 0] S1x1
  shapeCasts_S1x1_S_ : S1x1.ShapeCasts S_
  slices_S258x1_S1x1_257_0 : S258x1.Slices ![257, 0] S1x1
  shapeCasts_S1_S_ : S1.ShapeCasts S_
  bcast_S_S1 : S_.BroadcastsInDim S1 (![] : Fin 0 → Fin S1.rank)
  concatenates_S1_S1_S1_S3_d0 : Shape.Concatenates [S1, S1, S1] S3 0
  pads_S3_S8_050 : S3.Pads (![0] : Fin 1 → Nat) ![5] ![0] S8
  bcast_S8_S1x8_1 : S8.BroadcastsInDim S1x8 (![1] : Fin 1 → Fin S1x8.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x128_S5000x128 : S1x128.Broadcasts S5000x128
  reduces_S5000x128_S5000 : S5000x128.Reduces [1] S5000
  shapeCasts_S5000_S5000x1 : S5000.ShapeCasts S5000x1
  slices_S5000x8_o0_0_S5000x1 : S5000x8.Slices ![0, 0] S5000x1
  slices_S1x8_o0_0_S1x1 : S1x8.Slices ![0, 0] S1x1
  inpos_S1x1_p0_0 : ∀ a, (![0, 0] : Fin 2 → Nat) a < S1x1.size a
  slices_S5000x8_o0_1_S5000x1 : S5000x8.Slices ![0, 1] S5000x1
  slices_S1x8_o0_1_S1x1 : S1x8.Slices ![0, 1] S1x1
  slices_S1x8_o0_2_S1x1 : S1x8.Slices ![0, 2] S1x1
  slices_S5000x8_o0_2_S5000x1 : S5000x8.Slices ![0, 2] S5000x1
  slices_S5000x8_o0_3_S5000x1 : S5000x8.Slices ![0, 3] S5000x1
  slices_S5000x8_o0_4_S5000x1 : S5000x8.Slices ![0, 4] S5000x1
  inb_S5000x1_S5000x1_0_0 : ∀ a, (![0, 0] : Fin 2 → Nat) a + S5000x1.size a ≤ S5000x1.size a
  h_S5000x1 : 0 < S5000x1.numel
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S128_S1x128 : S128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  gather_S50000_S640000x1_S640000_n_0_n_n_0_1_1_wf : GatherDims.WF S50000 S640000x1 S640000 [] [0] [] [0] [] 1 ![1]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S640000x8.size a
  hwx0_2 : ∀ i : grid0.Coords, EltTy.bits .f32 = 32 ∨ (Rect.block (s := S640000x8) S5000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S640000x1.size a
  hwx0_6 : ∀ i : grid0.Coords, EltTy.bits .f32 = 32 ∨ (Rect.block (s := S640000x1) S5000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S50000x40.size a
  hwx3_3 : ∀ i : grid3.Coords, EltTy.bits .f32 = 32 ∨ (Rect.block (s := S50000x40) S5000x40.size (cc3_transform_3 i) (hinb3_3 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S5000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v77) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v78) S5000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v90) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v92) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v104) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v105) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v106) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v118) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v119) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v120) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S640000 : Shape := ⟨1, ![640000]⟩
abbrev S258x1 : Shape := ⟨2, ![258, 1]⟩
abbrev S1 : Shape := ⟨1, ![1]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S640000x258 : Shape := ⟨2, ![640000, 258]⟩
abbrev S1x1 : Shape := ⟨2, ![1, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 167
  | .vmem => 0
  | .smem => 0
  | _ => 0

abbrev hbmTy0_0 (i : Nat) : BufTy := match i % 128 with
  | 0 => ⟨S50000x128, .f32⟩
  | 1 => ⟨S640000, .f32⟩
  | 2 => ⟨S640000, .i32⟩
  | 3 => ⟨S640000, .i32⟩
  | 4 => ⟨S258x1, .f32⟩
  | 5 => ⟨S1, .f32⟩
  | 6 => ⟨S128x128, .f32⟩
  | 7 => ⟨S128, .f32⟩
  | 8 => ⟨S128x128, .f32⟩
  | 9 => ⟨S128, .f32⟩
  | 10 => ⟨S128x40, .f32⟩
  | 11 => ⟨S40, .f32⟩
  | 12 => ⟨S_, .f32⟩
  | 13 => ⟨S640000, .f32⟩
  | 14 => ⟨S_, .f32⟩
  | 15 => ⟨S50000, .f32⟩
  | 16 => ⟨S640000x1, .i32⟩
  | 17 => ⟨S50000, .f32⟩
  | 18 => ⟨S_, .f32⟩
  | 19 => ⟨S50000, .f32⟩
  | 20 => ⟨S640000x1, .i32⟩
  | 21 => ⟨S50000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x128, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x128, .f32⟩
  | 40 => ⟨S50000, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000, .f32⟩
  | 50 => ⟨S640000x1, .f32⟩
  | 51 => ⟨S50000, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000, .f32⟩
  | 61 => ⟨S640000x1, .f32⟩
  | 62 => ⟨S640000x258, .f32⟩
  | 63 => ⟨S640000x1, .f32⟩
  | 64 => ⟨S1x1, .f32⟩
  | 65 => ⟨S640000x1, .f32⟩
  | 66 => ⟨S640000x1, .f32⟩
  | 67 => ⟨S640000x1, .f32⟩
  | 68 => ⟨S640000x1, .f32⟩
  | 69 => ⟨S_, .f32⟩
  | 70 => ⟨S640000x1, .f32⟩
  | 71 => ⟨S640000x1, .f32⟩
  | 72 => ⟨S_, .f32⟩
  | 73 => ⟨S640000x1, .f32⟩
  | 74 => ⟨S640000x1, .f32⟩
  | 75 => ⟨S640000, .f32⟩
  | 76 => ⟨S640000, .f32⟩
  | 77 => ⟨S_, .f32⟩
  | 78 => ⟨S50000, .f32⟩
  | 79 => ⟨S50000, .f32⟩
  | 80 => ⟨S50000, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000, .f32⟩
  | 90 => ⟨S640000, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000, .f32⟩
  | 100 => ⟨S640000, .f32⟩
  | 101 => ⟨S640000x1, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S640000x128, .f32⟩
  | 112 => ⟨S640000x128, .f32⟩
  | 113 => ⟨S_, .f32⟩
  | 114 => ⟨S50000x128, .f32⟩
  | 115 => ⟨S640000x1, .i32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S640000x1, .f32⟩
  | 125 => ⟨S_, .i32⟩
  | 126 => ⟨S640000, .i32⟩
  | 127 => ⟨S640000, .i1⟩
  | _ => ⟨S50000x128, .f32⟩

abbrev hbmTy0_1 (i : Nat) : BufTy := match i % 128 with
  | 0 => ⟨S_, .i32⟩
  | 1 => ⟨S640000, .i32⟩
  | 2 => ⟨S640000, .i32⟩
  | 3 => ⟨S640000, .i32⟩
  | 4 => ⟨S640000x1, .i32⟩
  | 5 => ⟨S640000x128, .f32⟩
  | 6 => ⟨S640000x128, .f32⟩
  | 7 => ⟨S640000x128, .f32⟩
  | 8 => ⟨S_, .f32⟩
  | 9 => ⟨S50000x128, .f32⟩
  | 10 => ⟨S640000x1, .i32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S640000x1, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S640000x128, .f32⟩
  | 30 => ⟨S640000x128, .f32⟩
  | 31 => ⟨S_, .f32⟩
  | 32 => ⟨S50000x128, .f32⟩
  | 33 => ⟨S640000x1, .i32⟩
  | 34 => ⟨S50000x128, .f32⟩
  | 35 => ⟨S50000x40, .f32⟩
  | 36 => ⟨S1x40, .f32⟩
  | 37 => ⟨S50000x40, .f32⟩
  | 38 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_call0_cst : Ref sig .tc := ⟨.hbm, 121, rfl⟩
abbrev main_call0_v0 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_21 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_call1_cst : Ref sig .tc := ⟨.hbm, 144, rfl⟩
abbrev main_call1_v0 : Ref sig .tc := ⟨.hbm, 145, rfl⟩
abbrev main_v106 : Ref sig .tc := ⟨.hbm, 146, rfl⟩
abbrev main_v107 : Ref sig .tc := ⟨.hbm, 147, rfl⟩
abbrev main_c_22 : Ref sig .tc := ⟨.hbm, 148, rfl⟩
abbrev main_v108 : Ref sig .tc := ⟨.hbm, 149, rfl⟩
abbrev main_v109 : Ref sig .tc := ⟨.hbm, 150, rfl⟩
abbrev main_c_23 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_24 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  concatenates_S640000x128_S640000x128_S640000x1_S640000x1_S640000x258_d1 : Shape.Concatenates [S640000x128, S640000x128, S640000x1, S640000x1] S640000x258 1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  shapeCasts_S640000x1_S640000 : S640000x1.ShapeCasts S640000
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  gather_S50000_S640000x1_S640000_n_0_n_n_0_1_1_wf : GatherDims.WF S50000 S640000x1 S640000 [] [0] [] [0] [] 1 ![1]
  dot_S640000x258_S258x1_S640000x1_1_0_0_1_n_n_wf : DotDims.WF S640000x258 S258x1 S640000x1 [1] [0] [0] [1] [] []
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S640000x258_S258x1_S640000x1_1_0_0_1_n_n : DotDims S640000x258 S258x1 S640000x1 where
  lhsContracting := [1]
  rhsContracting := [0]
  lhsNonContracting := [0]
  rhsNonContracting := [1]
  lhsBatch := []
  rhsBatch := []
  wf := dot_S640000x258_S258x1_S640000x1_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.K.Region0.lean ====
import proofs.«151107_j62362925138837_1_alg».proof.Proof.Gen.Kernel.Launch
import proofs.«151107_j62362925138837_1_alg».proof.Proof.Gen.Kernel.Skeleton
import proofs.«151107_j62362925138837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))
/-! # Region 0: `cc0_edge_score_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the previous point's block is this point's; the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): where the window is not
    fetched its block index has not moved, so the previous point's block is this point's; the window is uncut and
    never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): where the window is not
    fetched its block index has not moved, so the previous point's block is this point's; the window is uncut and
    never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): where the window is not
    fetched its block index has not moved, so the previous point's block is this point's; the window is uncut and
    never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole block -/

abbrev r0_0 : Rect S5000x128 := Rect.unit (s := S5000x128) ![0, 0] S5000x128.size inb_S5000x128_S5000x128_0_0
abbrev r0_1 : Rect S5000x128 := Rect.unit (s := S5000x128) ![0, 0] S5000x128.size inb_S5000x128_S5000x128_0_0
abbrev r0_2 : Rect S5000x8 := Rect.unit (s := S5000x8) ![0, 0] S5000x8.size inb_S5000x8_S5000x8_0_0
abbrev r0_3 : Rect S1x128 := Rect.unit (s := S1x128) ![0, 0] S1x128.size inb_S1x128_S1x128_0_0
abbrev r0_4 : Rect S1x128 := Rect.unit (s := S1x128) ![0, 0] S1x128.size inb_S1x128_S1x128_0_0
abbrev r0_5 : Rect S1x8 := Rect.unit (s := S1x8) ![0, 0] S1x8.size inb_S1x8_S1x8_0_0
abbrev r0_6 : Rect S5000x1 := Rect.unit (s := S5000x1) ![0, 0] S5000x1.size inb_S5000x1_S5000x1_0_0

/-! ## What the body leaves in the output window's buffer -/

/-- Window 6's staging buffer after the body, from the input windows' blocks: its one whole-block store. The payload
    takes the loaded values in the order the body loads them: windows 0, 1, 3, 4, 2, 5. -/
def out0_6 (x0 x1 : Vec F S5000x128 .f32) (x2 : Vec F S5000x8 .f32) (x3 x4 : Vec F S1x128 .f32) (x5 : Vec F S1x8 .f32) : Vec F S5000x1 .f32 :=
  View.canon [⟨r0_6, k0_pay1 (View.ld x0 r0_0) (View.ld x1 r0_1) (View.ld x3 r0_3) (View.ld x4 r0_4) (View.ld x2 r0_2) (View.ld x5 r0_5)⟩]

/-- The store is of the whole block, so it covers the buffer. -/
theorem cover0_6 (p0 : Vec F S5000x1 .f32) (y : S5000x1.Idx) :
    ∃ pc ∈ ([⟨r0_6, p0⟩] : List (View.Piece (Elt F) S5000x1 .f32)), y ∈ pc.1.set :=
  View.cover_of_tiled [⟨r0_6, p0⟩] S5000x1.size (by rfl) y

/-! ## The body's triple -/

set_option maxHeartbeats 1000000 in
/-- The kernel body on whole staging memrefs, the inputs' at read contents `xW` and the output's at anything, runs to
    the continuation holding the inputs' as they were and the output's at `out0_6` of the inputs': six whole-block
    loads (in its first part), a load of the output buffer whose value is not used, and one whole-block store of the
    payload. -/
theorem sound_kernel0 (c : Dev nD) (E : Set ℕ) (i : grid0.Coords)
    (arg0 : Memref sig .tc .vmem S5000x128 .f32) (harg0 : arg0.IsWhole)
    (arg1 : Memref sig .tc .vmem S5000x128 .f32) (harg1 : arg1.IsWhole)
    (arg2 : Memref sig .tc .vmem S5000x8 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x8 .f32) (harg5 : arg5.IsWhole)
    (arg6 : Memref sig .tc .vmem S5000x1 .f32) (harg6 : arg6.IsWhole)
    (x0 x1 : Vec F S5000x128 .f32) (x2 : Vec F S5000x8 .f32) (x3 x4 : Vec F S1x128 .f32) (x5 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0_edge_score_kernel i arg0 harg0 arg1 harg1 arg2 harg2 arg3 harg3 arg4 harg4 arg5 harg5 arg6 harg6) K := by
  simp only [cc0_edge_score_kernel_eq_skeleton]; unfold cc0_edge_score_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and the output's at `out0_6` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«151107_j62362925138837_1_alg».proof.Proof.Gen.Kernel.Launch
import proofs.«151107_j62362925138837_1_alg».proof.Proof.Gen.Kernel.Skeleton
import proofs.«151107_j62362925138837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))
/-! # Region 1: `cc1_node_apply_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's; the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's whole block -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-! ## What the body leaves in the output window's buffer -/

/-- Window 3's staging buffer after the body, from the input windows' blocks: its one whole-block store. -/
def out1_3 (x0 : Vec F S5000x128 .f32) (x1 : Vec F S128x128 .f32) (x2 : Vec F S1x128 .f32) : Vec F S5000x128 .f32 :=
  View.canon [⟨r1_3, k1_pay1 (View.ld x0 r1_0) (View.ld x1 r1_1) (View.ld x2 r1_2)⟩]

/-- The store is of the whole block, so it covers the buffer. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

/-! ## The body's triple -/

set_option maxHeartbeats 1000000 in
/-- The kernel body on whole staging memrefs, the inputs' at read contents `xW` and the output's at anything, runs to
    the continuation holding the inputs' as they were and the output's at `out1_3` of the inputs': three whole-block
    loads, a load of the output buffer whose value is not used, and one whole-block store of the payload. -/
theorem sound_kernel1 (c : Dev nD) (E : Set ℕ) (i : grid1.Coords)
    (arg0 : Memref sig .tc .vmem S5000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1_node_apply_kernel i arg0 harg0 arg1 harg1 arg2 harg2 arg3 harg3) K := by
  simp only [cc1_node_apply_kernel_eq_skeleton]; unfold cc1_node_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«151107_j62362925138837_1_alg».proof.Proof.Gen.Kernel.Launch
import proofs.«151107_j62362925138837_1_alg».proof.Proof.Gen.Kernel.Skeleton
import proofs.«151107_j62362925138837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))
/-! # Region 2: `cc2_node_apply_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the previous point's block is this point's; the window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's whole block -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S5000x128 := Rect.unit (s := S5000x128) ![0, 0] S5000x128.size inb_S5000x128_S5000x128_0_0

/-! ## What the body leaves in the output window's buffer -/

/-- Window 3's staging buffer after the body, from the input windows' blocks: its one whole-block store. -/
def out2_3 (x0 : Vec F S5000x128 .f32) (x1 : Vec F S128x128 .f32) (x2 : Vec F S1x128 .f32) : Vec F S5000x128 .f32 :=
  View.canon [⟨r2_3, k2_pay1 (View.ld x0 r2_0) (View.ld x1 r2_1) (View.ld x2 r2_2)⟩]

/-- The store is of the whole block, so it covers the buffer. -/
theorem cover2_3 (p0 : Vec F S5000x128 .f32) (y : S5000x128.Idx) :
    ∃ pc ∈ ([⟨r2_3, p0⟩] : List (View.Piece (Elt F) S5000x128 .f32)), y ∈ pc.1.set :=
  View.cover_of_tiled [⟨r2_3, p0⟩] S5000x128.size (by rfl) y

/-! ## The body's triple -/

set_option maxHeartbeats 1000000 in
/-- The kernel body on whole staging memrefs, the inputs' at read contents `xW` and the output's at anything, runs to
    the continuation holding the inputs' as they were and the output's at `out2_3` of the inputs': three whole-block
    loads, a load of the output buffer whose value is not used, and one whole-block store of the payload. -/
theorem sound_kernel2 (c : Dev nD) (E : Set ℕ) (i : grid2.Coords)
    (arg0 : Memref sig .tc .vmem S5000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2_node_apply_kernel i arg0 harg0 arg1 harg1 arg2 harg2 arg3 harg3) K := by
  simp only [cc2_node_apply_kernel_eq_skeleton]; unfold cc2_node_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«151107_j62362925138837_1_alg».proof.Proof.Gen.Kernel.Launch
import proofs.«151107_j62362925138837_1_alg».proof.Proof.Gen.Kernel.Skeleton
import proofs.«151107_j62362925138837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))
/-! # Region 3: `cc3_node_apply_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the previous point's block is this point's; the window is uncut and
    never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window's whole block -/

abbrev r3_0 : Rect S5000x128 := Rect.unit (s := S5000x128) ![0, 0] S5000x128.size inb_S5000x128_S5000x128_0_0
abbrev r3_1 : Rect S128x40 := Rect.unit (s := S128x40) ![0, 0] S128x40.size inb_S128x40_S128x40_0_0
abbrev r3_2 : Rect S1x40 := Rect.unit (s := S1x40) ![0, 0] S1x40.size inb_S1x40_S1x40_0_0
abbrev r3_3 : Rect S5000x40 := Rect.unit (s := S5000x40) ![0, 0] S5000x40.size inb_S5000x40_S5000x40_0_0

/-! ## What the body leaves in the output window's buffer -/

/-- Window 3's staging buffer after the body, from the input windows' blocks: its one whole-block store. -/
def out3_3 (x0 : Vec F S5000x128 .f32) (x1 : Vec F S128x40 .f32) (x2 : Vec F S1x40 .f32) : Vec F S5000x40 .f32 :=
  View.canon [⟨r3_3, k3_pay1 (View.ld x0 r3_0) (View.ld x1 r3_1) (View.ld x2 r3_2)⟩]

/-- The store is of the whole block, so it covers the buffer. -/
theorem cover3_3 (p0 : Vec F S5000x40 .f32) (y : S5000x40.Idx) :
    ∃ pc ∈ ([⟨r3_3, p0⟩] : List (View.Piece (Elt F) S5000x40 .f32)), y ∈ pc.1.set :=
  View.cover_of_tiled [⟨r3_3, p0⟩] S5000x40.size (by rfl) y

/-! ## The body's triple -/

set_option maxHeartbeats 1000000 in
/-- The kernel body on whole staging memrefs, the inputs' at read contents `xW` and the output's at anything, runs to
    the continuation holding the inputs' as they were and the output's at `out3_3` of the inputs': three whole-block
    loads, a load of the output buffer whose value is not used, and one whole-block store of the payload. -/
theorem sound_kernel3 (c : Dev nD) (E : Set ℕ) (i : grid3.Coords)
    (arg0 : Memref sig .tc .vmem S5000x128 .f32) (harg0 : arg0.IsWhole) (arg1 : Memref sig .tc .vmem S128x40 .f32) (harg1 : arg1.IsWhole)
    (arg2 : Memref sig .tc .vmem S1x40 .f32) (harg2 : arg2.IsWhole) (arg3 : Memref sig .tc .vmem S5000x40 .f32) (harg3 : arg3.IsWhole)
    (x0 : Vec F S5000x128 .f32) (x1 : Vec F S128x40 .f32) (x2 : Vec F S1x40 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3_node_apply_kernel i arg0 harg0 arg1 harg1 arg2 harg2 arg3 harg3) K := by
  simp only [cc3_node_apply_kernel_eq_skeleton]; unfold cc3_node_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.RunHost.lean ====
import proofs.«151107_j62362925138837_1_alg».proof.Proof.Gen.Kernel.Launch
import proofs.«151107_j62362925138837_1_alg».proof.Proof.Gen.Kernel.Skeleton
import proofs.«151107_j62362925138837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The host stretches of @main: none allocates, none writes an argument array -/

/-- Two references whose indices lie on either side of 12 differ. -/
theorem ne_of_idx {b y : Ref sig .tc} (hb : b.idx.val < 12) (hy : 12 ≤ y.idx.val) : b ≠ y :=
  fun e => by subst e; omega

set_option maxHeartbeats 40000000 in
/-- No operation of `hostOps0` allocates a buffer. -/
theorem hostOps0_fresh : (hostOps0 : List (HloOp τ sig (Elt F))).Forall fun op => op.fresh = ∅ := by
  simp only [List.Forall]; repeat' constructor

set_option maxHeartbeats 40000000 in
/-- Every buffer `hostOps0` writes has index at least 12 (the twelve argument arrays are the indices below), so a
    reference of index below 12 keeps its contents through the stretch. -/
theorem keep_hostOps0 (W : Valuation τ sig (Elt F)) (b : Ref sig .tc) (hb : b.idx.val < 12) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps0_1` allocates a buffer. -/
theorem hostOps0_1_fresh : (hostOps0_1 : List (HloOp τ sig (Elt F))).Forall fun op => op.fresh = ∅ := by
  simp only [List.Forall]; repeat' constructor

/-- Every buffer `hostOps0_1` writes has index at least 12 (the twelve argument arrays are the indices below), so a
    reference of index below 12 keeps its contents through the stretch. -/
theorem keep_hostOps0_1 (W : Valuation τ sig (Elt F)) (b : Ref sig .tc) (hb : b.idx.val < 12) :
    StableHlo.after (hostOps0_1 (F := F)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps0_2` allocates a buffer. -/
theorem hostOps0_2_fresh : (hostOps0_2 : List (HloOp τ sig (Elt F))).Forall fun op => op.fresh = ∅ := by
  simp only [List.Forall]; repeat' constructor

/-- Every buffer `hostOps0_2` writes has index at least 12 (the twelve argument arrays are the indices below), so a
    reference of index below 12 keeps its contents through the stretch. -/
theorem keep_hostOps0_2 (W : Valuation τ sig (Elt F)) (b : Ref sig .tc) (hb : b.idx.val < 12) :
    StableHlo.after (hostOps0_2 (F := F)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps0_3` allocates a buffer. -/
theorem hostOps0_3_fresh : (hostOps0_3 : List (HloOp τ sig (Elt F))).Forall fun op => op.fresh = ∅ := by
  simp only [List.Forall]; repeat' constructor

/-- Every buffer `hostOps0_3` writes has index at least 12 (the twelve argument arrays are the indices below), so a
    reference of index below 12 keeps its contents through the stretch. -/
theorem keep_hostOps0_3 (W : Valuation τ sig (Elt F)) (b : Ref sig .tc) (hb : b.idx.val < 12) :
    StableHlo.after (hostOps0_3 (F := F)) W (Proc.devRef .tc b) = W (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps0_4` allocates a buffer. -/
theorem hostOps0_4_fresh : (hostOps0_4 : List (HloOp τ sig (Elt F))).Forall fun op => op.fresh = ∅ := by
  simp only [List.Forall]; repeat' constructor

/-- Every buffer `hostOps0_4` writes has index at least 12 (the twelve argument arrays are the indices below), so a
    reference of index below 12 keeps its contents through the stretch. -/
theorem keep_hostOps0_4 (W : Valuation τ sig (Elt F)) (b : Ref sig .tc) (hb : b.idx.val < 12) :
    StableHlo.after (hostOps0_4 (F := F)) W (Proc.devRef .tc b) = W (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps1` allocates a buffer. -/
theorem hostOps1_fresh : (hostOps1 : List (HloOp τ sig (Elt F))).Forall fun op => op.fresh = ∅ := by
  simp only [List.Forall]; repeat' constructor

/-- Every buffer `hostOps1` writes has index at least 12 (the twelve argument arrays are the indices below), so a
    reference of index below 12 keeps its contents through the stretch. -/
theorem keep_hostOps1 (W : Valuation τ sig (Elt F)) (b : Ref sig .tc) (hb : b.idx.val < 12) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps2` allocates a buffer. -/
theorem hostOps2_fresh : (hostOps2 : List (HloOp τ sig (Elt F))).Forall fun op => op.fresh = ∅ := by
  simp only [List.Forall]; repeat' constructor

/-- Every buffer `hostOps2` writes has index at least 12 (the twelve argument arrays are the indices below), so a
    reference of index below 12 keeps its contents through the stretch. -/
theorem keep_hostOps2 (W : Valuation τ sig (Elt F)) (b : Ref sig .tc) (hb : b.idx.val < 12) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps3` allocates a buffer. -/
theorem hostOps3_fresh : (hostOps3 : List (HloOp τ sig (Elt F))).Forall fun op => op.fresh = ∅ := by
  simp only [List.Forall]; repeat' constructor

/-- Every buffer `hostOps3` writes has index at least 12 (the twelve argument arrays are the indices below), so a
    reference of index below 12 keeps its contents through the stretch. -/
theorem keep_hostOps3 (W : Valuation τ sig (Elt F)) (b : Ref sig .tc) (hb : b.idx.val < 12) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

end Cert.Kernel.Hand

end
-- ==== Proof.K.RunDefs.lean ====
import proofs.«151107_j62362925138837_1_alg».proof.Proof.K.Region0
import proofs.«151107_j62362925138837_1_alg».proof.Proof.K.Region1
import proofs.«151107_j62362925138837_1_alg».proof.Proof.K.Region2
import proofs.«151107_j62362925138837_1_alg».proof.Proof.K.Region3
import proofs.«151107_j62362925138837_1_alg».proof.Proof.K.RunHost
import proofs.«151107_j62362925138837_1_alg».proof.Proof.Gen.Kernel.Launch
import proofs.«151107_j62362925138837_1_alg».proof.Proof.Gen.Kernel.Skeleton
import proofs.«151107_j62362925138837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's twelve segments from the launch to the return

## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4` (region 0's entry). -/
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, the output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves (`hF0`) and every other buffer what it
    held at entry (`hrest0`). -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1` (region 1's entry). -/
abbrev W7 : Dev nD → Valuation τ sig (Elt F) := fun c => StableHlo.after hostOps1 (W6 m ρ c)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, the output's write-backs
    folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`). -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2` (region 2's entry). -/
abbrev W9 : Dev nD → Valuation τ sig (Elt F) := fun c => StableHlo.after hostOps2 (W8 m ρ c)
/-- The same read at the TensorCore's references (what region 2's proof data take). -/
abbrev V9 : (c : Dev nD) → (b : Ref sig .tc) → Buf (Elt F) ((c : Thread nD τ).loc b) := fun c b => W9 m ρ c b
/-- At region 2's exit: its arrays at what the pipeline leaves (the inputs as entered, the output's write-backs
    folded), every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves (`hF2`) and every other buffer what it
    held at entry (`hrest2`). -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3` (region 3's entry). -/
abbrev W11 : Dev nD → Valuation τ sig (Elt F) := fun c => StableHlo.after hostOps3 (W10 m ρ c)
/-- The same read at the TensorCore's references (what region 3's proof data take). -/
abbrev V11 : (c : Dev nD) → (b : Ref sig .tc) → Buf (Elt F) ((c : Thread nD τ).loc b) := fun c b => W11 m ρ c b
/-- At region 3's exit: its arrays at what the pipeline leaves (the inputs as entered, the output's write-backs
    folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves (`hF3`) and every other buffer what it
    held at entry (`hrest3`). -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the
    generator register at some state. -/
abbrev Tₙ (c : Dev nD) : sProp 𝕄 := iprop(StableHlo.held (c : Thread nD τ) (Pipeline.ucRefs τ sig) (W12 m ρ c) ∗ ∃ r, prngReg c r)

/-! ## The regions as segments -/

-- a library lemma stated over `pin pcs a p` unifies with the pinned configuration only when unification may
-- unfold plain definitions in a metavariable's type
set_option backward.isDefEq.respectTransparency.types false in
/-- REGION 0 over the thread state: entered from every unscoped buffer at `W5`, left at `W6`. Its arrays
    split out of the unscoped buffers and put back at the exit contents; the generator register into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 1 over the thread state: entered from every unscoped buffer at `W7`, left at `W8`. Its arrays
    split out of the unscoped buffers and put back at the exit contents; the generator register into the class
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 2 over the thread state: entered from every unscoped buffer at `W9`, left at `W10`. Its arrays
    split out of the unscoped buffers and put back at the exit contents; the generator register into the class
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 3 over the thread state: entered from every unscoped buffer at `W11`, left at `W12`. Its arrays
    split out of the unscoped buffers and put back at the exit contents; the generator register into the class
    invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
import proofs.«151107_j62362925138837_1_alg».proof.Proof.K.RunDefs
import proofs.«151107_j62362925138837_1_alg».proof.Proof.Gen.Kernel.Launch
import proofs.«151107_j62362925138837_1_alg».proof.Proof.Gen.Kernel.Skeleton
import proofs.«151107_j62362925138837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ) ]

set_option maxHeartbeats 40000000 in
/-- @main IS the run of the segments: @main as the chain of its items, then the segments' run against that chain by
    the kernel's definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
set_option maxHeartbeats 40000000 in
/-- THE LAUNCH: at the compiled mesh, from any memory with zero counters, every weakly fair execution of @main on the
    TensorCores terminates, nothing faulting, and in every final state every unscoped buffer of every core holds the
    last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.Kernel.Hand

end
-- ==== Proof.K.RunArgs.lean ====
import proofs.«151107_j62362925138837_1_alg».proof.Proof.K.Run
import proofs.«151107_j62362925138837_1_alg».proof.Proof.Gen.Kernel.Launch
import proofs.«151107_j62362925138837_1_alg».proof.Proof.Gen.Kernel.Skeleton
import proofs.«151107_j62362925138837_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arguments end as launched: no host operation and no region writes one (a region reads it through an
    input window or bypasses it), so the fold at an argument's buffer walks back to the launch memory -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := keep_hostOps3 (W10 m ρ c) main_arg0 (by decide)
    _ = W9 m ρ c (Proc.devRef .tc main_arg0) := W10_of_ne m ρ c main_arg0 (by decide)
    _ = W8 m ρ c (Proc.devRef .tc main_arg0) := keep_hostOps2 (W8 m ρ c) main_arg0 (by decide)
    _ = W7 m ρ c (Proc.devRef .tc main_arg0) := W8_of_ne m ρ c main_arg0 (by decide)
    _ = W6 m ρ c (Proc.devRef .tc main_arg0) := keep_hostOps1 (W6 m ρ c) main_arg0 (by decide)
    _ = W5 m ρ c (Proc.devRef .tc main_arg0) := W6_of_ne m ρ c main_arg0 (by decide)
    _ = W4 m ρ c (Proc.devRef .tc main_arg0) := keep_hostOps0_4 (W4 m ρ c) main_arg0 (by decide)
    _ = W3 m ρ c (Proc.devRef .tc main_arg0) := keep_hostOps0_3 (W3 m ρ c) main_arg0 (by decide)
    _ = W2 m ρ c (Proc.devRef .tc main_arg0) := keep_hostOps0_2 (W2 m ρ c) main_arg0 (by decide)
    _ = W1 m ρ c (Proc.devRef .tc main_arg0) := keep_hostOps0_1 (W1 m ρ c) main_arg0 (by decide)
    _ = W0 m ρ c (Proc.devRef .tc main_arg0) := keep_hostOps0 (W0 m ρ c) main_arg0 (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := keep_hostOps3 (W10 m ρ c) main_arg1 (by decide)
    _ = W9 m ρ c (Proc.devRef .tc main_arg1) := W10_of_ne m ρ c main_arg1 (by decide)
    _ = W8 m ρ c (Proc.devRef .tc main_arg1) := keep_hostOps2 (W8 m ρ c) main_arg1 (by decide)
    _ = W7 m ρ c (Proc.devRef .tc main_arg1) := W8_of_ne m ρ c main_arg1 (by decide)
    _ = W6 m ρ c (Proc.devRef .tc main_arg1) := keep_hostOps1 (W6 m ρ c) main_arg1 (by decide)
    _ = W5 m ρ c (Proc.devRef .tc main_arg1) := W6_of_ne m ρ c main_arg1 (by decide)
    _ = W4 m ρ c (Proc.devRef .tc main_arg1) := keep_hostOps0_4 (W4 m ρ c) main_arg1 (by decide)
    _ = W3 m ρ c (Proc.devRef .tc main_arg1) := keep_hostOps0_3 (W3 m ρ c) main_arg1 (by decide)
    _ = W2 m ρ c (Proc.devRef .tc main_arg1) := keep_hostOps0_2 (W2 m ρ c) main_arg1 (by decide)
    _ = W1 m ρ c (Proc.devRef .tc main_arg1) := keep_hostOps0_1 (W1 m ρ c) main_arg1 (by decide)
    _ = W0 m ρ c (Proc.devRef .tc main_arg1) := keep_hostOps0 (W0 m ρ c) main_arg1 (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := keep_hostOps3 (W10 m ρ c) main_arg2 (by decide)
    _ = W9 m ρ c (Proc.devRef .tc main_arg2) := W10_of_ne m ρ c main_arg2 (by decide)
    _ = W8 m ρ c (Proc.devRef .tc main_arg2) := keep_hostOps2 (W8 m ρ c) main_arg2 (by decide)
    _ = W7 m ρ c (Proc.devRef .tc main_arg2) := W8_of_ne m ρ c main_arg2 (by decide)
    _ = W6 m ρ c (Proc.devRef .tc main_arg2) := keep_hostOps1 (W6 m ρ c) main_arg2 (by decide)
    _ = W5 m ρ c (Proc.devRef .tc main_arg2) := W6_of_ne m ρ c main_arg2 (by decide)
    _ = W4 m ρ c (Proc.devRef .tc main_arg2) := keep_hostOps0_4 (W4 m ρ c) main_arg2 (by decide)
    _ = W3 m ρ c (Proc.devRef .tc main_arg2) := keep_hostOps0_3 (W3 m ρ c) main_arg2 (by decide)
    _ = W2 m ρ c (Proc.devRef .tc main_arg2) := keep_hostOps0_2 (W2 m ρ c) main_arg2 (by decide)
    _ = W1 m ρ c (Proc.devRef .tc main_arg2) := keep_hostOps0_1 (W1 m ρ c) main_arg2 (by decide)
    _ = W0 m ρ c (Proc.devRef .tc main_arg2) := keep_hostOps0 (W0 m ρ c) main_arg2 (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := keep_hostOps3 (W10 m ρ c) main_arg3 (by decide)
    _ = W9 m ρ c (Proc.devRef .tc main_arg3) := W10_of_ne m ρ c main_arg3 (by decide)
    _ = W8 m ρ c (Proc.devRef .tc main_arg3) := keep_hostOps2 (W8 m ρ c) main_arg3 (by decide)
    _ = W7 m ρ c (Proc.devRef .tc main_arg3) := W8_of_ne m ρ c main_arg3 (by decide)
    _ = W6 m ρ c (Proc.devRef .tc main_arg3) := keep_hostOps1 (W6 m ρ c) main_arg3 (by decide)
    _ = W5 m ρ c (Proc.devRef .tc main_arg3) := W6_of_ne m ρ c main_arg3 (by decide)
    _ = W4 m ρ c (Proc.devRef .tc main_arg3) := keep_hostOps0_4 (W4 m ρ c) main_arg3 (by decide)
    _ = W3 m ρ c (Proc.devRef .tc main_arg3) := keep_hostOps0_3 (W3 m ρ c) main_arg3 (by decide)
    _ = W2 m ρ c (Proc.devRef .tc main_arg3) := keep_hostOps0_2 (W2 m ρ c) main_arg3 (by decide)
    _ = W1 m ρ c (Proc.devRef .tc main_arg3) := keep_hostOps0_1 (W1 m ρ c) main_arg3 (by decide)
    _ = W0 m ρ c (Proc.devRef .tc main_arg3) := keep_hostOps0 (W0 m ρ c) main_arg3 (by decide)
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := keep_hostOps3 (W10 m ρ c) main_arg4 (by decide)
    _ = W9 m ρ c (Proc.devRef .tc main_arg4) := W10_of_ne m ρ c main_arg4 (by decide)
    _ = W8 m ρ c (Proc.devRef .tc main_arg4) := keep_hostOps2 (W8 m ρ c) main_arg4 (by decide)
    _ = W7 m ρ c (Proc.devRef .tc main_arg4) := W8_of_ne m ρ c main_arg4 (by decide)
    _ = W6 m ρ c (Proc.devRef .tc main_arg4) := keep_hostOps1 (W6 m ρ c) main_arg4 (by decide)
    _ = W5 m ρ c (Proc.devRef .tc main_arg4) := W6_of_ne m ρ c main_arg4 (by decide)
    _ = W4 m ρ c (Proc.devRef .tc main_arg4) := keep_hostOps0_4 (W4 m ρ c) main_arg4 (by decide)
    _ = W3 m ρ c (Proc.devRef .tc main_arg4) := keep_hostOps0_3 (W3 m ρ c) main_arg4 (by decide)
    _ = W2 m ρ c (Proc.devRef .tc main_arg4) := keep_hostOps0_2 (W2 m ρ c) main_arg4 (by decide)
    _ = W1 m ρ c (Proc.devRef .tc main_arg4) := keep_hostOps0_1 (W1 m ρ c) main_arg4 (by decide)
    _ = W0 m ρ c (Proc.devRef .tc main_arg4) := keep_hostOps0 (W0 m ρ c) main_arg4 (by decide)
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := keep_hostOps3 (W10 m ρ c) main_arg5 (by decide)
    _ = W9 m ρ c (Proc.devRef .tc main_arg5) := W10_of_ne m ρ c main_arg5 (by decide)
    _ = W8 m ρ c (Proc.devRef .tc main_arg5) := keep_hostOps2 (W8 m ρ c) main_arg5 (by decide)
    _ = W7 m ρ c (Proc.devRef .tc main_arg5) := W8_of_ne m ρ c main_arg5 (by decide)
    _ = W6 m ρ c (Proc.devRef .tc main_arg5) := keep_hostOps1 (W6 m ρ c) main_arg5 (by decide)
    _ = W5 m ρ c (Proc.devRef .tc main_arg5) := W6_of_ne m ρ c main_arg5 (by decide)
    _ = W4 m ρ c (Proc.devRef .tc main_arg5) := keep_hostOps0_4 (W4 m ρ c) main_arg5 (by decide)
    _ = W3 m ρ c (Proc.devRef .tc main_arg5) := keep_hostOps0_3 (W3 m ρ c) main_arg5 (by decide)
    _ = W2 m ρ c (Proc.devRef .tc main_arg5) := keep_hostOps0_2 (W2 m ρ c) main_arg5 (by decide)
    _ = W1 m ρ c (Proc.devRef .tc main_arg5) := keep_hostOps0_1 (W1 m ρ c) main_arg5 (by decide)
    _ = W0 m ρ c (Proc.devRef .tc main_arg5) := keep_hostOps0 (W0 m ρ c) main_arg5 (by decide)
    _ = m ((c : Thread nD τ).loc main_arg5) := rfl

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := keep_hostOps3 (W10 m ρ c) main_arg6 (by decide)
    _ = W9 m ρ c (Proc.devRef .tc main_arg6) := W10_of_ne m ρ c main_arg6 (by decide)
    _ = W8 m ρ c (Proc.devRef .tc main_arg6) := keep_hostOps2 (W8 m ρ c) main_arg6 (by decide)
    _ = W7 m ρ c (Proc.devRef .tc main_arg6) := (W8_arr m ρ c 1).trans (((dat1 (V7 m ρ) c).arrAt_in 1 rfl _).trans (A_eq1 (V7 m ρ) c 1))
    _ = W6 m ρ c (Proc.devRef .tc main_arg6) := keep_hostOps1 (W6 m ρ c) main_arg6 (by decide)
    _ = W5 m ρ c (Proc.devRef .tc main_arg6) := W6_of_ne m ρ c main_arg6 (by decide)
    _ = W4 m ρ c (Proc.devRef .tc main_arg6) := keep_hostOps0_4 (W4 m ρ c) main_arg6 (by decide)
    _ = W3 m ρ c (Proc.devRef .tc main_arg6) := keep_hostOps0_3 (W3 m ρ c) main_arg6 (by decide)
    _ = W2 m ρ c (Proc.devRef .tc main_arg6) := keep_hostOps0_2 (W2 m ρ c) main_arg6 (by decide)
    _ = W1 m ρ c (Proc.devRef .tc main_arg6) := keep_hostOps0_1 (W1 m ρ c) main_arg6 (by decide)
    _ = W0 m ρ c (Proc.devRef .tc main_arg6) := keep_hostOps0 (W0 m ρ c) main_arg6 (by decide)
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := keep_hostOps3 (W10 m ρ c) main_arg7 (by decide)
    _ = W9 m ρ c (Proc.devRef .tc main_arg7) := W10_of_ne m ρ c main_arg7 (by decide)
    _ = W8 m ρ c (Proc.devRef .tc main_arg7) := keep_hostOps2 (W8 m ρ c) main_arg7 (by decide)
    _ = W7 m ρ c (Proc.devRef .tc main_arg7) := W8_of_ne m ρ c main_arg7 (by decide)
    _ = W6 m ρ c (Proc.devRef .tc main_arg7) := keep_hostOps1 (W6 m ρ c) main_arg7 (by decide)
    _ = W5 m ρ c (Proc.devRef .tc main_arg7) := W6_of_ne m ρ c main_arg7 (by decide)
    _ = W4 m ρ c (Proc.devRef .tc main_arg7) := keep_hostOps0_4 (W4 m ρ c) main_arg7 (by decide)
    _ = W3 m ρ c (Proc.devRef .tc main_arg7) := keep_hostOps0_3 (W3 m ρ c) main_arg7 (by decide)
    _ = W2 m ρ c (Proc.devRef .tc main_arg7) := keep_hostOps0_2 (W2 m ρ c) main_arg7 (by decide)
    _ = W1 m ρ c (Proc.devRef .tc main_arg7) := keep_hostOps0_1 (W1 m ρ c) main_arg7 (by decide)
    _ = W0 m ρ c (Proc.devRef .tc main_arg7) := keep_hostOps0 (W0 m ρ c) main_arg7 (by decide)
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := keep_hostOps3 (W10 m ρ c) main_arg8 (by decide)
    _ = W9 m ρ c (Proc.devRef .tc main_arg8) := (W10_arr m ρ c 1).trans (((dat2 (V9 m ρ) c).arrAt_in 1 rfl _).trans (A_eq2 (V9 m ρ) c 1))
    _ = W8 m ρ c (Proc.devRef .tc main_arg8) := keep_hostOps2 (W8 m ρ c) main_arg8 (by decide)
    _ = W7 m ρ c (Proc.devRef .tc main_arg8) := W8_of_ne m ρ c main_arg8 (by decide)
    _ = W6 m ρ c (Proc.devRef .tc main_arg8) := keep_hostOps1 (W6 m ρ c) main_arg8 (by decide)
    _ = W5 m ρ c (Proc.devRef .tc main_arg8) := W6_of_ne m ρ c main_arg8 (by decide)
    _ = W4 m ρ c (Proc.devRef .tc main_arg8) := keep_hostOps0_4 (W4 m ρ c) main_arg8 (by decide)
    _ = W3 m ρ c (Proc.devRef .tc main_arg8) := keep_hostOps0_3 (W3 m ρ c) main_arg8 (by decide)
    _ = W2 m ρ c (Proc.devRef .tc main_arg8) := keep_hostOps0_2 (W2 m ρ c) main_arg8 (by decide)
    _ = W1 m ρ c (Proc.devRef .tc main_arg8) := keep_hostOps0_1 (W1 m ρ c) main_arg8 (by decide)
    _ = W0 m ρ c (Proc.devRef .tc main_arg8) := keep_hostOps0 (W0 m ρ c) main_arg8 (by decide)
    _ = m ((c : Thread nD τ).loc main_arg8) := rfl

theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := keep_hostOps3 (W10 m ρ c) main_arg9 (by decide)
    _ = W9 m ρ c (Proc.devRef .tc main_arg9) := W10_of_ne m ρ c main_arg9 (by decide)
    _ = W8 m ρ c (Proc.devRef .tc main_arg9) := keep_hostOps2 (W8 m ρ c) main_arg9 (by decide)
    _ = W7 m ρ c (Proc.devRef .tc main_arg9) := W8_of_ne m ρ c main_arg9 (by decide)
    _ = W6 m ρ c (Proc.devRef .tc main_arg9) := keep_hostOps1 (W6 m ρ c) main_arg9 (by decide)
    _ = W5 m ρ c (Proc.devRef .tc main_arg9) := W6_of_ne m ρ c main_arg9 (by decide)
    _ = W4 m ρ c (Proc.devRef .tc main_arg9) := keep_hostOps0_4 (W4 m ρ c) main_arg9 (by decide)
    _ = W3 m ρ c (Proc.devRef .tc main_arg9) := keep_hostOps0_3 (W3 m ρ c) main_arg9 (by decide)
    _ = W2 m ρ c (Proc.devRef .tc main_arg9) := keep_hostOps0_2 (W2 m ρ c) main_arg9 (by decide)
    _ = W1 m ρ c (Proc.devRef .tc main_arg9) := keep_hostOps0_1 (W1 m ρ c) main_arg9 (by decide)
    _ = W0 m ρ c (Proc.devRef .tc main_arg9) := keep_hostOps0 (W0 m ρ c) main_arg9 (by decide)
    _ = m ((c : Thread nD τ).loc main_arg9) := rfl

theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := (W12_arr m ρ c 1).trans (((dat3 (V11 m ρ) c).arrAt_in 1 rfl _).trans (A_eq3 (V11 m ρ) c 1))
    _ = W10 m ρ c (Proc.devRef .tc main_arg10) := keep_hostOps3 (W10 m ρ c) main_arg10 (by decide)
    _ = W9 m ρ c (Proc.devRef .tc main_arg10) := W10_of_ne m ρ c main_arg10 (by decide)
    _ = W8 m ρ c (Proc.devRef .tc main_arg10) := keep_hostOps2 (W8 m ρ c) main_arg10 (by decide)
    _ = W7 m ρ c (Proc.devRef .tc main_arg10) := W8_of_ne m ρ c main_arg10 (by decide)
    _ = W6 m ρ c (Proc.devRef .tc main_arg10) := keep_hostOps1 (W6 m ρ c) main_arg10 (by decide)
    _ = W5 m ρ c (Proc.devRef .tc main_arg10) := W6_of_ne m ρ c main_arg10 (by decide)
    _ = W4 m ρ c (Proc.devRef .tc main_arg10) := keep_hostOps0_4 (W4 m ρ c) main_arg10 (by decide)
    _ = W3 m ρ c (Proc.devRef .tc main_arg10) := keep_hostOps0_3 (W3 m ρ c) main_arg10 (by decide)
    _ = W2 m ρ c (Proc.devRef .tc main_arg10) := keep_hostOps0_2 (W2 m ρ c) main_arg10 (by decide)
    _ = W1 m ρ c (Proc.devRef .tc main_arg10) := keep_hostOps0_1 (W1 m ρ c) main_arg10 (by decide)
    _ = W0 m ρ c (Proc.devRef .tc main_arg10) := keep_hostOps0 (W0 m ρ c) main_arg10 (by decide)
    _ = m ((c : Thread nD τ).loc main_arg10) := rfl

theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := keep_hostOps3 (W10 m ρ c) main_arg11 (by decide)
    _ = W9 m ρ c (Proc.devRef .tc main_arg11) := W10_of_ne m ρ c main_arg11 (by decide)
    _ = W8 m ρ c (Proc.devRef .tc main_arg11) := keep_hostOps2 (W8 m ρ c) main_arg11 (by decide)
    _ = W7 m ρ c (Proc.devRef .tc main_arg11) := W8_of_ne m ρ c main_arg11 (by decide)
    _ = W6 m ρ c (Proc.devRef .tc main_arg11) := keep_hostOps1 (W6 m ρ c) main_arg11 (by decide)
    _ = W5 m ρ c (Proc.devRef .tc main_arg11) := W6_of_ne m ρ c main_arg11 (by decide)
    _ = W4 m ρ c (Proc.devRef .tc main_arg11) := keep_hostOps0_4 (W4 m ρ c) main_arg11 (by decide)
    _ = W3 m ρ c (Proc.devRef .tc main_arg11) := keep_hostOps0_3 (W3 m ρ c) main_arg11 (by decide)
    _ = W2 m ρ c (Proc.devRef .tc main_arg11) := keep_hostOps0_2 (W2 m ρ c) main_arg11 (by decide)
    _ = W1 m ρ c (Proc.devRef .tc main_arg11) := keep_hostOps0_1 (W1 m ρ c) main_arg11 (by decide)
    _ = W0 m ρ c (Proc.devRef .tc main_arg11) := keep_hostOps0 (W0 m ρ c) main_arg11 (by decide)
    _ = m ((c : Thread nD τ).loc main_arg11) := rfl

/-- THE FRAME, at any `F`: at the compiled mesh, from any memory with zero counters, every weakly fair execution of
    @main on the TensorCores terminates, nothing faulting, and every final state has the twelve argument arrays as
    launched: the launch's final contents read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c)⟩) (run_all m ρ)

end Cert.Kernel.Hand

end
-- ==== Proof.KI.Region0.lean ====
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))
/-! # Region 0: `cc0_edge_score_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the previous point's block is this point's; the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): where the window is not
    fetched its block index has not moved, so the previous point's block is this point's; the window is uncut and
    never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): where the window is not
    fetched its block index has not moved, so the previous point's block is this point's; the window is uncut and
    never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): where the window is not
    fetched its block index has not moved, so the previous point's block is this point's; the window is uncut and
    never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's whole block -/

abbrev r0_0 : Rect S5000x128 := Rect.unit (s := S5000x128) ![0, 0] S5000x128.size inb_S5000x128_S5000x128_0_0
abbrev r0_1 : Rect S5000x128 := Rect.unit (s := S5000x128) ![0, 0] S5000x128.size inb_S5000x128_S5000x128_0_0
abbrev r0_2 : Rect S5000x8 := Rect.unit (s := S5000x8) ![0, 0] S5000x8.size inb_S5000x8_S5000x8_0_0
abbrev r0_3 : Rect S1x128 := Rect.unit (s := S1x128) ![0, 0] S1x128.size inb_S1x128_S1x128_0_0
abbrev r0_4 : Rect S1x128 := Rect.unit (s := S1x128) ![0, 0] S1x128.size inb_S1x128_S1x128_0_0
abbrev r0_5 : Rect S1x8 := Rect.unit (s := S1x8) ![0, 0] S1x8.size inb_S1x8_S1x8_0_0
abbrev r0_6 : Rect S5000x1 := Rect.unit (s := S5000x1) ![0, 0] S5000x1.size inb_S5000x1_S5000x1_0_0

/-! ## What the body leaves in the output window's buffer -/

/-- Window 6's staging buffer after the body, from the input windows' blocks: its one whole-block store. The payload
    takes the loaded values in the order the body loads them: windows 0, 1, 3, 4, 2, 5. -/
def out0_6 (x0 x1 : Vec F S5000x128 .f32) (x2 : Vec F S5000x8 .f32) (x3 x4 : Vec F S1x128 .f32) (x5 : Vec F S1x8 .f32) : Vec F S5000x1 .f32 :=
  View.canon [⟨r0_6, k0_pay1 (View.ld x0 r0_0) (View.ld x1 r0_1) (View.ld x3 r0_3) (View.ld x4 r0_4) (View.ld x2 r0_2) (View.ld x5 r0_5)⟩]

/-- The store is of the whole block, so it covers the buffer. -/
theorem cover0_6 (p0 : Vec F S5000x1 .f32) (y : S5000x1.Idx) :
    ∃ pc ∈ ([⟨r0_6, p0⟩] : List (View.Piece (Elt F) S5000x1 .f32)), y ∈ pc.1.set :=
  View.cover_of_tiled [⟨r0_6, p0⟩] S5000x1.size (by rfl) y

/-! ## The body's triple -/

set_option maxHeartbeats 1000000 in
/-- The kernel body on whole staging memrefs, the inputs' at read contents `xW` and the output's at anything, runs to
    the continuation holding the inputs' as they were and the output's at `out0_6` of the inputs': six whole-block
    loads (in its first part), a load of the output buffer whose value is not used, and one whole-block store of the
    payload. -/
theorem sound_kernel0 (c : Dev nD) (E : Set ℕ) (i : grid0.Coords)
    (arg0 : Memref sig .tc .vmem S5000x128 .f32) (harg0 : arg0.IsWhole)
    (arg1 : Memref sig .tc .vmem S5000x128 .f32) (harg1 : arg1.IsWhole)
    (arg2 : Memref sig .tc .vmem S5000x8 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x8 .f32) (harg5 : arg5.IsWhole)
    (arg6 : Memref sig .tc .vmem S5000x1 .f32) (harg6 : arg6.IsWhole)
    (x0 x1 : Vec F S5000x128 .f32) (x2 : Vec F S5000x8 .f32) (x3 x4 : Vec F S1x128 .f32) (x5 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0_edge_score_kernel i arg0 harg0 arg1 harg1 arg2 harg2 arg3 harg3 arg4 harg4 arg5 harg5 arg6 harg6) K := by
  simp only [cc0_edge_score_kernel_eq_skeleton]; unfold cc0_edge_score_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and the output's at `out0_6` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))
/-! # Region 1: `cc1_node_apply_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's; the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's whole block -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S5000x128 := Rect.unit (s := S5000x128) ![0, 0] S5000x128.size inb_S5000x128_S5000x128_0_0

/-! ## What the body leaves in the output window's buffer -/

/-- Window 3's staging buffer after the body, from the input windows' blocks: its one whole-block store. -/
def out1_3 (x0 : Vec F S5000x128 .f32) (x1 : Vec F S128x128 .f32) (x2 : Vec F S1x128 .f32) : Vec F S5000x128 .f32 :=
  View.canon [⟨r1_3, k1_pay1 (View.ld x0 r1_0) (View.ld x1 r1_1) (View.ld x2 r1_2)⟩]

/-- The store is of the whole block, so it covers the buffer. -/
theorem cover1_3 (p0 : Vec F S5000x128 .f32) (y : S5000x128.Idx) :
    ∃ pc ∈ ([⟨r1_3, p0⟩] : List (View.Piece (Elt F) S5000x128 .f32)), y ∈ pc.1.set :=
  View.cover_of_tiled [⟨r1_3, p0⟩] S5000x128.size (by rfl) y

/-! ## The body's triple -/

set_option maxHeartbeats 1000000 in
/-- The kernel body on whole staging memrefs, the inputs' at read contents `xW` and the output's at anything, runs to
    the continuation holding the inputs' as they were and the output's at `out1_3` of the inputs': three whole-block
    loads, a load of the output buffer whose value is not used, and one whole-block store of the payload. -/
theorem sound_kernel1 (c : Dev nD) (E : Set ℕ) (i : grid1.Coords)
    (arg0 : Memref sig .tc .vmem S5000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1_node_apply_kernel i arg0 harg0 arg1 harg1 arg2 harg2 arg3 harg3) K := by
  simp only [cc1_node_apply_kernel_eq_skeleton]; unfold cc1_node_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))
/-! # Region 2: `cc2_node_apply_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the previous point's block is this point's; the window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window's whole block -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S5000x128 := Rect.unit (s := S5000x128) ![0, 0] S5000x128.size inb_S5000x128_S5000x128_0_0

/-! ## What the body leaves in the output window's buffer -/

/-- Window 3's staging buffer after the body, from the input windows' blocks: its one whole-block store. -/
def out2_3 (x0 : Vec F S5000x128 .f32) (x1 : Vec F S128x128 .f32) (x2 : Vec F S1x128 .f32) : Vec F S5000x128 .f32 :=
  View.canon [⟨r2_3, k2_pay1 (View.ld x0 r2_0) (View.ld x1 r2_1) (View.ld x2 r2_2)⟩]

/-- The store is of the whole block, so it covers the buffer. -/
theorem cover2_3 (p0 : Vec F S5000x128 .f32) (y : S5000x128.Idx) :
    ∃ pc ∈ ([⟨r2_3, p0⟩] : List (View.Piece (Elt F) S5000x128 .f32)), y ∈ pc.1.set :=
  View.cover_of_tiled [⟨r2_3, p0⟩] S5000x128.size (by rfl) y

/-! ## The body's triple -/

set_option maxHeartbeats 1000000 in
/-- The kernel body on whole staging memrefs, the inputs' at read contents `xW` and the output's at anything, runs to
    the continuation holding the inputs' as they were and the output's at `out2_3` of the inputs': three whole-block
    loads, a load of the output buffer whose value is not used, and one whole-block store of the payload. -/
theorem sound_kernel2 (c : Dev nD) (E : Set ℕ) (i : grid2.Coords)
    (arg0 : Memref sig .tc .vmem S5000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2_node_apply_kernel i arg0 harg0 arg1 harg1 arg2 harg2 arg3 harg3) K := by
  simp only [cc2_node_apply_kernel_eq_skeleton]; unfold cc2_node_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))
/-! # Region 3: `cc3_node_apply_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): where the window is not
    fetched its block index has not moved, so the previous point's block is this point's; the window is uncut and
    never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window's whole block -/

abbrev r3_0 : Rect S5000x128 := Rect.unit (s := S5000x128) ![0, 0] S5000x128.size inb_S5000x128_S5000x128_0_0
abbrev r3_1 : Rect S128x40 := Rect.unit (s := S128x40) ![0, 0] S128x40.size inb_S128x40_S128x40_0_0
abbrev r3_2 : Rect S1x40 := Rect.unit (s := S1x40) ![0, 0] S1x40.size inb_S1x40_S1x40_0_0
abbrev r3_3 : Rect S5000x40 := Rect.unit (s := S5000x40) ![0, 0] S5000x40.size inb_S5000x40_S5000x40_0_0

/-! ## What the body leaves in the output window's buffer -/

/-- Window 3's staging buffer after the body, from the input windows' blocks: its one whole-block store. -/
def out3_3 (x0 : Vec F S5000x128 .f32) (x1 : Vec F S128x40 .f32) (x2 : Vec F S1x40 .f32) : Vec F S5000x40 .f32 :=
  View.canon [⟨r3_3, k3_pay1 (View.ld x0 r3_0) (View.ld x1 r3_1) (View.ld x2 r3_2)⟩]

/-- The store is of the whole block, so it covers the buffer. -/
theorem cover3_3 (p0 : Vec F S5000x40 .f32) (y : S5000x40.Idx) :
    ∃ pc ∈ ([⟨r3_3, p0⟩] : List (View.Piece (Elt F) S5000x40 .f32)), y ∈ pc.1.set :=
  View.cover_of_tiled [⟨r3_3, p0⟩] S5000x40.size (by rfl) y

/-! ## The body's triple -/

set_option maxHeartbeats 1000000 in
/-- The kernel body on whole staging memrefs, the inputs' at read contents `xW` and the output's at anything, runs to
    the continuation holding the inputs' as they were and the output's at `out3_3` of the inputs': three whole-block
    loads, a load of the output buffer whose value is not used, and one whole-block store of the payload. -/
theorem sound_kernel3 (c : Dev nD) (E : Set ℕ) (i : grid3.Coords)
    (arg0 : Memref sig .tc .vmem S5000x128 .f32) (harg0 : arg0.IsWhole) (arg1 : Memref sig .tc .vmem S128x40 .f32) (harg1 : arg1.IsWhole)
    (arg2 : Memref sig .tc .vmem S1x40 .f32) (harg2 : arg2.IsWhole) (arg3 : Memref sig .tc .vmem S5000x40 .f32) (harg3 : arg3.IsWhole)
    (x0 : Vec F S5000x128 .f32) (x1 : Vec F S128x40 .f32) (x2 : Vec F S1x40 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3_node_apply_kernel i arg0 harg0 arg1 harg1 arg2 harg2 arg3 harg3) K := by
  simp only [cc3_node_apply_kernel_eq_skeleton]; unfold cc3_node_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at
    point `t` each input's buffer at its block and the output's at `out3_3` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.RunHost.lean ====
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The host stretches of @main: none allocates, none writes an argument array -/

/-- Two references whose indices lie on either side of 12 differ. -/
theorem ne_of_idx {b y : Ref sig .tc} (hb : b.idx.val < 12) (hy : 12 ≤ y.idx.val) : b ≠ y :=
  fun e => by subst e; omega

set_option maxHeartbeats 40000000 in
/-- No operation of `hostOps0` allocates a buffer. -/
theorem hostOps0_fresh : (hostOps0 : List (HloOp τ sig (Elt F))).Forall fun op => op.fresh = ∅ := by
  simp only [List.Forall]; repeat' constructor

set_option maxHeartbeats 40000000 in
/-- Every buffer `hostOps0` writes has index at least 12 (the twelve argument arrays are the indices below), so a
    reference of index below 12 keeps its contents through the stretch. -/
theorem keep_hostOps0 (W : Valuation τ sig (Elt F)) (b : Ref sig .tc) (hb : b.idx.val < 12) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps0_1` allocates a buffer. -/
theorem hostOps0_1_fresh : (hostOps0_1 : List (HloOp τ sig (Elt F))).Forall fun op => op.fresh = ∅ := by
  simp only [List.Forall]; repeat' constructor

/-- Every buffer `hostOps0_1` writes has index at least 12 (the twelve argument arrays are the indices below), so a
    reference of index below 12 keeps its contents through the stretch. -/
theorem keep_hostOps0_1 (W : Valuation τ sig (Elt F)) (b : Ref sig .tc) (hb : b.idx.val < 12) :
    StableHlo.after (hostOps0_1 (F := F)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps0_2` allocates a buffer. -/
theorem hostOps0_2_fresh : (hostOps0_2 : List (HloOp τ sig (Elt F))).Forall fun op => op.fresh = ∅ := by
  simp only [List.Forall]; repeat' constructor

/-- Every buffer `hostOps0_2` writes has index at least 12 (the twelve argument arrays are the indices below), so a
    reference of index below 12 keeps its contents through the stretch. -/
theorem keep_hostOps0_2 (W : Valuation τ sig (Elt F)) (b : Ref sig .tc) (hb : b.idx.val < 12) :
    StableHlo.after (hostOps0_2 (F := F)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps0_3` allocates a buffer. -/
theorem hostOps0_3_fresh : (hostOps0_3 : List (HloOp τ sig (Elt F))).Forall fun op => op.fresh = ∅ := by
  simp only [List.Forall]; repeat' constructor

/-- Every buffer `hostOps0_3` writes has index at least 12 (the twelve argument arrays are the indices below), so a
    reference of index below 12 keeps its contents through the stretch. -/
theorem keep_hostOps0_3 (W : Valuation τ sig (Elt F)) (b : Ref sig .tc) (hb : b.idx.val < 12) :
    StableHlo.after (hostOps0_3 (F := F)) W (Proc.devRef .tc b) = W (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps0_4` allocates a buffer. -/
theorem hostOps0_4_fresh : (hostOps0_4 : List (HloOp τ sig (Elt F))).Forall fun op => op.fresh = ∅ := by
  simp only [List.Forall]; repeat' constructor

/-- Every buffer `hostOps0_4` writes has index at least 12 (the twelve argument arrays are the indices below), so a
    reference of index below 12 keeps its contents through the stretch. -/
theorem keep_hostOps0_4 (W : Valuation τ sig (Elt F)) (b : Ref sig .tc) (hb : b.idx.val < 12) :
    StableHlo.after (hostOps0_4 (F := F)) W (Proc.devRef .tc b) = W (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps1` allocates a buffer. -/
theorem hostOps1_fresh : (hostOps1 : List (HloOp τ sig (Elt F))).Forall fun op => op.fresh = ∅ := by
  simp only [List.Forall]; repeat' constructor

/-- Every buffer `hostOps1` writes has index at least 12 (the twelve argument arrays are the indices below), so a
    reference of index below 12 keeps its contents through the stretch. -/
theorem keep_hostOps1 (W : Valuation τ sig (Elt F)) (b : Ref sig .tc) (hb : b.idx.val < 12) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps2` allocates a buffer. -/
theorem hostOps2_fresh : (hostOps2 : List (HloOp τ sig (Elt F))).Forall fun op => op.fresh = ∅ := by
  simp only [List.Forall]; repeat' constructor

/-- Every buffer `hostOps2` writes has index at least 12 (the twelve argument arrays are the indices below), so a
    reference of index below 12 keeps its contents through the stretch. -/
theorem keep_hostOps2 (W : Valuation τ sig (Elt F)) (b : Ref sig .tc) (hb : b.idx.val < 12) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

/-- No operation of `hostOps3` allocates a buffer. -/
theorem hostOps3_fresh : (hostOps3 : List (HloOp τ sig (Elt F))).Forall fun op => op.fresh = ∅ := by
  simp only [List.Forall]; repeat' constructor

/-- Every buffer `hostOps3` writes has index at least 12 (the twelve argument arrays are the indices below), so a
    reference of index below 12 keeps its contents through the stretch. -/
theorem keep_hostOps3 (W : Valuation τ sig (Elt F)) (b : Ref sig .tc) (hb : b.idx.val < 12) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx hb (by decide))))

end Cert.KernelIdeal.Hand

end
-- ==== Proof.KI.RunDefs.lean ====
import proofs.«151107_j62362925138837_1_alg».proof.Proof.KI.Region0
import proofs.«151107_j62362925138837_1_alg».proof.Proof.KI.Region1
import proofs.«151107_j62362925138837_1_alg».proof.Proof.KI.Region2
import proofs.«151107_j62362925138837_1_alg».proof.Proof.KI.Region3
import proofs.«151107_j62362925138837_1_alg».proof.Proof.KI.RunHost
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's twelve segments from the launch to the return

## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4` (region 0's entry). -/
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, the output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves (`hF0`) and every other buffer what it
    held at entry (`hrest0`). -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1` (region 1's entry). -/
abbrev W7 : Dev nD → Valuation τ sig (Elt F) := fun c => StableHlo.after hostOps1 (W6 m ρ c)
/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, the output's write-backs
    folded), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`). -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After `hostOps2` (region 2's entry). -/
abbrev W9 : Dev nD → Valuation τ sig (Elt F) := fun c => StableHlo.after hostOps2 (W8 m ρ c)
/-- The same read at the TensorCore's references (what region 2's proof data take). -/
abbrev V9 : (c : Dev nD) → (b : Ref sig .tc) → Buf (Elt F) ((c : Thread nD τ).loc b) := fun c b => W9 m ρ c b
/-- At region 2's exit: its arrays at what the pipeline leaves (the inputs as entered, the output's write-backs
    folded), every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves (`hF2`) and every other buffer what it
    held at entry (`hrest2`). -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3` (region 3's entry). -/
abbrev W11 : Dev nD → Valuation τ sig (Elt F) := fun c => StableHlo.after hostOps3 (W10 m ρ c)
/-- The same read at the TensorCore's references (what region 3's proof data take). -/
abbrev V11 : (c : Dev nD) → (b : Ref sig .tc) → Buf (Elt F) ((c : Thread nD τ).loc b) := fun c b => W11 m ρ c b
/-- At region 3's exit: its arrays at what the pipeline leaves (the inputs as entered, the output's write-backs
    folded), every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- The same read at the TensorCore's references (region 3's exit contents). -/
abbrev V12 : (c : Dev nD) → (b : Ref sig .tc) → Buf (Elt F) ((c : Thread nD τ).loc b) := fun c b => W12 m ρ c b
/-- At region 3's exit each of its arrays holds what the pipeline leaves (`hF3`) and every other buffer what it
    held at entry (`hrest3`). -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W12`, the
    generator register at some state. -/
abbrev Tₙ (c : Dev nD) : sProp 𝕄 := iprop(StableHlo.held (c : Thread nD τ) (Pipeline.ucRefs τ sig) (W12 m ρ c) ∗ ∃ r, prngReg c r)

/-! ## The regions as segments -/

-- a library lemma stated over `pin pcs a p` unifies with the pinned configuration only when unification may
-- unfold plain definitions in a metavariable's type
set_option backward.isDefEq.respectTransparency.types false in
/-- REGION 0 over the thread state: entered from every unscoped buffer at `W5`, left at `W6`. Its arrays
    split out of the unscoped buffers and put back at the exit contents; the generator register into the class
    invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 1 over the thread state: entered from every unscoped buffer at `W7`, left at `W8`. Its arrays
    split out of the unscoped buffers and put back at the exit contents; the generator register into the class
    invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 2 over the thread state: entered from every unscoped buffer at `W9`, left at `W10`. Its arrays
    split out of the unscoped buffers and put back at the exit contents; the generator register into the class
    invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may
-- unfold plain definitions in a metavariable's type
set_option backward.isDefEq.respectTransparency.types false in
/-- REGION 3 over the thread state: entered from every unscoped buffer at `W11`, left at `W12`. Its arrays
    split out of the unscoped buffers and put back at the exit contents; the generator register into the class
    invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
import proofs.«151107_j62362925138837_1_alg».proof.Proof.KI.RunDefs
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .host (hseg hostOps3 hostOps3_sub hostOps3_fresh (W10 m ρ)),
    .region (reg3 m ρ) ]

set_option maxHeartbeats 40000000 in
/-- @main IS the run of the segments: @main as the chain of its items, then the segments' run against that chain by
    the kernel's definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
set_option maxHeartbeats 40000000 in
/-- THE LAUNCH: at the compiled mesh, from any memory with zero counters, every weakly fair execution of @main on the
    TensorCores terminates, nothing faulting, and in every final state every unscoped buffer of every core holds the
    last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.Hand

end
-- ==== Proof.KI.RunArgs.lean ====
import proofs.«151107_j62362925138837_1_alg».proof.Proof.KI.Run
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arguments end as launched: no host operation and no region writes one (a region reads it through an
    input window or bypasses it), so the fold at an argument's buffer walks back to the launch memory -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := keep_hostOps3 (W10 m ρ c) main_arg0 (by decide)
    _ = W9 m ρ c (Proc.devRef .tc main_arg0) := W10_of_ne m ρ c main_arg0 (by decide)
    _ = W8 m ρ c (Proc.devRef .tc main_arg0) := keep_hostOps2 (W8 m ρ c) main_arg0 (by decide)
    _ = W7 m ρ c (Proc.devRef .tc main_arg0) := W8_of_ne m ρ c main_arg0 (by decide)
    _ = W6 m ρ c (Proc.devRef .tc main_arg0) := keep_hostOps1 (W6 m ρ c) main_arg0 (by decide)
    _ = W5 m ρ c (Proc.devRef .tc main_arg0) := W6_of_ne m ρ c main_arg0 (by decide)
    _ = W4 m ρ c (Proc.devRef .tc main_arg0) := keep_hostOps0_4 (W4 m ρ c) main_arg0 (by decide)
    _ = W3 m ρ c (Proc.devRef .tc main_arg0) := keep_hostOps0_3 (W3 m ρ c) main_arg0 (by decide)
    _ = W2 m ρ c (Proc.devRef .tc main_arg0) := keep_hostOps0_2 (W2 m ρ c) main_arg0 (by decide)
    _ = W1 m ρ c (Proc.devRef .tc main_arg0) := keep_hostOps0_1 (W1 m ρ c) main_arg0 (by decide)
    _ = W0 m ρ c (Proc.devRef .tc main_arg0) := keep_hostOps0 (W0 m ρ c) main_arg0 (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := keep_hostOps3 (W10 m ρ c) main_arg1 (by decide)
    _ = W9 m ρ c (Proc.devRef .tc main_arg1) := W10_of_ne m ρ c main_arg1 (by decide)
    _ = W8 m ρ c (Proc.devRef .tc main_arg1) := keep_hostOps2 (W8 m ρ c) main_arg1 (by decide)
    _ = W7 m ρ c (Proc.devRef .tc main_arg1) := W8_of_ne m ρ c main_arg1 (by decide)
    _ = W6 m ρ c (Proc.devRef .tc main_arg1) := keep_hostOps1 (W6 m ρ c) main_arg1 (by decide)
    _ = W5 m ρ c (Proc.devRef .tc main_arg1) := W6_of_ne m ρ c main_arg1 (by decide)
    _ = W4 m ρ c (Proc.devRef .tc main_arg1) := keep_hostOps0_4 (W4 m ρ c) main_arg1 (by decide)
    _ = W3 m ρ c (Proc.devRef .tc main_arg1) := keep_hostOps0_3 (W3 m ρ c) main_arg1 (by decide)
    _ = W2 m ρ c (Proc.devRef .tc main_arg1) := keep_hostOps0_2 (W2 m ρ c) main_arg1 (by decide)
    _ = W1 m ρ c (Proc.devRef .tc main_arg1) := keep_hostOps0_1 (W1 m ρ c) main_arg1 (by decide)
    _ = W0 m ρ c (Proc.devRef .tc main_arg1) := keep_hostOps0 (W0 m ρ c) main_arg1 (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := keep_hostOps3 (W10 m ρ c) main_arg2 (by decide)
    _ = W9 m ρ c (Proc.devRef .tc main_arg2) := W10_of_ne m ρ c main_arg2 (by decide)
    _ = W8 m ρ c (Proc.devRef .tc main_arg2) := keep_hostOps2 (W8 m ρ c) main_arg2 (by decide)
    _ = W7 m ρ c (Proc.devRef .tc main_arg2) := W8_of_ne m ρ c main_arg2 (by decide)
    _ = W6 m ρ c (Proc.devRef .tc main_arg2) := keep_hostOps1 (W6 m ρ c) main_arg2 (by decide)
    _ = W5 m ρ c (Proc.devRef .tc main_arg2) := W6_of_ne m ρ c main_arg2 (by decide)
    _ = W4 m ρ c (Proc.devRef .tc main_arg2) := keep_hostOps0_4 (W4 m ρ c) main_arg2 (by decide)
    _ = W3 m ρ c (Proc.devRef .tc main_arg2) := keep_hostOps0_3 (W3 m ρ c) main_arg2 (by decide)
    _ = W2 m ρ c (Proc.devRef .tc main_arg2) := keep_hostOps0_2 (W2 m ρ c) main_arg2 (by decide)
    _ = W1 m ρ c (Proc.devRef .tc main_arg2) := keep_hostOps0_1 (W1 m ρ c) main_arg2 (by decide)
    _ = W0 m ρ c (Proc.devRef .tc main_arg2) := keep_hostOps0 (W0 m ρ c) main_arg2 (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := keep_hostOps3 (W10 m ρ c) main_arg3 (by decide)
    _ = W9 m ρ c (Proc.devRef .tc main_arg3) := W10_of_ne m ρ c main_arg3 (by decide)
    _ = W8 m ρ c (Proc.devRef .tc main_arg3) := keep_hostOps2 (W8 m ρ c) main_arg3 (by decide)
    _ = W7 m ρ c (Proc.devRef .tc main_arg3) := W8_of_ne m ρ c main_arg3 (by decide)
    _ = W6 m ρ c (Proc.devRef .tc main_arg3) := keep_hostOps1 (W6 m ρ c) main_arg3 (by decide)
    _ = W5 m ρ c (Proc.devRef .tc main_arg3) := W6_of_ne m ρ c main_arg3 (by decide)
    _ = W4 m ρ c (Proc.devRef .tc main_arg3) := keep_hostOps0_4 (W4 m ρ c) main_arg3 (by decide)
    _ = W3 m ρ c (Proc.devRef .tc main_arg3) := keep_hostOps0_3 (W3 m ρ c) main_arg3 (by decide)
    _ = W2 m ρ c (Proc.devRef .tc main_arg3) := keep_hostOps0_2 (W2 m ρ c) main_arg3 (by decide)
    _ = W1 m ρ c (Proc.devRef .tc main_arg3) := keep_hostOps0_1 (W1 m ρ c) main_arg3 (by decide)
    _ = W0 m ρ c (Proc.devRef .tc main_arg3) := keep_hostOps0 (W0 m ρ c) main_arg3 (by decide)
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := keep_hostOps3 (W10 m ρ c) main_arg4 (by decide)
    _ = W9 m ρ c (Proc.devRef .tc main_arg4) := W10_of_ne m ρ c main_arg4 (by decide)
    _ = W8 m ρ c (Proc.devRef .tc main_arg4) := keep_hostOps2 (W8 m ρ c) main_arg4 (by decide)
    _ = W7 m ρ c (Proc.devRef .tc main_arg4) := W8_of_ne m ρ c main_arg4 (by decide)
    _ = W6 m ρ c (Proc.devRef .tc main_arg4) := keep_hostOps1 (W6 m ρ c) main_arg4 (by decide)
    _ = W5 m ρ c (Proc.devRef .tc main_arg4) := W6_of_ne m ρ c main_arg4 (by decide)
    _ = W4 m ρ c (Proc.devRef .tc main_arg4) := keep_hostOps0_4 (W4 m ρ c) main_arg4 (by decide)
    _ = W3 m ρ c (Proc.devRef .tc main_arg4) := keep_hostOps0_3 (W3 m ρ c) main_arg4 (by decide)
    _ = W2 m ρ c (Proc.devRef .tc main_arg4) := keep_hostOps0_2 (W2 m ρ c) main_arg4 (by decide)
    _ = W1 m ρ c (Proc.devRef .tc main_arg4) := keep_hostOps0_1 (W1 m ρ c) main_arg4 (by decide)
    _ = W0 m ρ c (Proc.devRef .tc main_arg4) := keep_hostOps0 (W0 m ρ c) main_arg4 (by decide)
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := keep_hostOps3 (W10 m ρ c) main_arg5 (by decide)
    _ = W9 m ρ c (Proc.devRef .tc main_arg5) := W10_of_ne m ρ c main_arg5 (by decide)
    _ = W8 m ρ c (Proc.devRef .tc main_arg5) := keep_hostOps2 (W8 m ρ c) main_arg5 (by decide)
    _ = W7 m ρ c (Proc.devRef .tc main_arg5) := W8_of_ne m ρ c main_arg5 (by decide)
    _ = W6 m ρ c (Proc.devRef .tc main_arg5) := keep_hostOps1 (W6 m ρ c) main_arg5 (by decide)
    _ = W5 m ρ c (Proc.devRef .tc main_arg5) := W6_of_ne m ρ c main_arg5 (by decide)
    _ = W4 m ρ c (Proc.devRef .tc main_arg5) := keep_hostOps0_4 (W4 m ρ c) main_arg5 (by decide)
    _ = W3 m ρ c (Proc.devRef .tc main_arg5) := keep_hostOps0_3 (W3 m ρ c) main_arg5 (by decide)
    _ = W2 m ρ c (Proc.devRef .tc main_arg5) := keep_hostOps0_2 (W2 m ρ c) main_arg5 (by decide)
    _ = W1 m ρ c (Proc.devRef .tc main_arg5) := keep_hostOps0_1 (W1 m ρ c) main_arg5 (by decide)
    _ = W0 m ρ c (Proc.devRef .tc main_arg5) := keep_hostOps0 (W0 m ρ c) main_arg5 (by decide)
    _ = m ((c : Thread nD τ).loc main_arg5) := rfl

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := keep_hostOps3 (W10 m ρ c) main_arg6 (by decide)
    _ = W9 m ρ c (Proc.devRef .tc main_arg6) := W10_of_ne m ρ c main_arg6 (by decide)
    _ = W8 m ρ c (Proc.devRef .tc main_arg6) := keep_hostOps2 (W8 m ρ c) main_arg6 (by decide)
    _ = W7 m ρ c (Proc.devRef .tc main_arg6) := (W8_arr m ρ c 1).trans (((dat1 (V7 m ρ) c).arrAt_in 1 rfl _).trans (A_eq1 (V7 m ρ) c 1))
    _ = W6 m ρ c (Proc.devRef .tc main_arg6) := keep_hostOps1 (W6 m ρ c) main_arg6 (by decide)
    _ = W5 m ρ c (Proc.devRef .tc main_arg6) := W6_of_ne m ρ c main_arg6 (by decide)
    _ = W4 m ρ c (Proc.devRef .tc main_arg6) := keep_hostOps0_4 (W4 m ρ c) main_arg6 (by decide)
    _ = W3 m ρ c (Proc.devRef .tc main_arg6) := keep_hostOps0_3 (W3 m ρ c) main_arg6 (by decide)
    _ = W2 m ρ c (Proc.devRef .tc main_arg6) := keep_hostOps0_2 (W2 m ρ c) main_arg6 (by decide)
    _ = W1 m ρ c (Proc.devRef .tc main_arg6) := keep_hostOps0_1 (W1 m ρ c) main_arg6 (by decide)
    _ = W0 m ρ c (Proc.devRef .tc main_arg6) := keep_hostOps0 (W0 m ρ c) main_arg6 (by decide)
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := keep_hostOps3 (W10 m ρ c) main_arg7 (by decide)
    _ = W9 m ρ c (Proc.devRef .tc main_arg7) := W10_of_ne m ρ c main_arg7 (by decide)
    _ = W8 m ρ c (Proc.devRef .tc main_arg7) := keep_hostOps2 (W8 m ρ c) main_arg7 (by decide)
    _ = W7 m ρ c (Proc.devRef .tc main_arg7) := W8_of_ne m ρ c main_arg7 (by decide)
    _ = W6 m ρ c (Proc.devRef .tc main_arg7) := keep_hostOps1 (W6 m ρ c) main_arg7 (by decide)
    _ = W5 m ρ c (Proc.devRef .tc main_arg7) := W6_of_ne m ρ c main_arg7 (by decide)
    _ = W4 m ρ c (Proc.devRef .tc main_arg7) := keep_hostOps0_4 (W4 m ρ c) main_arg7 (by decide)
    _ = W3 m ρ c (Proc.devRef .tc main_arg7) := keep_hostOps0_3 (W3 m ρ c) main_arg7 (by decide)
    _ = W2 m ρ c (Proc.devRef .tc main_arg7) := keep_hostOps0_2 (W2 m ρ c) main_arg7 (by decide)
    _ = W1 m ρ c (Proc.devRef .tc main_arg7) := keep_hostOps0_1 (W1 m ρ c) main_arg7 (by decide)
    _ = W0 m ρ c (Proc.devRef .tc main_arg7) := keep_hostOps0 (W0 m ρ c) main_arg7 (by decide)
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := keep_hostOps3 (W10 m ρ c) main_arg8 (by decide)
    _ = W9 m ρ c (Proc.devRef .tc main_arg8) := (W10_arr m ρ c 1).trans (((dat2 (V9 m ρ) c).arrAt_in 1 rfl _).trans (A_eq2 (V9 m ρ) c 1))
    _ = W8 m ρ c (Proc.devRef .tc main_arg8) := keep_hostOps2 (W8 m ρ c) main_arg8 (by decide)
    _ = W7 m ρ c (Proc.devRef .tc main_arg8) := W8_of_ne m ρ c main_arg8 (by decide)
    _ = W6 m ρ c (Proc.devRef .tc main_arg8) := keep_hostOps1 (W6 m ρ c) main_arg8 (by decide)
    _ = W5 m ρ c (Proc.devRef .tc main_arg8) := W6_of_ne m ρ c main_arg8 (by decide)
    _ = W4 m ρ c (Proc.devRef .tc main_arg8) := keep_hostOps0_4 (W4 m ρ c) main_arg8 (by decide)
    _ = W3 m ρ c (Proc.devRef .tc main_arg8) := keep_hostOps0_3 (W3 m ρ c) main_arg8 (by decide)
    _ = W2 m ρ c (Proc.devRef .tc main_arg8) := keep_hostOps0_2 (W2 m ρ c) main_arg8 (by decide)
    _ = W1 m ρ c (Proc.devRef .tc main_arg8) := keep_hostOps0_1 (W1 m ρ c) main_arg8 (by decide)
    _ = W0 m ρ c (Proc.devRef .tc main_arg8) := keep_hostOps0 (W0 m ρ c) main_arg8 (by decide)
    _ = m ((c : Thread nD τ).loc main_arg8) := rfl

theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := keep_hostOps3 (W10 m ρ c) main_arg9 (by decide)
    _ = W9 m ρ c (Proc.devRef .tc main_arg9) := W10_of_ne m ρ c main_arg9 (by decide)
    _ = W8 m ρ c (Proc.devRef .tc main_arg9) := keep_hostOps2 (W8 m ρ c) main_arg9 (by decide)
    _ = W7 m ρ c (Proc.devRef .tc main_arg9) := W8_of_ne m ρ c main_arg9 (by decide)
    _ = W6 m ρ c (Proc.devRef .tc main_arg9) := keep_hostOps1 (W6 m ρ c) main_arg9 (by decide)
    _ = W5 m ρ c (Proc.devRef .tc main_arg9) := W6_of_ne m ρ c main_arg9 (by decide)
    _ = W4 m ρ c (Proc.devRef .tc main_arg9) := keep_hostOps0_4 (W4 m ρ c) main_arg9 (by decide)
    _ = W3 m ρ c (Proc.devRef .tc main_arg9) := keep_hostOps0_3 (W3 m ρ c) main_arg9 (by decide)
    _ = W2 m ρ c (Proc.devRef .tc main_arg9) := keep_hostOps0_2 (W2 m ρ c) main_arg9 (by decide)
    _ = W1 m ρ c (Proc.devRef .tc main_arg9) := keep_hostOps0_1 (W1 m ρ c) main_arg9 (by decide)
    _ = W0 m ρ c (Proc.devRef .tc main_arg9) := keep_hostOps0 (W0 m ρ c) main_arg9 (by decide)
    _ = m ((c : Thread nD τ).loc main_arg9) := rfl

theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := (W12_arr m ρ c 1).trans (((dat3 (V11 m ρ) c).arrAt_in 1 rfl _).trans (A_eq3 (V11 m ρ) c 1))
    _ = W10 m ρ c (Proc.devRef .tc main_arg10) := keep_hostOps3 (W10 m ρ c) main_arg10 (by decide)
    _ = W9 m ρ c (Proc.devRef .tc main_arg10) := W10_of_ne m ρ c main_arg10 (by decide)
    _ = W8 m ρ c (Proc.devRef .tc main_arg10) := keep_hostOps2 (W8 m ρ c) main_arg10 (by decide)
    _ = W7 m ρ c (Proc.devRef .tc main_arg10) := W8_of_ne m ρ c main_arg10 (by decide)
    _ = W6 m ρ c (Proc.devRef .tc main_arg10) := keep_hostOps1 (W6 m ρ c) main_arg10 (by decide)
    _ = W5 m ρ c (Proc.devRef .tc main_arg10) := W6_of_ne m ρ c main_arg10 (by decide)
    _ = W4 m ρ c (Proc.devRef .tc main_arg10) := keep_hostOps0_4 (W4 m ρ c) main_arg10 (by decide)
    _ = W3 m ρ c (Proc.devRef .tc main_arg10) := keep_hostOps0_3 (W3 m ρ c) main_arg10 (by decide)
    _ = W2 m ρ c (Proc.devRef .tc main_arg10) := keep_hostOps0_2 (W2 m ρ c) main_arg10 (by decide)
    _ = W1 m ρ c (Proc.devRef .tc main_arg10) := keep_hostOps0_1 (W1 m ρ c) main_arg10 (by decide)
    _ = W0 m ρ c (Proc.devRef .tc main_arg10) := keep_hostOps0 (W0 m ρ c) main_arg10 (by decide)
    _ = m ((c : Thread nD τ).loc main_arg10) := rfl

theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := keep_hostOps3 (W10 m ρ c) main_arg11 (by decide)
    _ = W9 m ρ c (Proc.devRef .tc main_arg11) := W10_of_ne m ρ c main_arg11 (by decide)
    _ = W8 m ρ c (Proc.devRef .tc main_arg11) := keep_hostOps2 (W8 m ρ c) main_arg11 (by decide)
    _ = W7 m ρ c (Proc.devRef .tc main_arg11) := W8_of_ne m ρ c main_arg11 (by decide)
    _ = W6 m ρ c (Proc.devRef .tc main_arg11) := keep_hostOps1 (W6 m ρ c) main_arg11 (by decide)
    _ = W5 m ρ c (Proc.devRef .tc main_arg11) := W6_of_ne m ρ c main_arg11 (by decide)
    _ = W4 m ρ c (Proc.devRef .tc main_arg11) := keep_hostOps0_4 (W4 m ρ c) main_arg11 (by decide)
    _ = W3 m ρ c (Proc.devRef .tc main_arg11) := keep_hostOps0_3 (W3 m ρ c) main_arg11 (by decide)
    _ = W2 m ρ c (Proc.devRef .tc main_arg11) := keep_hostOps0_2 (W2 m ρ c) main_arg11 (by decide)
    _ = W1 m ρ c (Proc.devRef .tc main_arg11) := keep_hostOps0_1 (W1 m ρ c) main_arg11 (by decide)
    _ = W0 m ρ c (Proc.devRef .tc main_arg11) := keep_hostOps0 (W0 m ρ c) main_arg11 (by decide)
    _ = m ((c : Thread nD τ).loc main_arg11) := rfl

/-- THE FRAME, at any `F`: at the compiled mesh, from any memory with zero counters, every weakly fair execution of
    @main on the TensorCores terminates, nothing faulting, and every final state has the twelve argument arrays as
    launched: the launch's final contents read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c)⟩) (run_all m ρ)

/-- THE RUN WITH ITS RESULT, at any `F`: as `frame`, and the result array ends at the last boundary's contents. -/
theorem run_result : θ_run defs (onTc (τ := τ) (main (F := F))) ⟨m, fun _ => 0, ρ⟩ (fun r => ∀ c : Dev nD,
      r.2.mem ((c.tc : Thread nD τ).loc main_v120) = W12 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    h c _ (mem_uc main_v120 (by decide)),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c)⟩) (run_all m ρ)

end Cert.KernelIdeal.Hand

end
-- ==== Proof.KI.RunKeep.lean ====
import proofs.«151107_j62362925138837_1_alg».proof.Proof.KI.RunDefs
import proofs.«151107_j62362925138837_1_alg».proof.Proof.Gen.KernelIdeal.Launch
import proofs.«151107_j62362925138837_1_alg».proof.Proof.Gen.KernelIdeal.Skeleton
import proofs.«151107_j62362925138837_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The argument arrays at every boundary from region 0's entry on

A reference of index below 12 is one of the twelve argument arrays. No host operation writes one (`keep_*`), and a
region leaves it alone: it is none of the region's window arrays, or it is an input window's array, which the
pipeline leaves as entered. So at every boundary it holds its launch contents. -/

/-- Region 0's window arrays all have index at least 12. -/
theorem arr0_idx : ∀ w : Fin 7, 12 ≤ (Pipeline.arrRef spec0 w).idx.val := by decide
/-- Region 1's window arrays: the sixth argument (input window 1), or of index at least 12. -/
theorem arr1_idx : ∀ w : Fin 4, (w = 1 ∧ Pipeline.arrRef spec1 w = main_arg6) ∨ 12 ≤ (Pipeline.arrRef spec1 w).idx.val := by decide
/-- Region 2's window arrays: the eighth argument (input window 1), or of index at least 12. -/
theorem arr2_idx : ∀ w : Fin 4, (w = 1 ∧ Pipeline.arrRef spec2 w = main_arg8) ∨ 12 ≤ (Pipeline.arrRef spec2 w).idx.val := by decide
/-- Region 3's window arrays: the tenth argument (input window 1), or of index at least 12. -/
theorem arr3_idx : ∀ w : Fin 4, (w = 1 ∧ Pipeline.arrRef spec3 w = main_arg10) ∨ 12 ≤ (Pipeline.arrRef spec3 w).idx.val := by decide

/-- At region 0's entry. -/
theorem W5_arg (c : Dev nD) (b : Ref sig .tc) (hb : b.idx.val < 12) :
    W5 m ρ c (Proc.devRef .tc b) = m ((c : Thread nD τ).loc b) :=
  calc W5 m ρ c (Proc.devRef .tc b)
    _ = W4 m ρ c (Proc.devRef .tc b) := keep_hostOps0_4 (W4 m ρ c) b hb
    _ = W3 m ρ c (Proc.devRef .tc b) := keep_hostOps0_3 (W3 m ρ c) b hb
    _ = W2 m ρ c (Proc.devRef .tc b) := keep_hostOps0_2 (W2 m ρ c) b hb
    _ = W1 m ρ c (Proc.devRef .tc b) := keep_hostOps0_1 (W1 m ρ c) b hb
    _ = W0 m ρ c (Proc.devRef .tc b) := keep_hostOps0 (W0 m ρ c) b hb
    _ = m ((c : Thread nD τ).loc b) := rfl

/-- At region 0's exit: none of its window arrays is an argument. -/
theorem W6_arg (c : Dev nD) (b : Ref sig .tc) (hb : b.idx.val < 12) :
    W6 m ρ c (Proc.devRef .tc b) = m ((c : Thread nD τ).loc b) :=
  (W6_of_ne m ρ c b fun w => (ne_of_idx hb (arr0_idx w)).symm).trans (W5_arg m ρ c b hb)

/-- At region 1's entry. -/
theorem W7_arg (c : Dev nD) (b : Ref sig .tc) (hb : b.idx.val < 12) :
    W7 m ρ c (Proc.devRef .tc b) = m ((c : Thread nD τ).loc b) :=
  (keep_hostOps1 (W6 m ρ c) b hb).trans (W6_arg m ρ c b hb)

/-- At region 1's exit: the sixth argument is input window 1's array, left as entered; no other argument is a window array. -/
theorem W8_arg (c : Dev nD) (b : Ref sig .tc) (hb : b.idx.val < 12) :
    W8 m ρ c (Proc.devRef .tc b) = m ((c : Thread nD τ).loc b) := by
  by_cases h : b = main_arg6
  · subst h
    exact ((W8_arr m ρ c 1).trans (((dat1 (V7 m ρ) c).arrAt_in 1 rfl _).trans (A_eq1 (V7 m ρ) c 1))).trans
      (W7_arg m ρ c main_arg6 hb)
  · exact (W8_of_ne m ρ c b fun w e => (arr1_idx w).elim (fun h6 => h (e.symm.trans h6.2))
      (fun h12 => ne_of_idx hb h12 e.symm)).trans (W7_arg m ρ c b hb)

/-- At region 2's entry. -/
theorem W9_arg (c : Dev nD) (b : Ref sig .tc) (hb : b.idx.val < 12) :
    W9 m ρ c (Proc.devRef .tc b) = m ((c : Thread nD τ).loc b) :=
  (keep_hostOps2 (W8 m ρ c) b hb).trans (W8_arg m ρ c b hb)

/-- At region 2's exit: the eighth argument is input window 1's array, left as entered; no other argument is a window array. -/
theorem W10_arg (c : Dev nD) (b : Ref sig .tc) (hb : b.idx.val < 12) :
    W10 m ρ c (Proc.devRef .tc b) = m ((c : Thread nD τ).loc b) := by
  by_cases h : b = main_arg8
  · subst h
    exact ((W10_arr m ρ c 1).trans (((dat2 (V9 m ρ) c).arrAt_in 1 rfl _).trans (A_eq2 (V9 m ρ) c 1))).trans
      (W9_arg m ρ c main_arg8 hb)
  · exact (W10_of_ne m ρ c b fun w e => (arr2_idx w).elim (fun h8 => h (e.symm.trans h8.2))
      (fun h12 => ne_of_idx hb h12 e.symm)).trans (W9_arg m ρ c b hb)

/-- At region 3's entry. -/
theorem W11_arg (c : Dev nD) (b : Ref sig .tc) (hb : b.idx.val < 12) :
    W11 m ρ c (Proc.devRef .tc b) = m ((c : Thread nD τ).loc b) :=
  (keep_hostOps3 (W10 m ρ c) b hb).trans (W10_arg m ρ c b hb)

/-- At region 3's exit, the return: the tenth argument is input window 1's array, left as entered; no other argument is a
    window array. -/
theorem W12_arg (c : Dev nD) (b : Ref sig .tc) (hb : b.idx.val < 12) :
    W12 m ρ c (Proc.devRef .tc b) = m ((c : Thread nD τ).loc b) := by
  by_cases h : b = main_arg10
  · subst h
    exact ((W12_arr m ρ c 1).trans (((dat3 (V11 m ρ) c).arrAt_in 1 rfl _).trans (A_eq3 (V11 m ρ) c 1))).trans
      (W11_arg m ρ c main_arg10 hb)
  · exact (W12_of_ne m ρ c b fun w e => (arr3_idx w).elim (fun h10 => h (e.symm.trans h10.2))
      (fun h12 => ne_of_idx hb h12 e.symm)).trans (W11_arg m ρ c b hb)

end Cert.KernelIdeal.Hand

end
-- ==== Proof.V.Stretch.lean ====
/-
  One message-passing step as the host program spells it: gather the rows of x at the (wrapped) source indices,
  scale row e by the edge weight of e, and add each scaled row into the row of its destination node. The three
  host stretches between the regions each compute this step from the current node features, and reshape the next
  bias vector to a one-row array; every other buffer the next region reads is left as it was.
-/
import proofs.«151107_j62362925138837_1_alg».proof.Proof.Gen.KernelIdeal.Launch
import Idealize.ShloMosaic.Lib.StableHlo.Run

set_option maxRecDepth 16384

noncomputable section

namespace Cert.KernelIdeal.HandV

open Idealize.ShloMosaic Idealize.ShloMosaic.TcCoe Idealize.ShloMosaic.StableHlo Idealize.SL.Sem
open Cert.KernelIdeal Cert.KernelIdeal.Gen

variable {F : FTy → Type} [FloatOps F]

/-- The aggregated messages: row n is the sum over the edges e with destination n of ew(e) · x(src(e), ·), with the
    gather, the scatter-add and numpy's negative-index wrap exactly as the host operations state them. -/
def msg (ew : (⟨S640000x1, .f32⟩ : BufTy).Contents (Elt F)) (x : (⟨S50000x128, .f32⟩ : BufTy).Contents (Elt F))
    (src dst : (⟨S640000, .i32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf (broadcastInDim S640000x128 ![0, 1] bcast_S640000x1_S640000x128_0_1 ew)
      (Host.gather gather_S50000x128_S640000x1_S640000x128_1_0_n_n_0_1_1128 x
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))

set_option maxHeartbeats 4000000 in
theorem stretch1_v90 (W : Valuation τ sig (Elt F)) :
    StableHlo.after hostOps1 W (Proc.devRef .tc main_v90)
      = msg (W (Proc.devRef .tc main_v78)) (W (Proc.devRef .tc main_arg0)) (W (Proc.devRef .tc main_arg2)) (W (Proc.devRef .tc main_arg3)) := by
  after_results_simp
  rfl

set_option maxHeartbeats 4000000 in
theorem stretch1_v91 (W : Valuation τ sig (Elt F)) :
    StableHlo.after hostOps1 W (Proc.devRef .tc main_v91)
      = shapeCast S1x128 (W (Proc.devRef .tc main_arg7)) shapeCasts_S128_S1x128 := by
  after_results_simp
  rfl

set_option maxHeartbeats 4000000 in
theorem stretch1_arg6 (W : Valuation τ sig (Elt F)) :
    StableHlo.after hostOps1 W (Proc.devRef .tc main_arg6) = W (Proc.devRef .tc main_arg6) := by
  after_results_simp

set_option maxHeartbeats 4000000 in
theorem stretch1_v78 (W : Valuation τ sig (Elt F)) :
    StableHlo.after hostOps1 W (Proc.devRef .tc main_v78) = W (Proc.devRef .tc main_v78) := by
  after_results_simp

set_option maxHeartbeats 4000000 in
theorem stretch2_v104 (W : Valuation τ sig (Elt F)) :
    StableHlo.after hostOps2 W (Proc.devRef .tc main_v104)
      = msg (W (Proc.devRef .tc main_v78)) (W (Proc.devRef .tc main_v92)) (W (Proc.devRef .tc main_arg2)) (W (Proc.devRef .tc main_arg3)) := by
  after_results_simp
  rfl

set_option maxHeartbeats 4000000 in
theorem stretch2_v105 (W : Valuation τ sig (Elt F)) :
    StableHlo.after hostOps2 W (Proc.devRef .tc main_v105)
      = shapeCast S1x128 (W (Proc.devRef .tc main_arg9)) shapeCasts_S128_S1x128 := by
  after_results_simp
  rfl

set_option maxHeartbeats 4000000 in
theorem stretch2_arg8 (W : Valuation τ sig (Elt F)) :
    StableHlo.after hostOps2 W (Proc.devRef .tc main_arg8) = W (Proc.devRef .tc main_arg8) := by
  after_results_simp

set_option maxHeartbeats 4000000 in
theorem stretch2_v78 (W : Valuation τ sig (Elt F)) :
    StableHlo.after hostOps2 W (Proc.devRef .tc main_v78) = W (Proc.devRef .tc main_v78) := by
  after_results_simp

set_option maxHeartbeats 4000000 in
theorem stretch3_v118 (W : Valuation τ sig (Elt F)) :
    StableHlo.after hostOps3 W (Proc.devRef .tc main_v118)
      = msg (W (Proc.devRef .tc main_v78)) (W (Proc.devRef .tc main_v106)) (W (Proc.devRef .tc main_arg2)) (W (Proc.devRef .tc main_arg3)) := by
  after_results_simp
  rfl

set_option maxHeartbeats 4000000 in
theorem stretch3_v119 (W : Valuation τ sig (Elt F)) :
    StableHlo.after hostOps3 W (Proc.devRef .tc main_v119)
      = shapeCast S1x40 (W (Proc.devRef .tc main_arg11)) shapeCasts_S40_S1x40 := by
  after_results_simp
  rfl

set_option maxHeartbeats 4000000 in
theorem stretch3_arg10 (W : Valuation τ sig (Elt F)) :
    StableHlo.after hostOps3 W (Proc.devRef .tc main_arg10) = W (Proc.devRef .tc main_arg10) := by
  after_results_simp

end Cert.KernelIdeal.HandV

end
-- ==== Proof.LibBroadcastInDim.lean ====
/-
  Host broadcasts of a per-row and of a per-lane quantity, read at an index. A vector `[a]` of per-row numbers is
  first given a unit lane axis (`[a, 1]`) and then repeated along the lanes (`[a, c]`): entry `(r, q)` of the result is
  entry `r` of the vector. A vector `[c]` of per-lane numbers is first given a unit row axis (`[1, c]`) and then repeated
  along the rows: entry `(r, q)` of the result is entry `q` of the vector. A scalar broadcast to any shape reads the
  scalar everywhere.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A per-row vector `[a]` broadcast to `[a, 1]` and then to `[a, c]` reads, at `(r, q)`, the vector's entry `r`. -/
theorem perRow_apply {a c : ℕ} (d : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, c]⟩ ![0, 1]) (r : Fin a) (q : Fin c) :
    broadcastInDim ⟨2, ![a, c]⟩ ![0, 1] h2 (broadcastInDim ⟨2, ![a, 1]⟩ ![0] h1 d) (ix2 r q) = d (ix1 r) := by
  refine (broadcastInDim_apply _ h2 _ (ix2 r q) (ix2 r (0 : Fin 1)) fun ax => ?_).trans
    (broadcastInDim_apply _ h1 d (ix2 r (0 : Fin 1)) (ix1 r) fun ax => ?_)
  · match ax with
    | ⟨0, _⟩ =>
      show r.val = if a = 1 then 0 else r.val
      split
      · have := r.isLt; omega
      · rfl
    | ⟨1, _⟩ => show 0 = if (1 : ℕ) = 1 then 0 else q.val; rw [if_pos rfl]
  · match ax with
    | ⟨0, _⟩ =>
      show r.val = if a = 1 then 0 else r.val
      split
      · have := r.isLt; omega
      · rfl

/-- A per-lane vector `[c]` broadcast to `[1, c]` and then to `[a, c]` reads, at `(r, q)`, the vector's entry `q`. -/
theorem perLane_apply {a c : ℕ} (b : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![a, c]⟩ ![0, 1]) (r : Fin a) (q : Fin c) :
    broadcastInDim ⟨2, ![a, c]⟩ ![0, 1] h2 (broadcastInDim ⟨2, ![1, c]⟩ ![1] h1 b) (ix2 r q) = b (ix1 q) := by
  refine (broadcastInDim_apply _ h2 _ (ix2 r q) (ix2 (0 : Fin 1) q) fun ax => ?_).trans
    (broadcastInDim_apply _ h1 b (ix2 (0 : Fin 1) q) (ix1 q) fun ax => ?_)
  · match ax with
    | ⟨0, _⟩ => show 0 = if (1 : ℕ) = 1 then 0 else r.val; rw [if_pos rfl]
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- A scalar broadcast to any shape reads the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply _ h x i ix0 fun ax => ax.elim0

end Cert.Lib.BroadcastInDim

end
-- ==== Proof.LibRowOps.lean ====
/-
  The arithmetic of one layer, index by index over the extended reals. A row-by-row matrix product: entry (r, c) is
  the sum over f of A (r, f) · W (f, c). A bias row added to every row and the result clamped below at zero: entry
  (r, q) is max (A (r, q) + b (0, q)) 0. A bias row added to every row. None of these needs a finite entry: sums and
  maxima of extended reals are total, and the only law used between two arrangements is that a product commutes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {m k n : ℕ}

/-- An `[a, b]` array of extended reals. -/
abbrev Mat (a b : ℕ) := FVec Ideal (⟨2, ![a, b]⟩ : Shape) .f32

/-- Row of `i`, column `f`: where the left factor of term `f` of entry `i` of a product sits. -/
abbrev lrow (i : (⟨2, ![m, n]⟩ : Shape).Idx) (f : Fin k) : (⟨2, ![m, k]⟩ : Shape).Idx := ix2 ⟨(i 0).val, idx2_lt0 i⟩ f
/-- Row `f`, column of `i`: where the right factor of term `f` of entry `i` of a product sits. -/
abbrev rcol (i : (⟨2, ![m, n]⟩ : Shape).Idx) (f : Fin k) : (⟨2, ![k, n]⟩ : Shape).Idx := ix2 f ⟨(i 1).val, idx2_lt1 i⟩
/-- The entry of a one-row array in the column of `i`. -/
abbrev lane (i : (⟨2, ![m, n]⟩ : Shape).Idx) : (⟨2, ![1, n]⟩ : Shape).Idx := ix2 (0 : Fin 1) ⟨(i 1).val, idx2_lt1 i⟩

/-- The matrix product, entry by entry. -/
def rowsMul (A : Mat m k) (W : Mat k n) : Mat m n := fun i => ∑ f : Fin k, A (lrow i f) * W (rcol i f)
/-- A bias row added to every row, then clamped below at zero. -/
def biasRelu (A : Mat m n) (b : Mat 1 n) : Mat m n :=
  fun i => max (A i + b (lane i)) (FloatOps.ofBits (F := Ideal) .f32 0x00000000#32)
/-- A bias row added to every row. -/
def addRow (A : Mat m n) (b : Mat 1 n) : Mat m n := fun i => A i + b (lane i)

theorem rowsMul_ix2 (A : Mat m k) (W : Mat k n) (r : Fin m) (c : Fin n) :
    rowsMul A W (ix2 r c) = ∑ f : Fin k, A (ix2 r f) * W (ix2 f c) := rfl
theorem biasRelu_ix2 (A : Mat m n) (b : Mat 1 n) (r : Fin m) (q : Fin n) :
    biasRelu A b (ix2 r q) = max (A (ix2 r q) + b (ix2 (0 : Fin 1) q)) (FloatOps.ofBits (F := Ideal) .f32 0x00000000#32) := rfl
theorem addRow_ix2 (A : Mat m n) (b : Mat 1 n) (r : Fin m) (q : Fin n) :
    addRow A b (ix2 r q) = A (ix2 r q) + b (ix2 (0 : Fin 1) q) := rfl

/-- A product of two arrays of extended reals, entry by entry, commutes. -/
theorem mulf_comm {s : Shape} {φ : FTy} (a b : FVec Ideal s φ) : mulf a b = mulf b a :=
  funext fun i => mul_comm (a i) (b i)

end Cert.RowOps

end
-- ==== Proof.LibRowBias.lean ====
/-
  The bias row as each side spells it. Inside a region the bias arrives as a one-row array and is repeated down the
  rows of the block; on the host a bias vector is first given a unit row axis and then repeated down the rows. Either
  way entry (r, q) sees the bias entry of lane q, so "add the bias, clamp at zero" is one function of the array and of
  the bias held as a one-row array; a vector reshaped to one row holds the vector's entry q in lane q.
-/
import proofs.«151107_j62362925138837_1_alg».proof.Proof.LibBroadcastInDim
import proofs.«151107_j62362925138837_1_alg».proof.Proof.LibRowOps

noncomputable section

namespace Cert.RowOps

open Idealize.ShloMosaic Idealize.ShloMosaic.ValueIdx

variable {a c : ℕ}

/-- Inside a region: the loaded block plus the one-row bias repeated down its rows, clamped below at the zero splat. -/
theorem blockBiasRelu_eq (x0 : Mat a c) (x1 : Mat 1 c)
    (hs : (⟨2, ![a, c]⟩ : Shape).ShapeCasts ⟨2, ![a, c]⟩) (hs1 : (⟨2, ![1, c]⟩ : Shape).ShapeCasts ⟨2, ![1, c]⟩)
    (hb : (⟨2, ![1, c]⟩ : Shape).Broadcasts ⟨2, ![a, c]⟩) :
    maximumf (addf (shapeCast ⟨2, ![a, c]⟩ x0 hs) (broadcastTo ⟨2, ![a, c]⟩ (shapeCast ⟨2, ![1, c]⟩ x1 hs1) hb))
        (broadcast ⟨2, ![a, c]⟩ (Scalar.ofBits (F := Ideal) .f32 0x00000000#32))
      = biasRelu x0 x1 := by
  rw [shapeCast_self, shapeCast_self]
  funext j
  obtain ⟨r, q, rfl⟩ : ∃ (r : Fin a) (q : Fin c), j = ix2 r q := ⟨j 0, j 1, eq_ix2 j⟩
  rw [biasRelu_ix2]
  show max (x0 (ix2 r q) + broadcastTo ⟨2, ![a, c]⟩ x1 hb (ix2 r q)) _ = _
  rw [broadcastTo_1b_ab_apply]
  rfl

/-- Inside a region: a value plus the one-row bias repeated down its rows. -/
theorem blockAddRow_eq (y : Mat a c) (x1 : Mat 1 c) (hs1 : (⟨2, ![1, c]⟩ : Shape).ShapeCasts ⟨2, ![1, c]⟩)
    (hb : (⟨2, ![1, c]⟩ : Shape).Broadcasts ⟨2, ![a, c]⟩) :
    addf y (broadcastTo ⟨2, ![a, c]⟩ (shapeCast ⟨2, ![1, c]⟩ x1 hs1) hb) = addRow y x1 := by
  rw [shapeCast_self]
  funext j
  obtain ⟨r, q, rfl⟩ : ∃ (r : Fin a) (q : Fin c), j = ix2 r q := ⟨j 0, j 1, eq_ix2 j⟩
  rw [addRow_ix2]
  show y (ix2 r q) + broadcastTo ⟨2, ![a, c]⟩ x1 hb (ix2 r q) = _
  rw [broadcastTo_1b_ab_apply]

/-- On the host: the array plus the bias vector given a unit row axis and repeated down the rows, clamped below at the
    zero splat, is the same function of the array and of the vector reshaped to one row. -/
theorem hostBiasRelu_eq (A : Mat a c) (b : FVec Ideal (⟨1, ![c]⟩ : Shape) .f32)
    (h1 : (⟨1, ![c]⟩ : Shape).BroadcastsInDim ⟨2, ![1, c]⟩ ![1])
    (h2 : (⟨2, ![1, c]⟩ : Shape).BroadcastsInDim ⟨2, ![a, c]⟩ ![0, 1])
    (h0 : (⟨0, ![]⟩ : Shape).BroadcastsInDim ⟨2, ![a, c]⟩ ![])
    (hc : (⟨1, ![c]⟩ : Shape).ShapeCasts ⟨2, ![1, c]⟩) :
    maximumf (addf A (broadcastInDim ⟨2, ![a, c]⟩ ![0, 1] h2 (broadcastInDim ⟨2, ![1, c]⟩ ![1] h1 b)))
        (broadcastInDim ⟨2, ![a, c]⟩ ![] h0 (constant (F := Ideal) ⟨0, ![]⟩ .f32 0x00000000#32))
      = biasRelu A (shapeCast ⟨2, ![1, c]⟩ b hc) := by
  funext j
  obtain ⟨r, q, rfl⟩ : ∃ (r : Fin a) (q : Fin c), j = ix2 r q := ⟨j 0, j 1, eq_ix2 j⟩
  rw [biasRelu_ix2, shapeCast_a_1a_apply]
  show max (A (ix2 r q) + broadcastInDim ⟨2, ![a, c]⟩ ![0, 1] h2 (broadcastInDim ⟨2, ![1, c]⟩ ![1] h1 b) (ix2 r q))
    (broadcastInDim ⟨2, ![a, c]⟩ ![] h0 (constant (F := Ideal) ⟨0, ![]⟩ .f32 0x00000000#32) (ix2 r q)) = _
  rw [Cert.Lib.BroadcastInDim.perLane_apply, Cert.Lib.BroadcastInDim.splat_apply]
  rfl

/-- On the host: an array plus the bias vector given a unit row axis and repeated down the rows. -/
theorem hostAddRow_eq (A : Mat a c) (b : FVec Ideal (⟨1, ![c]⟩ : Shape) .f32)
    (h1 : (⟨1, ![c]⟩ : Shape).BroadcastsInDim ⟨2, ![1, c]⟩ ![1])
    (h2 : (⟨2, ![1, c]⟩ : Shape).BroadcastsInDim ⟨2, ![a, c]⟩ ![0, 1])
    (hc : (⟨1, ![c]⟩ : Shape).ShapeCasts ⟨2, ![1, c]⟩) :
    addf A (broadcastInDim ⟨2, ![a, c]⟩ ![0, 1] h2 (broadcastInDim ⟨2, ![1, c]⟩ ![1] h1 b))
      = addRow A (shapeCast ⟨2, ![1, c]⟩ b hc) := by
  funext j
  obtain ⟨r, q, rfl⟩ : ∃ (r : Fin a) (q : Fin c), j = ix2 r q := ⟨j 0, j 1, eq_ix2 j⟩
  rw [addRow_ix2, shapeCast_a_1a_apply]
  show A (ix2 r q) + broadcastInDim ⟨2, ![a, c]⟩ ![0, 1] h2 (broadcastInDim ⟨2, ![1, c]⟩ ![1] h1 b) (ix2 r q) = _
  rw [Cert.Lib.BroadcastInDim.perLane_apply]

end Cert.RowOps

end
-- ==== Proof.LibPlainMatmul.lean ====
/-
  A plain two-axis matrix product into a zero accumulator, read at an index given by coordinates: for dimension
  numbers that contract the left operand's columns with the right operand's rows, an `[m, k] · [k, n]` product whose
  accumulator is the zero splat reads, at `(r, c)`, the sum over `f` of left `(r, f)` times right `(f, c)` over the
  extended reals — the same sum the host's `dot_general` with these dimension numbers reads there.
-/
import Idealize.ShloMosaic.Lib.ValueIdx
import Idealize.ShloMosaic.PureOps.Ideal.Laws

noncomputable section

namespace Cert.PlainMatmul

open Idealize.ShloMosaic Idealize.ShloMosaic.ValueIdx

/-- For dimension numbers that contract the left operand's columns with the right operand's rows (`hl0` … `hr1`: the
    operand indices at an output index and a contraction position, read off the numbers), an `[m, k] · [k, n]`
    product into the zero accumulator reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision)
    (lhs : FVec Ideal ⟨2, ![m, k]⟩ φ₁) (rhs : FVec Ideal ⟨2, ![k, n]⟩ φ₂) (r : Fin m) (c : Fin n) :
    FloatOps.matmul D prec lhs rhs (constant ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainMatmul

end
-- ==== Proof.V.NodeApply.lean ====
/-
  The value of the three node-apply regions over the extended reals. Each region's body stores, for a block of 5000
  rows, the block times the whole weight array plus the bias row (clamped below at zero in the two hidden layers). A row
  of a matrix product reads that row of the left factor and all of the right factor, and row r of block t of the input
  is row t · 5000 + r of the input array; the weight and bias windows are the whole arrays at every point. So what each
  point writes back is its block of ONE function of the arrays the region finds, and the ten row blocks tile the
  output array: after the region the output array is that function.
-/
import proofs.«151107_j62362925138837_1_alg».proof.Proof.KI.Region1
import proofs.«151107_j62362925138837_1_alg».proof.Proof.KI.Region2
import proofs.«151107_j62362925138837_1_alg».proof.Proof.KI.Region3
import proofs.«151107_j62362925138837_1_alg».proof.Proof.LibRowBias
import proofs.«151107_j62362925138837_1_alg».proof.Proof.LibPlainMatmul
import Idealize.ShloMosaic.Lib.Pipeline.Value

noncomputable section

namespace Cert.KernelIdeal.HandV

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand Cert.RowOps

/-- A block of 5000 rows times the whole [128, 128] weight array, into the zero accumulator: entry (r, q) is the sum
    over f of block (r, f) · weight (f, q). Over the extended reals the narrowing of both operands is the identity. -/
theorem mm128_eq (v0 : Vec Ideal S5000x128 .f32) (v3 : Vec Ideal S128x128 .f32) :
    matmul dot_S5000x128_S128x128_S5000x128_1_0_0_1_n_n none
        (truncf .bf16 (shapeCast S5000x128 v0 shapeCasts_S5000x128_S5000x128) bitsLt_bf16_f32)
        (truncf .bf16 v3 bitsLt_bf16_f32) (constant S5000x128 .f32 0x00000000#32)
      = rowsMul (m := 5000) (k := 128) (n := 128) v0 v3 := by
  rw [shapeCast_self]
  funext j
  obtain ⟨r, q, rfl⟩ : ∃ (r : Fin 5000) (q : Fin 128), j = ix2 r q := ⟨j 0, j 1, eq_ix2 j⟩
  rw [rowsMul_ix2]
  refine (Cert.PlainMatmul.matmul_zero_ix2_apply dot_S5000x128_S128x128_S5000x128_1_0_0_1_n_n rfl rfl
    ?_ ?_ ?_ ?_ none (truncf .bf16 v0 bitsLt_bf16_f32) (truncf .bf16 v3 bitsLt_bf16_f32) r q).trans ?_
  · intro i q
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  · intro i q
    exact dot_S5000x128_S128x128_S5000x128_1_0_0_1_n_n.lhsIdx_val_of_single rfl i q
  · intro i q
    exact dot_S5000x128_S128x128_S5000x128_1_0_0_1_n_n.rhsIdx_val_of_single rfl i q
  · intro i q
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl
  · exact Finset.sum_congr rfl fun f _ => rfl

/-- The same for the [128, 40] weight array of the last layer. -/
theorem mm40_eq (v0 : Vec Ideal S5000x128 .f32) (v3 : Vec Ideal S128x40 .f32) :
    matmul dot_S5000x128_S128x40_S5000x40_1_0_0_1_n_n none
        (truncf .bf16 (shapeCast S5000x128 v0 shapeCasts_S5000x128_S5000x128) bitsLt_bf16_f32)
        (truncf .bf16 v3 bitsLt_bf16_f32) (constant S5000x40 .f32 0x00000000#32)
      = rowsMul (m := 5000) (k := 128) (n := 40) v0 v3 := by
  rw [shapeCast_self]
  funext j
  obtain ⟨r, q, rfl⟩ : ∃ (r : Fin 5000) (q : Fin 40), j = ix2 r q := ⟨j 0, j 1, eq_ix2 j⟩
  rw [rowsMul_ix2]
  refine (Cert.PlainMatmul.matmul_zero_ix2_apply dot_S5000x128_S128x40_S5000x40_1_0_0_1_n_n rfl rfl
    ?_ ?_ ?_ ?_ none (truncf .bf16 v0 bitsLt_bf16_f32) (truncf .bf16 v3 bitsLt_bf16_f32) r q).trans ?_
  · intro i q
    unfold DotDims.lhsIdx
    rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
    rfl
  · intro i q
    exact dot_S5000x128_S128x40_S5000x40_1_0_0_1_n_n.lhsIdx_val_of_single rfl i q
  · intro i q
    exact dot_S5000x128_S128x40_S5000x40_1_0_0_1_n_n.rhsIdx_val_of_single rfl i q
  · intro i q
    unfold DotDims.rhsIdx
    rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
    rfl
  · exact Finset.sum_congr rfl fun f _ => rfl

/-- What region 1 stores for a block: the block times the weights, plus the bias row, clamped below at zero. -/
theorem pay1_eq (v0 : Vec Ideal S5000x128 .f32) (v3 : Vec Ideal S128x128 .f32) (v6 : Vec Ideal S1x128 .f32) :
    k1_pay1 v0 v3 v6 = biasRelu (rowsMul (m := 5000) (k := 128) (n := 128) v0 v3) v6 := by
  unfold k1_pay1
  dsimp only
  rw [mm128_eq]
  refine Eq.trans ?_ (blockBiasRelu_eq (a := 5000) (c := 128) (rowsMul v0 v3) v6 shapeCasts_S5000x128_S5000x128
    shapeCasts_S1x128_S1x128 broadcasts_S1x128_S5000x128)
  rw [shapeCast_self (rowsMul v0 v3)]

/-- What region 2 stores for a block: the same function of its own operands. -/
theorem pay2_eq (v0 : Vec Ideal S5000x128 .f32) (v3 : Vec Ideal S128x128 .f32) (v6 : Vec Ideal S1x128 .f32) :
    k2_pay1 v0 v3 v6 = biasRelu (rowsMul (m := 5000) (k := 128) (n := 128) v0 v3) v6 := by
  unfold k2_pay1
  dsimp only
  rw [mm128_eq]
  refine Eq.trans ?_ (blockBiasRelu_eq (a := 5000) (c := 128) (rowsMul v0 v3) v6 shapeCasts_S5000x128_S5000x128
    shapeCasts_S1x128_S1x128 broadcasts_S1x128_S5000x128)
  rw [shapeCast_self (rowsMul v0 v3)]

/-- What region 3 stores for a block: the block times the [128, 40] weights, plus the bias row; no clamp. -/
theorem pay3_eq (v0 : Vec Ideal S5000x128 .f32) (v3 : Vec Ideal S128x40 .f32) (v6 : Vec Ideal S1x40 .f32) :
    k3_pay1 v0 v3 v6 = addRow (rowsMul (m := 5000) (k := 128) (n := 40) v0 v3) v6 := by
  unfold k3_pay1
  dsimp only
  rw [mm40_eq]
  exact blockAddRow_eq (a := 5000) (c := 40) (rowsMul v0 v3) v6 shapeCasts_S1x40_S1x40 broadcasts_S1x40_S5000x40

/-- The zero offset of a whole-block rectangle, as a function. -/
theorem hz : (![0, 0] : Fin 2 → Nat) = fun _ => 0 := funext fun a => by fin_cases a <;> rfl

/-! ## Region 1: from the blocks to the array -/

/-- What region 1's output array ends holding: the whole input array times the weights, plus the bias row, clamped below at zero. -/
abbrev G1 (V : (c : Dev nD) → (b : Ref sig .tc) → Buf (Elt Ideal) ((c : Thread nD τ).loc b)) (c : Dev nD) : Mat 50000 128 :=
  biasRelu (rowsMul (m := 50000) (k := 128) (n := 128) (V c main_v90) (V c main_arg6)) (V c main_v91)

/-- The printed index maps, decided over the 10 points: the input rows' window moves with the output's, every other
    block index is 0, and the output's row-block index is at most 9. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of `G1`: row `r` of the block is row (block index · 5000 + r) of the
    array, and a row of the product reads that row of the left factor and all of the right factor. -/
theorem flushed1_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [pay1_eq]
  obtain ⟨e0, e1, e2, e3, e4, e5, e6, e7⟩ := idx_facts1 t
  refine funext fun (j : S5000x128.Idx) => ?_
  obtain ⟨r, q, rfl⟩ : ∃ (r : Fin 5000) (q : Fin 128), j = ix2 r q := ⟨j 0, j 1, eq_ix2 j⟩
  have hr : r.val < 5000 := r.isLt
  have hq : q.val < 128 := q.isLt
  have hR : win1_3.index t (0 : Fin 2) * 5000 + r.val < 50000 := by omega
  have h3 : ((cfg1.win 3).blk t).view.emb (ix2 r q) = ix2 (⟨win1_3.index t (0 : Fin 2) * 5000 + r.val, hR⟩ : Fin 50000) q := by
    funext a; apply Fin.ext
    match a with
    | ⟨0, _⟩ => show win1_3.index t (0 : Fin 2) * 5000 + 1 * r.val = win1_3.index t (0 : Fin 2) * 5000 + r.val; omega
    | ⟨1, _⟩ => show win1_3.index t (1 : Fin 2) * 128 + 1 * q.val = q.val; omega
  have h0 : ∀ f : Fin 128, ((cfg1.win 0).blk t).view.emb (ix2 r f) = ix2 (⟨win1_3.index t (0 : Fin 2) * 5000 + r.val, hR⟩ : Fin 50000) f := by
    intro f
    have hf : f.val < 128 := f.isLt
    funext a; apply Fin.ext
    match a with
    | ⟨0, _⟩ => show win1_0.index t (0 : Fin 2) * 5000 + 1 * r.val = win1_3.index t (0 : Fin 2) * 5000 + r.val; omega
    | ⟨1, _⟩ => show win1_0.index t (1 : Fin 2) * 128 + 1 * f.val = f.val; omega
  have h1 : ∀ f : Fin 128, ((cfg1.win 1).blk t).view.emb (ix2 f q) = ix2 f q := by
    intro f
    have hf : f.val < 128 := f.isLt
    funext a; apply Fin.ext
    match a with
    | ⟨0, _⟩ => show win1_1.index t (0 : Fin 2) * 128 + 1 * f.val = f.val; omega
    | ⟨1, _⟩ => show win1_1.index t (1 : Fin 2) * 128 + 1 * q.val = q.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  show biasRelu (rowsMul (m := 5000) (k := 128) (n := 128) (iblk1 V c 0 t) (iblk1 V c 1 t)) (iblk1 V c 2 t) (ix2 r q)
    = biasRelu (rowsMul (m := 50000) (k := 128) (n := 128) (V c main_v90) (V c main_arg6)) (V c main_v91) (((cfg1.win 3).blk t).view.emb (ix2 r q))
  rw [h3, biasRelu_ix2, biasRelu_ix2, rowsMul_ix2, rowsMul_ix2]
  have hA : ∀ f : Fin 128, iblk1 V c 0 t (ix2 r f) = V c main_v90 (ix2 (⟨win1_3.index t (0 : Fin 2) * 5000 + r.val, hR⟩ : Fin 50000) f) := by
    intro f
    show V c main_v90 (((cfg1.win 0).blk t).view.emb (ix2 r f)) = _
    rw [h0 f]
  have hW : ∀ f : Fin 128, iblk1 V c 1 t (ix2 f q) = V c main_arg6 (ix2 f q) := by
    intro f
    show V c main_arg6 (((cfg1.win 1).blk t).view.emb (ix2 f q)) = _
    rw [h1 f]
  have hb : iblk1 V c 2 t (ix2 (0 : Fin 1) q) = V c main_v91 (ix2 (0 : Fin 1) q) := by
    show V c main_v91 (((cfg1.win 2).blk t).view.emb (ix2 (0 : Fin 1) q)) = _
    rw [h2]
  simp only [hA, hW, hb]

/-- An index of the array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v92).slice (win1_3.rect t)).set ↔ _
  rw [View.set_slice_whole, Rect.mem_set_unit]
  exact Iff.rfl

/-- The ten row blocks tile the array: row `r` is in the block of the point whose block index is `r / 5000`. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array of region 1 after the region, as one function of the arrays the region finds. -/
theorem arr1 (V : (c : Dev nD) → (b : Ref sig .tc) → Buf (Elt Ideal) ((c : Thread nD τ).loc b)) (c : Dev nD) :
    (dat1 (F := Ideal) V c).arrAt 3 cfg1.N
      = biasRelu (rowsMul (m := 50000) (k := 128) (n := 128) (V c main_v90) (V c main_arg6)) (V c main_v91) :=
  (dat1 (F := Ideal) V c).arrAt_eq_of_cover 3 (G1 V c) (fun t _ => flushed1_eq V c t) cover1

/-! ## Region 2: from the blocks to the array -/

/-- What region 2's output array ends holding: the whole input array times the weights, plus the bias row, clamped below at zero. -/
abbrev G2 (V : (c : Dev nD) → (b : Ref sig .tc) → Buf (Elt Ideal) ((c : Thread nD τ).loc b)) (c : Dev nD) : Mat 50000 128 :=
  biasRelu (rowsMul (m := 50000) (k := 128) (n := 128) (V c main_v104) (V c main_arg8)) (V c main_v105)

/-- The printed index maps, decided over the 10 points: the input rows' window moves with the output's, every other
    block index is 0, and the output's row-block index is at most 9. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of `G2`: row `r` of the block is row (block index · 5000 + r) of the
    array, and a row of the product reads that row of the left factor and all of the right factor. -/
theorem flushed2_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  rw [pay2_eq]
  obtain ⟨e0, e1, e2, e3, e4, e5, e6, e7⟩ := idx_facts2 t
  refine funext fun (j : S5000x128.Idx) => ?_
  obtain ⟨r, q, rfl⟩ : ∃ (r : Fin 5000) (q : Fin 128), j = ix2 r q := ⟨j 0, j 1, eq_ix2 j⟩
  have hr : r.val < 5000 := r.isLt
  have hq : q.val < 128 := q.isLt
  have hR : win2_3.index t (0 : Fin 2) * 5000 + r.val < 50000 := by omega
  have h3 : ((cfg2.win 3).blk t).view.emb (ix2 r q) = ix2 (⟨win2_3.index t (0 : Fin 2) * 5000 + r.val, hR⟩ : Fin 50000) q := by
    funext a; apply Fin.ext
    match a with
    | ⟨0, _⟩ => show win2_3.index t (0 : Fin 2) * 5000 + 1 * r.val = win2_3.index t (0 : Fin 2) * 5000 + r.val; omega
    | ⟨1, _⟩ => show win2_3.index t (1 : Fin 2) * 128 + 1 * q.val = q.val; omega
  have h0 : ∀ f : Fin 128, ((cfg2.win 0).blk t).view.emb (ix2 r f) = ix2 (⟨win2_3.index t (0 : Fin 2) * 5000 + r.val, hR⟩ : Fin 50000) f := by
    intro f
    have hf : f.val < 128 := f.isLt
    funext a; apply Fin.ext
    match a with
    | ⟨0, _⟩ => show win2_0.index t (0 : Fin 2) * 5000 + 1 * r.val = win2_3.index t (0 : Fin 2) * 5000 + r.val; omega
    | ⟨1, _⟩ => show win2_0.index t (1 : Fin 2) * 128 + 1 * f.val = f.val; omega
  have h1 : ∀ f : Fin 128, ((cfg2.win 1).blk t).view.emb (ix2 f q) = ix2 f q := by
    intro f
    have hf : f.val < 128 := f.isLt
    funext a; apply Fin.ext
    match a with
    | ⟨0, _⟩ => show win2_1.index t (0 : Fin 2) * 128 + 1 * f.val = f.val; omega
    | ⟨1, _⟩ => show win2_1.index t (1 : Fin 2) * 128 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  show biasRelu (rowsMul (m := 5000) (k := 128) (n := 128) (iblk2 V c 0 t) (iblk2 V c 1 t)) (iblk2 V c 2 t) (ix2 r q)
    = biasRelu (rowsMul (m := 50000) (k := 128) (n := 128) (V c main_v104) (V c main_arg8)) (V c main_v105) (((cfg2.win 3).blk t).view.emb (ix2 r q))
  rw [h3, biasRelu_ix2, biasRelu_ix2, rowsMul_ix2, rowsMul_ix2]
  have hA : ∀ f : Fin 128, iblk2 V c 0 t (ix2 r f) = V c main_v104 (ix2 (⟨win2_3.index t (0 : Fin 2) * 5000 + r.val, hR⟩ : Fin 50000) f) := by
    intro f
    show V c main_v104 (((cfg2.win 0).blk t).view.emb (ix2 r f)) = _
    rw [h0 f]
  have hW : ∀ f : Fin 128, iblk2 V c 1 t (ix2 f q) = V c main_arg8 (ix2 f q) := by
    intro f
    show V c main_arg8 (((cfg2.win 1).blk t).view.emb (ix2 f q)) = _
    rw [h1 f]
  have hb : iblk2 V c 2 t (ix2 (0 : Fin 1) q) = V c main_v105 (ix2 (0 : Fin 1) q) := by
    show V c main_v105 (((cfg2.win 2).blk t).view.emb (ix2 (0 : Fin 1) q)) = _
    rw [h2]
  simp only [hA, hW, hb]

/-- An index of the array is in point `t`'s block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v106).slice (win2_3.rect t)).set ↔ _
  rw [View.set_slice_whole, Rect.mem_set_unit]
  exact Iff.rfl

/-- The ten row blocks tile the array: row `r` is in the block of the point whose block index is `r / 5000`. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array of region 2 after the region, as one function of the arrays the region finds. -/
theorem arr2 (V : (c : Dev nD) → (b : Ref sig .tc) → Buf (Elt Ideal) ((c : Thread nD τ).loc b)) (c : Dev nD) :
    (dat2 (F := Ideal) V c).arrAt 3 cfg2.N
      = biasRelu (rowsMul (m := 50000) (k := 128) (n := 128) (V c main_v104) (V c main_arg8)) (V c main_v105) :=
  (dat2 (F := Ideal) V c).arrAt_eq_of_cover 3 (G2 V c) (fun t _ => flushed2_eq V c t) cover2

/-! ## Region 3: from the blocks to the array -/

/-- What region 3's output array ends holding: the whole input array times the weights, plus the bias row. -/
abbrev G3 (V : (c : Dev nD) → (b : Ref sig .tc) → Buf (Elt Ideal) ((c : Thread nD τ).loc b)) (c : Dev nD) : Mat 50000 40 :=
  addRow (rowsMul (m := 50000) (k := 128) (n := 40) (V c main_v118) (V c main_arg10)) (V c main_v119)

/-- The printed index maps, decided over the 10 points: the input rows' window moves with the output's, every other
    block index is 0, and the output's row-block index is at most 9. -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block is some point's. -/
theorem idx_onto3 : ∀ q0 : Fin 10, ∃ t : Fin cfg3.N, win3_3.index t = ![q0.val, 0] :=
  (by decide +kernel : ∀ q0 : Fin 10, ∃ t : Fin grid3.N, win3_3.index t = ![q0.val, 0])

/-- What point `t` writes back is block `t` of `G3`: row `r` of the block is row (block index · 5000 + r) of the
    array, and a row of the product reads that row of the left factor and all of the right factor. -/
theorem flushed3_eq (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x40) hz, View.ld_unit_zero (S := S1x40) hz]
  rw [pay3_eq]
  obtain ⟨e0, e1, e2, e3, e4, e5, e6, e7⟩ := idx_facts3 t
  refine funext fun (j : S5000x40.Idx) => ?_
  obtain ⟨r, q, rfl⟩ : ∃ (r : Fin 5000) (q : Fin 40), j = ix2 r q := ⟨j 0, j 1, eq_ix2 j⟩
  have hr : r.val < 5000 := r.isLt
  have hq : q.val < 40 := q.isLt
  have hR : win3_3.index t (0 : Fin 2) * 5000 + r.val < 50000 := by omega
  have h3 : ((cfg3.win 3).blk t).view.emb (ix2 r q) = ix2 (⟨win3_3.index t (0 : Fin 2) * 5000 + r.val, hR⟩ : Fin 50000) q := by
    funext a; apply Fin.ext
    match a with
    | ⟨0, _⟩ => show win3_3.index t (0 : Fin 2) * 5000 + 1 * r.val = win3_3.index t (0 : Fin 2) * 5000 + r.val; omega
    | ⟨1, _⟩ => show win3_3.index t (1 : Fin 2) * 40 + 1 * q.val = q.val; omega
  have h0 : ∀ f : Fin 128, ((cfg3.win 0).blk t).view.emb (ix2 r f) = ix2 (⟨win3_3.index t (0 : Fin 2) * 5000 + r.val, hR⟩ : Fin 50000) f := by
    intro f
    have hf : f.val < 128 := f.isLt
    funext a; apply Fin.ext
    match a with
    | ⟨0, _⟩ => show win3_0.index t (0 : Fin 2) * 5000 + 1 * r.val = win3_3.index t (0 : Fin 2) * 5000 + r.val; omega
    | ⟨1, _⟩ => show win3_0.index t (1 : Fin 2) * 128 + 1 * f.val = f.val; omega
  have h1 : ∀ f : Fin 128, ((cfg3.win 1).blk t).view.emb (ix2 f q) = ix2 f q := by
    intro f
    have hf : f.val < 128 := f.isLt
    funext a; apply Fin.ext
    match a with
    | ⟨0, _⟩ => show win3_1.index t (0 : Fin 2) * 128 + 1 * f.val = f.val; omega
    | ⟨1, _⟩ => show win3_1.index t (1 : Fin 2) * 40 + 1 * q.val = q.val; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 40 + 1 * q.val = q.val; omega
  show addRow (rowsMul (m := 5000) (k := 128) (n := 40) (iblk3 V c 0 t) (iblk3 V c 1 t)) (iblk3 V c 2 t) (ix2 r q)
    = addRow (rowsMul (m := 50000) (k := 128) (n := 40) (V c main_v118) (V c main_arg10)) (V c main_v119) (((cfg3.win 3).blk t).view.emb (ix2 r q))
  rw [h3, addRow_ix2, addRow_ix2, rowsMul_ix2, rowsMul_ix2]
  have hA : ∀ f : Fin 128, iblk3 V c 0 t (ix2 r f) = V c main_v118 (ix2 (⟨win3_3.index t (0 : Fin 2) * 5000 + r.val, hR⟩ : Fin 50000) f) := by
    intro f
    show V c main_v118 (((cfg3.win 0).blk t).view.emb (ix2 r f)) = _
    rw [h0 f]
  have hW : ∀ f : Fin 128, iblk3 V c 1 t (ix2 f q) = V c main_arg10 (ix2 f q) := by
    intro f
    show V c main_arg10 (((cfg3.win 1).blk t).view.emb (ix2 f q)) = _
    rw [h1 f]
  have hb : iblk3 V c 2 t (ix2 (0 : Fin 1) q) = V c main_v119 (ix2 (0 : Fin 1) q) := by
    show V c main_v119 (((cfg3.win 2).blk t).view.emb (ix2 (0 : Fin 1) q)) = _
    rw [h2]
  simp only [hA, hW, hb]

/-- An index of the array is in point `t`'s block iff each coordinate is in the block's range on its axis. -/
theorem mem_blk3 (t : Fin cfg3.N) (i : S50000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v120).slice (win3_3.rect t)).set ↔ _
  rw [View.set_slice_whole, Rect.mem_set_unit]
  exact Iff.rfl

/-- The ten row blocks tile the array: row `r` is in the block of the point whose block index is `r / 5000`. -/
theorem cover3 (i : S50000x40.Idx) : ∃ t : Fin cfg3.N, (cfg3.win 3).flush t = true ∧ i ∈ ((cfg3.win 3).blk t).view.set := by
  have hi0 : (i 0).val < 50000 := (i 0).isLt
  have hi1 : (i 1).val < 40 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 40 ≤ (i 1).val ∧ (i 1).val < win3_3.index t (1 : Fin 2) * 40 + 40; omega

/-- The output array of region 3 after the region, as one function of the arrays the region finds. -/
theorem arr3 (V : (c : Dev nD) → (b : Ref sig .tc) → Buf (Elt Ideal) ((c : Thread nD τ).loc b)) (c : Dev nD) :
    (dat3 (F := Ideal) V c).arrAt 3 cfg3.N
      = addRow (rowsMul (m := 50000) (k := 128) (n := 40) (V c main_v118) (V c main_arg10)) (V c main_v119) :=
  (dat3 (F := Ideal) V c).arrAt_eq_of_cover 3 (G3 V c) (fun t _ => flushed3_eq V c t) cover3

end Cert.KernelIdeal.HandV

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.LibLaneOps.lean ====
/-
  Three readings at an index, over literal two-axis shapes: the sum of an [a, c] matrix along its lanes at a row; one
  column of an [a, b] array cut out as an [a, 1] slice; and the scalar at one lane of a one-row array, taken as a
  [1, 1] slice and extracted.
-/
import Idealize.ShloMosaic.Lib.ValueIdx
import Idealize.ShloMosaic.Lib.Pipeline.Value
import Idealize.ShloMosaic.PureOps.Ideal.Laws

noncomputable section

namespace Cert.Lib.LaneOps

open Idealize.ShloMosaic Idealize.ShloMosaic.ValueIdx

variable {α : Type}

/-- The sum of an `[a, c]` matrix along its lanes reads, at row `r`, the sum over `k` of the matrix at `(r, k)`. -/
theorem laneSum2_apply {a c : ℕ} (src : FVec Ideal ⟨2, ![a, c]⟩ .f32)
    (h : (⟨2, ![a, c]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin c, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- Column `j` of an `[a, b]` array, cut out as an `[a, 1]` slice, reads at `(r, 0)` the array at `(r, j)`. -/
theorem colSlice_apply {a b : ℕ} (x : (⟨2, ![a, b]⟩ : Shape).Idx → α) (j : ℕ) (hj : j < b)
    (h : (⟨2, ![a, b]⟩ : Shape).Slices ![0, j] ⟨2, ![a, 1]⟩) (r : Fin a) :
    extractStridedSlice ⟨2, ![a, 1]⟩ ![0, j] x h (ix2 r (0 : Fin 1)) = x (ix2 r (⟨j, hj⟩ : Fin b)) := by
  refine extractStridedSlice_apply ![0, j] x h (ix2 r (0 : Fin 1)) (ix2 r (⟨j, hj⟩ : Fin b)) fun ax => ?_
  match ax with
  | ⟨0, _⟩ => exact (Nat.zero_add _).symm
  | ⟨1, _⟩ => rfl

/-- The scalar at lane `j` of a one-row array, taken as a `[1, 1]` slice and then extracted. -/
theorem laneScalar_apply {b : ℕ} (x : (⟨2, ![1, b]⟩ : Shape).Idx → α) (j : ℕ) (hj : j < b)
    (h : (⟨2, ![1, b]⟩ : Shape).Slices ![0, j] ⟨2, ![1, 1]⟩) (hp : ∀ a, (![0, 0] : Fin 2 → ℕ) a < (⟨2, ![1, 1]⟩ : Shape).size a) :
    extractAt ![0, 0] (extractStridedSlice ⟨2, ![1, 1]⟩ ![0, j] x h) hp = x (ix2 (0 : Fin 1) (⟨j, hj⟩ : Fin b)) := by
  unfold extractAt
  refine extractStridedSlice_apply ![0, j] x h _ (ix2 (0 : Fin 1) (⟨j, hj⟩ : Fin b)) fun ax => ?_
  match ax with
  | ⟨0, _⟩ => rfl
  | ⟨1, _⟩ => rfl

end Cert.Lib.LaneOps

end
-- ==== Proof.V.EdgePay.lean ====
/-
  The edge-scoring block, read at a row. A block of 5000 edges holds, per edge, the two gathered feature rows
  (128 lanes each), eight scalar lanes (of which five are used) and, shared by all edges, two weight rows and a
  row of three coefficients. The stored column entry of edge r is
    logistic( (Σ_k hs(r,k)·wa(k) + Σ_k hd(r,k)·wb(k)) + s(r,0)·c(0) + s(r,1)·c(1) + c(2) ) · s(r,2) · s(r,3) · s(r,4)
  over the extended reals, with exactly this grouping of the sum.
-/
import proofs.«151107_j62362925138837_1_alg».proof.Proof.Gen.KernelIdeal.Skeleton
import proofs.«151107_j62362925138837_1_alg».proof.Proof.LibColumnCast
import proofs.«151107_j62362925138837_1_alg».proof.Proof.LibLaneOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Idealize.ShloMosaic Idealize.ShloMosaic.ValueIdx Cert.KernelIdeal Cert.KernelIdeal.Gen Cert.Lib.LaneOps

variable {α : Type}

/-- The block's stored column, at edge `r`. -/
theorem pay0_apply (v0 v2 : Vec Ideal S5000x128 .f32) (v4 v6 : Vec Ideal S1x128 .f32) (v8 : Vec Ideal S5000x8 .f32)
    (v10 : Vec Ideal S1x8 .f32) (r : Fin 5000) :
    k0_pay1 (F := Ideal) v0 v2 v4 v6 v8 v10 (ix2 r (0 : Fin 1))
      = ((Ideal.logistic (((((∑ k : Fin 128, v0 (ix2 r k) * v4 (ix2 (0 : Fin 1) k))
                              + (∑ k : Fin 128, v2 (ix2 r k) * v6 (ix2 (0 : Fin 1) k)))
                             + v8 (ix2 r (0 : Fin 8)) * v10 (ix2 (0 : Fin 1) (0 : Fin 8)))
                            + v8 (ix2 r (1 : Fin 8)) * v10 (ix2 (0 : Fin 1) (1 : Fin 8)))
                           + v10 (ix2 (0 : Fin 1) (2 : Fin 8)))
           * v8 (ix2 r (2 : Fin 8))) * v8 (ix2 r (3 : Fin 8))) * v8 (ix2 r (4 : Fin 8)) := by
  unfold k0_pay1
  simp only [mulf, addf, logistic, broadcast, shapeCast_self]
  rw [Cert.Lib.ColumnCast.shapeCast_a_a1_apply, Cert.Lib.ColumnCast.shapeCast_a_a1_apply,
    laneSum2_apply, laneSum2_apply,
    colSlice_apply v8 0 (by omega), colSlice_apply v8 1 (by omega), colSlice_apply v8 2 (by omega),
    colSlice_apply v8 3 (by omega), colSlice_apply v8 4 (by omega),
    laneScalar_apply v10 0 (by omega), laneScalar_apply v10 1 (by omega), laneScalar_apply v10 2 (by omega)]
  have hs0 : ∀ (x : Vec Ideal S5000x128 .f32) (w : Vec Ideal S1x128 .f32),
      (∑ k : Fin 128, (mulf x (broadcastTo S5000x128 w broadcasts_S1x128_S5000x128) : FVec Ideal S5000x128 .f32) (ix2 r k))
        = ∑ k : Fin 128, x (ix2 r k) * w (ix2 (0 : Fin 1) k) := by
    intro x w
    refine Finset.sum_congr rfl fun k _ => ?_
    show x (ix2 r k) * broadcastTo S5000x128 w broadcasts_S1x128_S5000x128 (ix2 r k) = _
    rw [broadcastTo_1b_ab_apply]
  rw [hs0, hs0]
  simp only [Ideal.mulf_def, Ideal.addf_def, Ideal.logistic_def]
  rfl

/-- The same at any index of the stored column (its second coordinate is the unit one). -/
theorem pay0_apply' (v0 v2 : Vec Ideal S5000x128 .f32) (v4 v6 : Vec Ideal S1x128 .f32) (v8 : Vec Ideal S5000x8 .f32)
    (v10 : Vec Ideal S1x8 .f32) (j : S5000x1.Idx) :
    k0_pay1 (F := Ideal) v0 v2 v4 v6 v8 v10 j
      = ((Ideal.logistic (((((∑ k : Fin 128, v0 (ix2 (⟨(j 0).val, (j 0).isLt⟩ : Fin 5000) k) * v4 (ix2 (0 : Fin 1) k))
                              + (∑ k : Fin 128, v2 (ix2 (⟨(j 0).val, (j 0).isLt⟩ : Fin 5000) k) * v6 (ix2 (0 : Fin 1) k)))
                             + v8 (ix2 (⟨(j 0).val, (j 0).isLt⟩ : Fin 5000) (0 : Fin 8)) * v10 (ix2 (0 : Fin 1) (0 : Fin 8)))
                            + v8 (ix2 (⟨(j 0).val, (j 0).isLt⟩ : Fin 5000) (1 : Fin 8)) * v10 (ix2 (0 : Fin 1) (1 : Fin 8)))
                           + v10 (ix2 (0 : Fin 1) (2 : Fin 8)))
           * v8 (ix2 (⟨(j 0).val, (j 0).isLt⟩ : Fin 5000) (2 : Fin 8))) * v8 (ix2 (⟨(j 0).val, (j 0).isLt⟩ : Fin 5000) (3 : Fin 8)))
          * v8 (ix2 (⟨(j 0).val, (j 0).isLt⟩ : Fin 5000) (4 : Fin 8)) := by
  obtain ⟨r, u, rfl⟩ : ∃ (r : Fin 5000) (u : Fin 1), j = ix2 r u := ⟨j 0, j 1, eq_ix2 j⟩
  obtain rfl : u = 0 := Subsingleton.elim _ _
  exact pay0_apply v0 v2 v4 v6 v8 v10 r

end Cert.KernelIdeal.HandV

end
-- ==== Proof.V.EdgeSpec.lean ====
/-
  The edge weight as one function of the arrays the scoring region reads: per edge e,
    logistic( (Σ_k hs(e,k)·wa(k) + Σ_k hd(e,k)·wb(k)) + s(e,0)·c(0) + s(e,1)·c(1) + c(2) ) · s(e,2) · s(e,3) · s(e,4)
  over the extended reals, held as a column [E, 1].
-/
import proofs.«151107_j62362925138837_1_alg».proof.KernelIdeal
import Idealize.ShloMosaic.Lib.ValueIdx
import Idealize.ShloMosaic.PureOps.Ideal

noncomputable section

namespace Cert.KernelIdeal.HandV

open Idealize.ShloMosaic Idealize.ShloMosaic.ValueIdx Cert.KernelIdeal

/-- The column of edge weights from the gathered feature rows `hs`, `hd`, the per-edge scalar lanes `sc`, the two
    weight rows `wa`, `wb` and the coefficient row `cc`. -/
def edgeW (hs hd : (⟨S640000x128, .f32⟩ : BufTy).Contents (Elt Ideal)) (sc : (⟨S640000x8, .f32⟩ : BufTy).Contents (Elt Ideal))
    (wa wb : (⟨S1x128, .f32⟩ : BufTy).Contents (Elt Ideal)) (cc : (⟨S1x8, .f32⟩ : BufTy).Contents (Elt Ideal)) :
    (⟨S640000x1, .f32⟩ : BufTy).Contents (Elt Ideal) := fun i =>
  ((Ideal.logistic (((((∑ k : Fin 128, hs (ix2 (⟨(i 0).val, (i 0).isLt⟩ : Fin 640000) k) * wa (ix2 (0 : Fin 1) k))
                        + (∑ k : Fin 128, hd (ix2 (⟨(i 0).val, (i 0).isLt⟩ : Fin 640000) k) * wb (ix2 (0 : Fin 1) k)))
                       + sc (ix2 (⟨(i 0).val, (i 0).isLt⟩ : Fin 640000) (0 : Fin 8)) * cc (ix2 (0 : Fin 1) (0 : Fin 8)))
                      + sc (ix2 (⟨(i 0).val, (i 0).isLt⟩ : Fin 640000) (1 : Fin 8)) * cc (ix2 (0 : Fin 1) (1 : Fin 8)))
                     + cc (ix2 (0 : Fin 1) (2 : Fin 8)))
      * sc (ix2 (⟨(i 0).val, (i 0).isLt⟩ : Fin 640000) (2 : Fin 8))) * sc (ix2 (⟨(i 0).val, (i 0).isLt⟩ : Fin 640000) (3 : Fin 8)))
    * sc (ix2 (⟨(i 0).val, (i 0).isLt⟩ : Fin 640000) (4 : Fin 8))

end Cert.KernelIdeal.HandV

end
-- ==== Proof.V.EdgeArr.lean ====
/-
  From blocks to the array, for the edge-scoring region: each grid point writes back one block of 5000 rows of the
  column of edge weights, the blocks tile the 640000 rows, and every written block is the matching block of one
  function of the arrays the region reads. So after the region the column holds that function everywhere.
-/
import proofs.«151107_j62362925138837_1_alg».proof.Proof.KI.Region0
import proofs.«151107_j62362925138837_1_alg».proof.Proof.V.EdgePay
import proofs.«151107_j62362925138837_1_alg».proof.Proof.V.EdgeSpec
import Idealize.ShloMosaic.Lib.Pipeline.Value

set_option maxRecDepth 16384

noncomputable section

namespace Cert.KernelIdeal.HandV

open Idealize.ShloMosaic Idealize.ShloMosaic.ValueIdx Idealize.ShloMosaic.TcCoe Idealize.SL.Sem Cert.KernelIdeal Cert.KernelIdeal.Gen Cert.KernelIdeal.Hand
open Idealize.ShloMosaic.Pipeline (Dat)

-- the TensorCore's buffer contents when the region is entered
variable (V : (c : Dev nD) → (b : Ref sig .tc) → Buf (Elt Ideal) ((c : Thread nD τ).loc b))

/-- The zero offsets, as a constant function. -/
theorem hz0 : (![0, 0] : Fin 2 → Nat) = fun _ => 0 := funext fun a => by fin_cases a <;> rfl

/-- The index maps, decided over the grid: the three per-edge windows move with the output window along the rows and
    stay at lane block 0; the three shared rows never move; the output's row block at point `t` is `t`. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back to the column is block `t` of the edge-weight function of the arrays the region
    reads, as the region finds them: the stored payload at row `r` of the block is the weight formula of the loaded
    blocks at row `r`, and each loaded block at row `r` is its array at row `5000·t + r` (the shared rows: at
    their only row). -/
theorem flushed0_eq (c : Dev nD) (t : Fin cfg0.N) :
    (dat0 (F := Ideal) V c).flushed 6 t = ((cfg0.win 6).blk t).view.read (Elt Ideal)
      (edgeW (V c main_v18) (V c main_v25) (V c main_v60) (V c main_v63) (V c main_v66) (V c main_v77)) := by
  show (cfg0.win 6).cut (grid0.coords t) ((dat0 V c).after 6 t) = _
  rw [after0_6]
  unfold out0_6
  rw [View.canon_unit_zero hz0]
  simp only [View.ld_unit_zero (S := S5000x128) hz0, View.ld_unit_zero (S := S5000x8) hz0, View.ld_unit_zero (S := S1x128) hz0, View.ld_unit_zero (S := S1x8) hz0]
  obtain ⟨e0a, e0b, e1a, e1b, e2a, e2b, e3a, e3b, e4a, e4b, e5a, e5b, e6a, e6b⟩ := idx_facts0 t
  funext j
  refine (pay0_apply' _ _ _ _ _ _ j).trans ?_
  show _ = edgeW (V c main_v18) (V c main_v25) (V c main_v60) (V c main_v63) (V c main_v66) (V c main_v77) (((cfg0.win 6).blk t).view.emb j)
  unfold edgeW
  -- window 0: its row block is the output's, its lane block is the whole row
  have h0 : ∀ k : Fin 128, iblk0 V c 0 t (ix2 (⟨(j 0).val, (j 0).isLt⟩ : Fin 5000) k) = V c main_v18 (ix2 (⟨((((cfg0.win 6).blk t).view.emb j) 0).val, ((((cfg0.win 6).blk t).view.emb j) 0).isLt⟩ : Fin 640000) k) := fun k => by
    show V c main_v18 (((cfg0.win 0).blk t).view.emb (ix2 (⟨(j 0).val, (j 0).isLt⟩ : Fin 5000) k)) = _
    refine congrArg (V c main_v18) (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  -- window 1: its row block is the output's, its lane block is the whole row
  have h1 : ∀ k : Fin 128, iblk0 V c 1 t (ix2 (⟨(j 0).val, (j 0).isLt⟩ : Fin 5000) k) = V c main_v25 (ix2 (⟨((((cfg0.win 6).blk t).view.emb j) 0).val, ((((cfg0.win 6).blk t).view.emb j) 0).isLt⟩ : Fin 640000) k) := fun k => by
    show V c main_v25 (((cfg0.win 1).blk t).view.emb (ix2 (⟨(j 0).val, (j 0).isLt⟩ : Fin 5000) k)) = _
    refine congrArg (V c main_v25) (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 128 + 1 * k.val = k.val; omega
  -- window 2: its row block is the output's, its lane block is the whole row
  have h2 : ∀ q : Fin 8, iblk0 V c 2 t (ix2 (⟨(j 0).val, (j 0).isLt⟩ : Fin 5000) q) = V c main_v60 (ix2 (⟨((((cfg0.win 6).blk t).view.emb j) 0).val, ((((cfg0.win 6).blk t).view.emb j) 0).isLt⟩ : Fin 640000) q) := fun q => by
    show V c main_v60 (((cfg0.win 2).blk t).view.emb (ix2 (⟨(j 0).val, (j 0).isLt⟩ : Fin 5000) q)) = _
    refine congrArg (V c main_v60) (funext fun a => Fin.ext ?_)
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 8 + 1 * q.val = q.val; omega
  -- window 3: its one block is the whole array
  have h3 : ∀ k : Fin 128, iblk0 V c 3 t (ix2 (0 : Fin 1) k) = V c main_v63 (ix2 (0 : Fin 1) k) := fun k => by
    show V c main_v63 (((cfg0.win 3).blk t).view.emb (ix2 (0 : Fin 1) k)) = _
    refine congrArg (V c main_v63) (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  -- window 4: its one block is the whole array
  have h4 : ∀ k : Fin 128, iblk0 V c 4 t (ix2 (0 : Fin 1) k) = V c main_v66 (ix2 (0 : Fin 1) k) := fun k => by
    show V c main_v66 (((cfg0.win 4).blk t).view.emb (ix2 (0 : Fin 1) k)) = _
    refine congrArg (V c main_v66) (funext fun a => Fin.ext ?_)
    match a with
    | ⟨0, _⟩ => show win0_4.index t (0 : Fin 2) * 1 + 1 * 0 = 0; omega
    | ⟨1, _⟩ => show win0_4.index t (1 : Fin 2) * 128 + 1 * k.val = k.val; omega
  -- window 5: its one block is the whole array
  have h5 : ∀ q : Fin 8, iblk0 V c 5 t (ix2 (0 : Fin 1) q) = V c main_v77 (ix2 (0 : Fin 1) q) := fun q => by
    show V c main_v77 (((cfg0.win 5).blk t).view.emb (ix2 (0 : Fin 1) q)) = _
    refine congrArg (V c main_v77) (funext fun a => Fin.ext ?_)
    match a with
    | ⟨0, _⟩ => show win0_5.index t (0 : Fin 2) * 1 + 1 * 0 = 0; omega
    | ⟨1, _⟩ => show win0_5.index t (1 : Fin 2) * 8 + 1 * q.val = q.val; omega
  simp only [h0, h1, h2, h3, h4, h5]

/-- A row index of the column is in point `t`'s block iff each coordinate is in the block's range on its axis. -/
theorem mem_blk0 (t : Fin cfg0.N) (i : S640000x1.Idx) :
    i ∈ ((cfg0.win 6).blk t).view.set ↔ ∀ a : Fin 2, win0_6.index t a * S5000x1.size a ≤ (i a).val ∧ (i a).val < win0_6.index t a * S5000x1.size a + S5000x1.size a := by
  show i ∈ ((View.whole main_v78).slice (win0_6.rect t)).set ↔ _
  rw [View.set_slice_whole, Rect.mem_set_unit]
  exact Iff.rfl

/-- The 128 blocks of 5000 rows tile the 640000 rows: row `i` is in the block of point `i / 5000`, and every
    point writes its block back. -/
theorem cover0 (i : S640000x1.Idx) :
    ∃ t : Fin cfg0.N, (cfg0.win 6).flush t = true ∧ i ∈ ((cfg0.win 6).blk t).view.set := by
  have hi0 : (i 0).val < 640000 := (i 0).isLt
  have hi1 : (i 1).val < 1 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, -, -, -, -, -, -, -, -, e6a, e6b⟩ := idx_facts0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 1 ≤ (i 1).val ∧ (i 1).val < win0_6.index t (1 : Fin 2) * 1 + 1; omega

/-- After the region the column of edge weights holds the edge-weight function of the arrays the region reads, as
    the region finds them: every row is covered by a written block, and each written block is that function's. -/
theorem arr0 (c : Dev nD) :
    (dat0 (F := Ideal) V c).arrAt 6 cfg0.N = edgeW (V c main_v18) (V c main_v25) (V c main_v60) (V c main_v63) (V c main_v66) (V c main_v77) :=
  (dat0 V c).arrAt_eq_of_cover 6 _ (fun t _ => flushed0_eq V c t) cover0

end Cert.KernelIdeal.HandV

end
-- ==== Proof.LibSum258.lean ====
/- A sum over `Fin 258` split as two blocks of 128 followed by two single terms, in any commutative additive monoid. -/
import Mathlib.Algebra.BigOperators.Fin

namespace Cert.Lib.Sum258

open scoped BigOperators

/-- `∑ k : Fin 258, f k` is the sum of the first 128 terms, plus the sum of the next 128, plus the term at 256, plus
    the term at 257, associated to the left. -/
theorem sum258 {M : Type*} [AddCommMonoid M] (f : Fin 258 → M) :
    ∑ k, f k = ((∑ k : Fin 128, f ⟨k.val, by omega⟩) + (∑ k : Fin 128, f ⟨128 + k.val, by omega⟩) + f 256) + f 257 := by
  have h1 := Fin.sum_univ_castSucc (n := 257) f
  have h2 := Fin.sum_univ_castSucc (n := 256) (fun k : Fin 257 => f k.castSucc)
  have h3 := Fin.sum_univ_add (a := 128) (b := 128) (fun k : Fin 256 => f k.castSucc.castSucc)
  rw [h1, h2]
  refine congrArg₂ (· + ·) (congrArg₂ (· + ·) (h3.trans ?_) rfl) rfl
  rfl

end Cert.Lib.Sum258
-- ==== Proof.V.RefEdge.lean ====
/- The reference's edge weight read at one edge index, over the extended reals: the chain of elementwise stages from the
   final product down to the matrix product with the weight column, the four-piece concatenation read at a column, and
   the 258-term sum split into its four parts. The gathers stay as the named stages. -/
import proofs.«151107_j62362925138837_1_alg».proof.Proof.Gen.ReferenceIdeal.Read
import proofs.«151107_j62362925138837_1_alg».proof.Proof.LibSum258
import Idealize.ShloMosaic.Lib.IdealHost
import Idealize.ShloMosaic.Lib.Pipeline.Value
import Idealize.ShloMosaic.Lib.ValueIdx

noncomputable section

namespace Cert.ReferenceIdeal.HandV

open Cert.ReferenceIdeal Cert.ReferenceIdeal.Read Idealize.ShloMosaic Idealize.ShloMosaic.ValueIdx
open scoped BigOperators

/-! ## Four pieces of widths 128, 128, 1, 1 joined along the columns, read at a column -/

section Concat

variable {α : Type}

/-- A column below 128 reads the first piece at that column. -/
theorem concat4_read_0 (n : Nat) (p0 p1 : (⟨2, ![n, 128]⟩ : Shape).Idx → α) (p2 p3 : (⟨2, ![n, 1]⟩ : Shape).Idx → α)
    (h : Shape.Concatenates (([⟨⟨2, ![n, 128]⟩, p0⟩, ⟨⟨2, ![n, 128]⟩, p1⟩, ⟨⟨2, ![n, 1]⟩, p2⟩, ⟨⟨2, ![n, 1]⟩, p3⟩] : List ((s : Shape) × (s.Idx → α))).map (·.1)) ⟨2, ![n, 258]⟩ 1)
    (e : Fin n) (k : Fin 128) (hk : k.val < 258) :
    concatenate ⟨2, ![n, 258]⟩ 1 ([⟨⟨2, ![n, 128]⟩, p0⟩, ⟨⟨2, ![n, 128]⟩, p1⟩, ⟨⟨2, ![n, 1]⟩, p2⟩, ⟨⟨2, ![n, 1]⟩, p3⟩] : List ((s : Shape) × (s.Idx → α))) h (ix2 e (⟨k.val, hk⟩ : Fin 258)) = p0 (ix2 e k) := by
  refine concatenate_apply_piece 1 _ h _ 0 (by show 0 < 4; omega) ⟨2, ![n, 128]⟩ p0 rfl rfl 0 rfl (ix2 e k) ?_ ?_
  · intro b hb
    match b with
    | ⟨0, _⟩ => rfl
    | ⟨1, _⟩ => exact absurd (Fin.ext rfl) hb
  · show 0 + k.val = k.val
    omega

/-- A column from 128 to 255 reads the second piece at that column less 128. -/
theorem concat4_read_1 (n : Nat) (p0 p1 : (⟨2, ![n, 128]⟩ : Shape).Idx → α) (p2 p3 : (⟨2, ![n, 1]⟩ : Shape).Idx → α)
    (h : Shape.Concatenates (([⟨⟨2, ![n, 128]⟩, p0⟩, ⟨⟨2, ![n, 128]⟩, p1⟩, ⟨⟨2, ![n, 1]⟩, p2⟩, ⟨⟨2, ![n, 1]⟩, p3⟩] : List ((s : Shape) × (s.Idx → α))).map (·.1)) ⟨2, ![n, 258]⟩ 1)
    (e : Fin n) (k : Fin 128) (hk : 128 + k.val < 258) :
    concatenate ⟨2, ![n, 258]⟩ 1 ([⟨⟨2, ![n, 128]⟩, p0⟩, ⟨⟨2, ![n, 128]⟩, p1⟩, ⟨⟨2, ![n, 1]⟩, p2⟩, ⟨⟨2, ![n, 1]⟩, p3⟩] : List ((s : Shape) × (s.Idx → α))) h (ix2 e (⟨128 + k.val, hk⟩ : Fin 258)) = p1 (ix2 e k) := by
  refine concatenate_apply_piece 1 _ h _ 1 (by show 1 < 4; omega) ⟨2, ![n, 128]⟩ p1 rfl rfl 128 rfl (ix2 e k) ?_ ?_
  · intro b hb
    match b with
    | ⟨0, _⟩ => rfl
    | ⟨1, _⟩ => exact absurd (Fin.ext rfl) hb
  · rfl

/-- Column 256 reads the third piece's one column. -/
theorem concat4_read_2 (n : Nat) (p0 p1 : (⟨2, ![n, 128]⟩ : Shape).Idx → α) (p2 p3 : (⟨2, ![n, 1]⟩ : Shape).Idx → α)
    (h : Shape.Concatenates (([⟨⟨2, ![n, 128]⟩, p0⟩, ⟨⟨2, ![n, 128]⟩, p1⟩, ⟨⟨2, ![n, 1]⟩, p2⟩, ⟨⟨2, ![n, 1]⟩, p3⟩] : List ((s : Shape) × (s.Idx → α))).map (·.1)) ⟨2, ![n, 258]⟩ 1)
    (e : Fin n) :
    concatenate ⟨2, ![n, 258]⟩ 1 ([⟨⟨2, ![n, 128]⟩, p0⟩, ⟨⟨2, ![n, 128]⟩, p1⟩, ⟨⟨2, ![n, 1]⟩, p2⟩, ⟨⟨2, ![n, 1]⟩, p3⟩] : List ((s : Shape) × (s.Idx → α))) h (ix2 e (256 : Fin 258)) = p2 (ix2 e (0 : Fin 1)) := by
  refine concatenate_apply_piece 1 _ h _ 2 (by show 2 < 4; omega) ⟨2, ![n, 1]⟩ p2 rfl rfl 256 rfl (ix2 e (0 : Fin 1)) ?_ ?_
  · intro b hb
    match b with
    | ⟨0, _⟩ => rfl
    | ⟨1, _⟩ => exact absurd (Fin.ext rfl) hb
  · rfl

/-- Column 257 reads the fourth piece's one column. -/
theorem concat4_read_3 (n : Nat) (p0 p1 : (⟨2, ![n, 128]⟩ : Shape).Idx → α) (p2 p3 : (⟨2, ![n, 1]⟩ : Shape).Idx → α)
    (h : Shape.Concatenates (([⟨⟨2, ![n, 128]⟩, p0⟩, ⟨⟨2, ![n, 128]⟩, p1⟩, ⟨⟨2, ![n, 1]⟩, p2⟩, ⟨⟨2, ![n, 1]⟩, p3⟩] : List ((s : Shape) × (s.Idx → α))).map (·.1)) ⟨2, ![n, 258]⟩ 1)
    (e : Fin n) :
    concatenate ⟨2, ![n, 258]⟩ 1 ([⟨⟨2, ![n, 128]⟩, p0⟩, ⟨⟨2, ![n, 128]⟩, p1⟩, ⟨⟨2, ![n, 1]⟩, p2⟩, ⟨⟨2, ![n, 1]⟩, p3⟩] : List ((s : Shape) × (s.Idx → α))) h (ix2 e (257 : Fin 258)) = p3 (ix2 e (0 : Fin 1)) := by
  refine concatenate_apply_piece 1 _ h _ 3 (by show 3 < 4; omega) ⟨2, ![n, 1]⟩ p3 rfl rfl 257 rfl (ix2 e (0 : Fin 1)) ?_ ?_
  · intro b hb
    match b with
    | ⟨0, _⟩ => rfl
    | ⟨1, _⟩ => exact absurd (Fin.ext rfl) hb
  · rfl

end Concat

/-! ## The reference's concatenation, column by column -/

theorem v39_src (x0 : (⟨S50000x128, .f32⟩ : BufTy).Contents (Elt Ideal)) (x2 x3 : (⟨S640000, .i32⟩ : BufTy).Contents (Elt Ideal)) (e : Fin 640000) (k : Fin 128) (hk : k.val < 258) :
    val_main_v39 (F := Ideal) x0 x2 x3 (ix2 e (⟨k.val, hk⟩ : Fin 258)) = val_main_v13 (F := Ideal) x0 x2 (ix2 e k) := by
  unfold val_main_v39
  generalize val_main_v13 (F := Ideal) x0 x2 = p0
  generalize val_main_v20 (F := Ideal) x0 x3 = p1
  generalize val_main_v29 (F := Ideal) x2 = p2
  generalize val_main_v38 (F := Ideal) x3 = p3
  exact concat4_read_0 640000 p0 p1 p2 p3 _ e k hk

theorem v39_dst (x0 : (⟨S50000x128, .f32⟩ : BufTy).Contents (Elt Ideal)) (x2 x3 : (⟨S640000, .i32⟩ : BufTy).Contents (Elt Ideal)) (e : Fin 640000) (k : Fin 128) (hk : 128 + k.val < 258) :
    val_main_v39 (F := Ideal) x0 x2 x3 (ix2 e (⟨128 + k.val, hk⟩ : Fin 258)) = val_main_v20 (F := Ideal) x0 x3 (ix2 e k) := by
  unfold val_main_v39
  generalize val_main_v13 (F := Ideal) x0 x2 = p0
  generalize val_main_v20 (F := Ideal) x0 x3 = p1
  generalize val_main_v29 (F := Ideal) x2 = p2
  generalize val_main_v38 (F := Ideal) x3 = p3
  exact concat4_read_1 640000 p0 p1 p2 p3 _ e k hk

theorem v39_a (x0 : (⟨S50000x128, .f32⟩ : BufTy).Contents (Elt Ideal)) (x2 x3 : (⟨S640000, .i32⟩ : BufTy).Contents (Elt Ideal)) (e : Fin 640000) :
    val_main_v39 (F := Ideal) x0 x2 x3 (ix2 e (256 : Fin 258)) = val_main_v28 (F := Ideal) x2 (ix1 e) := by
  have h29 : val_main_v29 (F := Ideal) x2 (ix2 e (0 : Fin 1)) = val_main_v28 (F := Ideal) x2 (ix1 e) :=
    (val_main_v29_apply x2 _).trans (congrArg _ (funext fun a => by match a with | ⟨0, _⟩ => rfl))
  rw [← h29]
  unfold val_main_v39
  generalize val_main_v13 (F := Ideal) x0 x2 = p0
  generalize val_main_v20 (F := Ideal) x0 x3 = p1
  generalize val_main_v29 (F := Ideal) x2 = p2
  generalize val_main_v38 (F := Ideal) x3 = p3
  exact concat4_read_2 640000 p0 p1 p2 p3 _ e

theorem v39_b (x0 : (⟨S50000x128, .f32⟩ : BufTy).Contents (Elt Ideal)) (x2 x3 : (⟨S640000, .i32⟩ : BufTy).Contents (Elt Ideal)) (e : Fin 640000) :
    val_main_v39 (F := Ideal) x0 x2 x3 (ix2 e (257 : Fin 258)) = val_main_v37 (F := Ideal) x3 (ix1 e) := by
  have h38 : val_main_v38 (F := Ideal) x3 (ix2 e (0 : Fin 1)) = val_main_v37 (F := Ideal) x3 (ix1 e) :=
    (val_main_v38_apply x3 _).trans (congrArg _ (funext fun a => by match a with | ⟨0, _⟩ => rfl))
  rw [← h38]
  unfold val_main_v39
  generalize val_main_v13 (F := Ideal) x0 x2 = p0
  generalize val_main_v20 (F := Ideal) x0 x3 = p1
  generalize val_main_v29 (F := Ideal) x2 = p2
  generalize val_main_v38 (F := Ideal) x3 = p3
  exact concat4_read_3 640000 p0 p1 p2 p3 _ e

/-! ## The index maps of the stages, as coordinates -/

theorem lidx40 (e : Fin 640000) (k : Fin 258) : lidx_main_v40 (ix2 e (0 : Fin 1)) k = ix2 e k :=
  funext fun a => Fin.ext (by match a with | ⟨0, _⟩ => rfl | ⟨1, _⟩ => rfl)

theorem ridx40 (e : Fin 640000) (k : Fin 258) : ridx_main_v40 (ix2 e (0 : Fin 1)) k = ix2 k (0 : Fin 1) :=
  funext fun a => Fin.ext (by match a with | ⟨0, _⟩ => rfl | ⟨1, _⟩ => rfl)

theorem idx50 (e : Fin 640000) : idx_main_v50 (ix1 e) = ix2 e (0 : Fin 1) :=
  funext fun a => Fin.ext (by match a with | ⟨0, _⟩ => exact Nat.div_one _ | ⟨1, _⟩ => rfl)

theorem idx42 (i : S640000x1.Idx) : idx_main_v42 i = ix2 (0 : Fin 1) (0 : Fin 1) :=
  funext fun a => Fin.ext (by match a with | ⟨0, _⟩ => rfl | ⟨1, _⟩ => rfl)

theorem idx41 (i : S1x1.Idx) : idx_main_v41 i = ix1 (0 : Fin 1) :=
  funext fun a => Fin.ext (by match a with | ⟨0, _⟩ => rfl)

/-! ## The matrix product with the weight column, at an edge -/

theorem v40_read (x0 : (⟨S50000x128, .f32⟩ : BufTy).Contents (Elt Ideal)) (x2 x3 : (⟨S640000, .i32⟩ : BufTy).Contents (Elt Ideal)) (x4 : (⟨S258x1, .f32⟩ : BufTy).Contents (Elt Ideal)) (e : Fin 640000) :
    val_main_v40 (F := Ideal) x0 x2 x3 x4 (ix2 e (0 : Fin 1))
      = (((∑ k : Fin 128, val_main_v13 (F := Ideal) x0 x2 (ix2 e k) * x4 (ix2 (⟨k.val, by omega⟩ : Fin 258) (0 : Fin 1)))
            + (∑ k : Fin 128, val_main_v20 (F := Ideal) x0 x3 (ix2 e k) * x4 (ix2 (⟨128 + k.val, by omega⟩ : Fin 258) (0 : Fin 1))))
           + val_main_v28 (F := Ideal) x2 (ix1 e) * x4 (ix2 (256 : Fin 258) (0 : Fin 1)))
          + val_main_v37 (F := Ideal) x3 (ix1 e) * x4 (ix2 (257 : Fin 258) (0 : Fin 1)) := by
  rw [val_main_v40_apply, Cert.Lib.Sum258.sum258]
  refine congrArg₂ (· + ·) (congrArg₂ (· + ·) (congrArg₂ (· + ·)
    (Finset.sum_congr rfl fun k _ => ?_) (Finset.sum_congr rfl fun k _ => ?_)) ?_) ?_
  · rw [lidx40, ridx40, v39_src]
  · rw [lidx40, ridx40, v39_dst]
  · rw [lidx40, ridx40, v39_a]
  · rw [lidx40, ridx40, v39_b]

/-! ## The edge weight -/

/-- The reference's edge weight at edge `e`: the logistic of the 258-term product (its four parts added in order, then
    the bias), times the edge mask, times the two gathered normalizers. -/
theorem ref_edge (x0 : (⟨S50000x128, .f32⟩ : BufTy).Contents (Elt Ideal)) (x1 : (⟨S640000, .f32⟩ : BufTy).Contents (Elt Ideal)) (x2 x3 : (⟨S640000, .i32⟩ : BufTy).Contents (Elt Ideal)) (x4 : (⟨S258x1, .f32⟩ : BufTy).Contents (Elt Ideal)) (x5 : (⟨S1, .f32⟩ : BufTy).Contents (Elt Ideal)) (e : Fin 640000) :
    val_main_v70 (F := Ideal) x0 x1 x2 x3 x4 x5 (ix1 e)
      = ((Ideal.logistic (((((∑ k : Fin 128, val_main_v13 (F := Ideal) x0 x2 (ix2 e k) * x4 (ix2 (⟨k.val, by omega⟩ : Fin 258) (0 : Fin 1)))
                              + (∑ k : Fin 128, val_main_v20 (F := Ideal) x0 x3 (ix2 e k) * x4 (ix2 (⟨128 + k.val, by omega⟩ : Fin 258) (0 : Fin 1))))
                             + val_main_v28 (F := Ideal) x2 (ix1 e) * x4 (ix2 (256 : Fin 258) (0 : Fin 1)))
                            + val_main_v37 (F := Ideal) x3 (ix1 e) * x4 (ix2 (257 : Fin 258) (0 : Fin 1)))
                           + x5 (ix1 (0 : Fin 1)))
           * x1 (ix1 e)) * val_main_v61 (F := Ideal) x2 x3 (ix1 e)) * val_main_v69 (F := Ideal) x3 (ix1 e) := by
  rw [val_main_v70_apply, val_main_v62_apply, val_main_v51_apply, val_main_v50_apply, idx50, val_main_v49_apply,
    val_main_v48_apply, val_main_cst_10_apply, val_main_v47_apply, val_main_v46_apply, val_main_cst_9_apply,
    val_main_v45_apply, val_main_v44_apply, val_main_v43_apply, val_main_v42_apply, idx42, val_main_v41_apply, idx41,
    v40_read]
  simp only [Ideal.ofBits_def, Ideal.ofBits_one_f32, Ideal.mulf_def, Ideal.addf_def]
  rfl

/-- The column form of the edge weight reads the vector form at the row. -/
theorem ref_col (x0 : (⟨S50000x128, .f32⟩ : BufTy).Contents (Elt Ideal)) (x1 : (⟨S640000, .f32⟩ : BufTy).Contents (Elt Ideal)) (x2 x3 : (⟨S640000, .i32⟩ : BufTy).Contents (Elt Ideal)) (x4 : (⟨S258x1, .f32⟩ : BufTy).Contents (Elt Ideal)) (x5 : (⟨S1, .f32⟩ : BufTy).Contents (Elt Ideal)) (i : S640000x1.Idx) :
    val_main_v71 (F := Ideal) x0 x1 x2 x3 x4 x5 i
      = val_main_v70 (F := Ideal) x0 x1 x2 x3 x4 x5 (ix1 ⟨(i 0).val, (i 0).isLt⟩) :=
  (val_main_v71_apply x0 x1 x2 x3 x4 x5 i).trans
    (congrArg _ (funext fun a => by match a with | ⟨0, _⟩ => rfl))

end Cert.ReferenceIdeal.HandV
-- ==== Proof.V.Host0.lean ====
/- The host operations the kernel's program runs before its scoring region, read at an index over a variable launch
   valuation: the gathered rows and per-edge scalars are the reference's stages, the weight rows and coefficients are
   entries of the weight column and the bias, and the edge weights computed from them are the reference's. -/
import proofs.«151107_j62362925138837_1_alg».proof.Proof.Gen.KernelIdeal.Launch
import proofs.«151107_j62362925138837_1_alg».proof.Proof.Gen.ReferenceIdeal.Read
import proofs.«151107_j62362925138837_1_alg».proof.Proof.V.EdgeSpec
import proofs.«151107_j62362925138837_1_alg».proof.Proof.V.RefEdge
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.KernelIdeal.HandV

open Cert.KernelIdeal Cert.KernelIdeal.Gen
open Idealize.ShloMosaic Idealize.ShloMosaic.TcCoe Idealize.ShloMosaic.ValueIdx Idealize.SL.Sem
open scoped BigOperators

/-! # The host operations before the scoring region, read at an index

Every fact is stated over a VARIABLE valuation `W` of the buffers at launch. -/

/-! ## Which stretch writes what -/

/-- Two references whose indices lie on either side of `K` differ. -/
theorem ne_of_idx_lt {K : Nat} {b y : Ref sig .tc} (hb : b.idx.val < K) (hy : K ≤ y.idx.val) : b ≠ y :=
  fun e => by subst e; omega

set_option maxHeartbeats 40000000 in
/-- Every buffer `hostOps0` writes has index at least 12: a reference of smaller index keeps its contents. -/
theorem keep0 (W : Valuation τ sig (Elt Ideal)) (b : Ref sig .tc) (hb : b.idx.val < 12) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx_lt hb (by decide))))

/-- Every buffer `hostOps0_1` writes has index at least 89: a reference of smaller index keeps its contents. -/
theorem keep1 (W : Valuation τ sig (Elt Ideal)) (b : Ref sig .tc) (hb : b.idx.val < 89) :
    StableHlo.after (hostOps0_1 (F := Ideal)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx_lt hb (by decide))))

/-- Every buffer `hostOps0_2` writes has index at least 91: a reference of smaller index keeps its contents. -/
theorem keep2 (W : Valuation τ sig (Elt Ideal)) (b : Ref sig .tc) (hb : b.idx.val < 91) :
    StableHlo.after (hostOps0_2 (F := Ideal)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx_lt hb (by decide))))

/-- Every buffer `hostOps0_3` writes has index at least 107: a reference of smaller index keeps its contents. -/
theorem keep3 (W : Valuation τ sig (Elt Ideal)) (b : Ref sig .tc) (hb : b.idx.val < 107) :
    StableHlo.after (hostOps0_3 (F := Ideal)) W (Proc.devRef .tc b) = W (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx_lt hb (by decide))))

/-- Every buffer `hostOps0_4` writes has index at least 109: a reference of smaller index keeps its contents. -/
theorem keep4 (W : Valuation τ sig (Elt Ideal)) (b : Ref sig .tc) (hb : b.idx.val < 109) :
    StableHlo.after (hostOps0_4 (F := Ideal)) W (Proc.devRef .tc b) = W (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_idx_lt hb (by decide))))

/-! ## Layout operations at an index, over variable operands -/

theorem concat5_read_0 (y0 y1 y2 y3 y4 : (⟨S640000x1, .f32⟩ : BufTy).Contents (Elt Ideal)) (e : Fin 640000) :
    concatenate S640000x5 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 (ix2 e (0 : Fin 5))
      = y0 (ix2 e (0 : Fin 1)) := by
  refine concatenate_apply_piece (α := Elt Ideal .f32) 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 _ 0 (by show 0 < 5; omega) S640000x1 y0 rfl rfl 0 rfl (ix2 e (0 : Fin 1)) ?_ ?_
  · intro b hb
    match b with
    | ⟨0, _⟩ => rfl
    | ⟨1, _⟩ => exact absurd (Fin.ext rfl) hb
  · rfl

theorem concat5_read_1 (y0 y1 y2 y3 y4 : (⟨S640000x1, .f32⟩ : BufTy).Contents (Elt Ideal)) (e : Fin 640000) :
    concatenate S640000x5 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 (ix2 e (1 : Fin 5))
      = y1 (ix2 e (0 : Fin 1)) := by
  refine concatenate_apply_piece (α := Elt Ideal .f32) 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 _ 1 (by show 1 < 5; omega) S640000x1 y1 rfl rfl 1 rfl (ix2 e (0 : Fin 1)) ?_ ?_
  · intro b hb
    match b with
    | ⟨0, _⟩ => rfl
    | ⟨1, _⟩ => exact absurd (Fin.ext rfl) hb
  · rfl

theorem concat5_read_2 (y0 y1 y2 y3 y4 : (⟨S640000x1, .f32⟩ : BufTy).Contents (Elt Ideal)) (e : Fin 640000) :
    concatenate S640000x5 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 (ix2 e (2 : Fin 5))
      = y2 (ix2 e (0 : Fin 1)) := by
  refine concatenate_apply_piece (α := Elt Ideal .f32) 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 _ 2 (by show 2 < 5; omega) S640000x1 y2 rfl rfl 2 rfl (ix2 e (0 : Fin 1)) ?_ ?_
  · intro b hb
    match b with
    | ⟨0, _⟩ => rfl
    | ⟨1, _⟩ => exact absurd (Fin.ext rfl) hb
  · rfl

theorem concat5_read_3 (y0 y1 y2 y3 y4 : (⟨S640000x1, .f32⟩ : BufTy).Contents (Elt Ideal)) (e : Fin 640000) :
    concatenate S640000x5 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 (ix2 e (3 : Fin 5))
      = y3 (ix2 e (0 : Fin 1)) := by
  refine concatenate_apply_piece (α := Elt Ideal .f32) 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 _ 3 (by show 3 < 5; omega) S640000x1 y3 rfl rfl 3 rfl (ix2 e (0 : Fin 1)) ?_ ?_
  · intro b hb
    match b with
    | ⟨0, _⟩ => rfl
    | ⟨1, _⟩ => exact absurd (Fin.ext rfl) hb
  · rfl

theorem concat5_read_4 (y0 y1 y2 y3 y4 : (⟨S640000x1, .f32⟩ : BufTy).Contents (Elt Ideal)) (e : Fin 640000) :
    concatenate S640000x5 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 (ix2 e (4 : Fin 5))
      = y4 (ix2 e (0 : Fin 1)) := by
  refine concatenate_apply_piece (α := Elt Ideal .f32) 1 [⟨S640000x1, y0⟩, ⟨S640000x1, y1⟩, ⟨S640000x1, y2⟩, ⟨S640000x1, y3⟩, ⟨S640000x1, y4⟩] concatenates_S640000x1_S640000x1_S640000x1_S640000x1_S640000x1_S640000x5_d1 _ 4 (by show 4 < 5; omega) S640000x1 y4 rfl rfl 4 rfl (ix2 e (0 : Fin 1)) ?_ ?_
  · intro b hb
    match b with
    | ⟨0, _⟩ => rfl
    | ⟨1, _⟩ => exact absurd (Fin.ext rfl) hb
  · rfl

theorem concat3_read_0 (y0 y1 y2 : (⟨S1, .f32⟩ : BufTy).Contents (Elt Ideal)) :
    concatenate S3 0 [⟨S1, y0⟩, ⟨S1, y1⟩, ⟨S1, y2⟩] concatenates_S1_S1_S1_S3_d0 (ix1 (0 : Fin 3)) = y0 (ix1 (0 : Fin 1)) := by
  refine concatenate_apply_piece (α := Elt Ideal .f32) 0 [⟨S1, y0⟩, ⟨S1, y1⟩, ⟨S1, y2⟩] concatenates_S1_S1_S1_S3_d0 _ 0 (by show 0 < 3; omega) S1 y0 rfl rfl 0 rfl (ix1 (0 : Fin 1)) ?_ ?_
  · intro b hb
    match b with
    | ⟨0, _⟩ => exact absurd (Fin.ext rfl) hb
  · rfl

theorem concat3_read_1 (y0 y1 y2 : (⟨S1, .f32⟩ : BufTy).Contents (Elt Ideal)) :
    concatenate S3 0 [⟨S1, y0⟩, ⟨S1, y1⟩, ⟨S1, y2⟩] concatenates_S1_S1_S1_S3_d0 (ix1 (1 : Fin 3)) = y1 (ix1 (0 : Fin 1)) := by
  refine concatenate_apply_piece (α := Elt Ideal .f32) 0 [⟨S1, y0⟩, ⟨S1, y1⟩, ⟨S1, y2⟩] concatenates_S1_S1_S1_S3_d0 _ 1 (by show 1 < 3; omega) S1 y1 rfl rfl 1 rfl (ix1 (0 : Fin 1)) ?_ ?_
  · intro b hb
    match b with
    | ⟨0, _⟩ => exact absurd (Fin.ext rfl) hb
  · rfl

theorem concat3_read_2 (y0 y1 y2 : (⟨S1, .f32⟩ : BufTy).Contents (Elt Ideal)) :
    concatenate S3 0 [⟨S1, y0⟩, ⟨S1, y1⟩, ⟨S1, y2⟩] concatenates_S1_S1_S1_S3_d0 (ix1 (2 : Fin 3)) = y2 (ix1 (0 : Fin 1)) := by
  refine concatenate_apply_piece (α := Elt Ideal .f32) 0 [⟨S1, y0⟩, ⟨S1, y1⟩, ⟨S1, y2⟩] concatenates_S1_S1_S1_S3_d0 _ 2 (by show 2 < 3; omega) S1 y2 rfl rfl 2 rfl (ix1 (0 : Fin 1)) ?_ ?_
  · intro b hb
    match b with
    | ⟨0, _⟩ => exact absurd (Fin.ext rfl) hb
  · rfl

/-- A flat array broadcast to a column reads the array at the row. -/
theorem bcol_read (y : (⟨S640000, .f32⟩ : BufTy).Contents (Elt Ideal)) (e : Fin 640000) :
    broadcastInDim S640000x1 ![0] bcast_S640000_S640000x1_0 y (ix2 e (0 : Fin 1)) = y (ix1 e) :=
  broadcastInDim_apply _ bcast_S640000_S640000x1_0 y _ (ix1 e) (fun a => match a with
    | ⟨0, _⟩ => by show e.val = if (640000 : Nat) = 1 then 0 else e.val; rw [if_neg (by decide)])

/-- A vector of 128 broadcast to one row reads the vector at the column. -/
theorem brow128_read (y : (⟨S128, .f32⟩ : BufTy).Contents (Elt Ideal)) (k : Fin 128) :
    broadcastInDim S1x128 ![1] bcast_S128_S1x128_1 y (ix2 (0 : Fin 1) k) = y (ix1 k) :=
  broadcastInDim_apply _ bcast_S128_S1x128_1 y _ (ix1 k) (fun a => match a with
    | ⟨0, _⟩ => by show k.val = if (128 : Nat) = 1 then 0 else k.val; rw [if_neg (by decide)])

/-- A vector of 8 broadcast to one row reads the vector at the column. -/
theorem brow8_read (y : (⟨S8, .f32⟩ : BufTy).Contents (Elt Ideal)) (j : Fin 8) :
    broadcastInDim S1x8 ![1] bcast_S8_S1x8_1 y (ix2 (0 : Fin 1) j) = y (ix1 j) :=
  broadcastInDim_apply _ bcast_S8_S1x8_1 y _ (ix1 j) (fun a => match a with
    | ⟨0, _⟩ => by show j.val = if (8 : Nat) = 1 then 0 else j.val; rw [if_neg (by decide)])

/-- A scalar broadcast to one entry reads the scalar. -/
theorem bscal_read (y : (⟨S_, .f32⟩ : BufTy).Contents (Elt Ideal)) :
    broadcastInDim S1 ![] bcast_S_S1 y (ix1 (0 : Fin 1)) = y ix0 := by
  unfold broadcastInDim; exact congrArg y (funext fun a => a.elim0)

/-- The five columns padded to eight: a column below five reads the operand. -/
theorem pad58_read (x : (⟨S640000x5, .f32⟩ : BufTy).Contents (Elt Ideal)) (v : (⟨S_, .f32⟩ : BufTy).Contents (Elt Ideal))
    (e : Fin 640000) (j : Fin 8) (hj : j.val < 5) :
    pad S640000x8 ![0, 0] ![0, 3] ![0, 0] x v pads_S640000x5_S640000x8_000_030 h_S_ (ix2 e j) = x (ix2 e (⟨j.val, hj⟩ : Fin 5)) :=
  pad_apply_of_inside _ _ _ x v _ _ (ix2 e j) (ix2 e (⟨j.val, hj⟩ : Fin 5)) (fun a => match a with
    | ⟨0, _⟩ => by show e.val = 0 + e.val * (0 + 1); omega
    | ⟨1, _⟩ => by show j.val = 0 + j.val * (0 + 1); omega)

/-- The three entries padded to eight: an entry below three reads the operand. -/
theorem pad38_read (x : (⟨S3, .f32⟩ : BufTy).Contents (Elt Ideal)) (v : (⟨S_, .f32⟩ : BufTy).Contents (Elt Ideal))
    (j : Fin 8) (hj : j.val < 3) :
    pad S8 ![0] ![5] ![0] x v pads_S3_S8_050 h_S_ (ix1 j) = x (ix1 (⟨j.val, hj⟩ : Fin 3)) :=
  pad_apply_of_inside _ _ _ x v _ _ (ix1 j) (ix1 (⟨j.val, hj⟩ : Fin 3)) (fun a => match a with
    | ⟨0, _⟩ => by show j.val = 0 + j.val * (0 + 1); omega)

/-- A column of 128 reshaped to a vector reads the column at the row. -/
theorem resh128_read (x : (⟨S128x1, .f32⟩ : BufTy).Contents (Elt Ideal)) (k : Fin 128) :
    shapeCast S128 x shapeCasts_S128x1_S128 (ix1 k) = x (ix2 k (0 : Fin 1)) :=
  shapeCast_apply x shapeCasts_S128x1_S128 (ix1 k) (ix2 k (0 : Fin 1))
    (by rewrite [Shape.rowMajor_val_two, Shape.rowMajor_val_one]; show k.val * 1 + 0 = k.val; omega)

/-- A one-by-one array reshaped to a scalar reads its entry. -/
theorem resh11_read (x : (⟨S1x1, .f32⟩ : BufTy).Contents (Elt Ideal)) :
    shapeCast S_ x shapeCasts_S1x1_S_ ix0 = x (ix2 (0 : Fin 1) (0 : Fin 1)) :=
  shapeCast_apply x shapeCasts_S1x1_S_ ix0 (ix2 (0 : Fin 1) (0 : Fin 1))
    (by rewrite [Shape.rowMajor_val_two]; exact (Shape.rowMajorPi_zero _ _).symm)

/-- A one-entry vector reshaped to a scalar reads its entry. -/
theorem resh1_read (x : (⟨S1, .f32⟩ : BufTy).Contents (Elt Ideal)) :
    shapeCast S_ x shapeCasts_S1_S_ ix0 = x (ix1 (0 : Fin 1)) :=
  shapeCast_apply x shapeCasts_S1_S_ ix0 (ix1 (0 : Fin 1))
    (by rewrite [Shape.rowMajor_val_one]; exact (Shape.rowMajorPi_zero _ _).symm)

/-- Rows 0 to 127 of the weight column. -/
theorem slice0_read (x : (⟨S258x1, .f32⟩ : BufTy).Contents (Elt Ideal)) (k : Fin 128) :
    extractStridedSlice S128x1 ![0, 0] x slices_S258x1_S128x1_0_0 (ix2 k (0 : Fin 1)) = x (ix2 (⟨k.val, by omega⟩ : Fin 258) (0 : Fin 1)) :=
  extractStridedSlice_apply _ x _ _ (ix2 (⟨k.val, by omega⟩ : Fin 258) (0 : Fin 1)) (fun a => match a with
    | ⟨0, _⟩ => by show k.val = 0 + k.val; omega
    | ⟨1, _⟩ => rfl)

/-- Rows 128 to 255 of the weight column. -/
theorem slice128_read (x : (⟨S258x1, .f32⟩ : BufTy).Contents (Elt Ideal)) (k : Fin 128) :
    extractStridedSlice S128x1 ![128, 0] x slices_S258x1_S128x1_128_0 (ix2 k (0 : Fin 1)) = x (ix2 (⟨128 + k.val, by omega⟩ : Fin 258) (0 : Fin 1)) :=
  extractStridedSlice_apply _ x _ _ (ix2 (⟨128 + k.val, by omega⟩ : Fin 258) (0 : Fin 1)) (fun a => match a with
    | ⟨0, _⟩ => rfl
    | ⟨1, _⟩ => rfl)

/-- Row 256 of the weight column. -/
theorem slice256_read (x : (⟨S258x1, .f32⟩ : BufTy).Contents (Elt Ideal)) :
    extractStridedSlice S1x1 ![256, 0] x slices_S258x1_S1x1_256_0 (ix2 (0 : Fin 1) (0 : Fin 1)) = x (ix2 (256 : Fin 258) (0 : Fin 1)) :=
  extractStridedSlice_apply _ x _ _ (ix2 (256 : Fin 258) (0 : Fin 1)) (fun a => match a with
    | ⟨0, _⟩ => rfl
    | ⟨1, _⟩ => rfl)

/-- Row 257 of the weight column. -/
theorem slice257_read (x : (⟨S258x1, .f32⟩ : BufTy).Contents (Elt Ideal)) :
    extractStridedSlice S1x1 ![257, 0] x slices_S258x1_S1x1_257_0 (ix2 (0 : Fin 1) (0 : Fin 1)) = x (ix2 (257 : Fin 258) (0 : Fin 1)) :=
  extractStridedSlice_apply _ x _ _ (ix2 (257 : Fin 258) (0 : Fin 1)) (fun a => match a with
    | ⟨0, _⟩ => rfl
    | ⟨1, _⟩ => rfl)

/-! ## The two joining operations' results, each operand at its own buffer -/

/-- The five-column join's result: the five operand buffers' contents joined. -/
theorem v59_result' (hxs hy) (F : Valuation τ sig (Elt Ideal)) :
    (StableHlo.nary (τ := τ) ![main_v54, main_v55, main_v56, main_v57, main_v58] main_v59
        (fun u => concatenate S640000x5 1 [⟨S640000x1, u 0⟩, ⟨S640000x1, u 1⟩, ⟨S640000x1, u 2⟩, ⟨S640000x1, u 3⟩, ⟨S640000x1, u 4⟩] concatenates_S640000x1_S640000x1_S640000x1_S640000x1_S640000x1_S640000x5_d1)
        hxs hy).result F (no_index (Proc.devRef .tc main_v59))
      = concatenate S640000x5 1 [⟨S640000x1, F (Proc.devRef .tc main_v54)⟩, ⟨S640000x1, F (Proc.devRef .tc main_v55)⟩,
          ⟨S640000x1, F (Proc.devRef .tc main_v56)⟩, ⟨S640000x1, F (Proc.devRef .tc main_v57)⟩, ⟨S640000x1, F (Proc.devRef .tc main_v58)⟩]
          concatenates_S640000x1_S640000x1_S640000x1_S640000x1_S640000x1_S640000x5_d1 := by
  rw [StableHlo.nary_result]; rfl

/-- The three-coefficient join's result: the three operand buffers' contents joined. -/
theorem v75_result' (hxs hy) (F : Valuation τ sig (Elt Ideal)) :
    (StableHlo.nary (τ := τ) ![main_v72, main_v73, main_v74] main_v75
        (fun u => concatenate S3 0 [⟨S1, u 0⟩, ⟨S1, u 1⟩, ⟨S1, u 2⟩] concatenates_S1_S1_S1_S3_d0)
        hxs hy).result F (no_index (Proc.devRef .tc main_v75))
      = concatenate S3 0 [⟨S1, F (Proc.devRef .tc main_v72)⟩, ⟨S1, F (Proc.devRef .tc main_v73)⟩, ⟨S1, F (Proc.devRef .tc main_v74)⟩]
          concatenates_S1_S1_S1_S3_d0 := by
  rw [StableHlo.nary_result]; rfl

/-- Reads a buffer after a literal list of host operations: each operation's result at its own buffer is its
    function's value, at any other buffer what was there. -/
macro "host_results" : tactic =>
  `(tactic| (simp (disch := decide) only [StableHlo.after_cons, StableHlo.after_nil,
      StableHlo.nullary_result', StableHlo.unary_result', StableHlo.binary_result', StableHlo.ternary_result',
      StableHlo.quaternary_result', StableHlo.reshape_result', v59_result', v75_result',
      StableHlo.nullary_result_ne', StableHlo.unary_result_ne', StableHlo.binary_result_ne', StableHlo.ternary_result_ne',
      StableHlo.quaternary_result_ne', StableHlo.reshape_result_ne', StableHlo.nary_result_ne']))

/-- Two five-column joins of equal pieces are equal. -/
theorem concat5_congr (a0 a1 a2 a3 a4 b0 b1 b2 b3 b4 : (⟨S640000x1, .f32⟩ : BufTy).Contents (Elt Ideal))
    (h0 : a0 = b0) (h1 : a1 = b1) (h2 : a2 = b2) (h3 : a3 = b3) (h4 : a4 = b4) :
    concatenate S640000x5 1 [⟨S640000x1, a0⟩, ⟨S640000x1, a1⟩, ⟨S640000x1, a2⟩, ⟨S640000x1, a3⟩, ⟨S640000x1, a4⟩]
        concatenates_S640000x1_S640000x1_S640000x1_S640000x1_S640000x1_S640000x5_d1
      = concatenate S640000x5 1 [⟨S640000x1, b0⟩, ⟨S640000x1, b1⟩, ⟨S640000x1, b2⟩, ⟨S640000x1, b3⟩, ⟨S640000x1, b4⟩]
        concatenates_S640000x1_S640000x1_S640000x1_S640000x1_S640000x1_S640000x5_d1 := by
  subst h0 h1 h2 h3 h4; rfl

/-- Two three-entry joins of equal pieces are equal. -/
theorem concat3_congr (a0 a1 a2 b0 b1 b2 : (⟨S1, .f32⟩ : BufTy).Contents (Elt Ideal)) (h0 : a0 = b0) (h1 : a1 = b1) (h2 : a2 = b2) :
    concatenate S3 0 [⟨S1, a0⟩, ⟨S1, a1⟩, ⟨S1, a2⟩] concatenates_S1_S1_S1_S3_d0
      = concatenate S3 0 [⟨S1, b0⟩, ⟨S1, b1⟩, ⟨S1, b2⟩] concatenates_S1_S1_S1_S3_d0 := by
  subst h0 h1 h2; rfl

/-! ## What each stretch leaves in the buffers the scoring region reads -/

set_option maxHeartbeats 4000000 in
/-- The gathered source rows are the reference's. -/
theorem s0_v18 (W : Valuation τ sig (Elt Ideal)) :
    StableHlo.after (hostOps0 (F := Ideal)) W (Proc.devRef .tc main_v18)
      = Cert.ReferenceIdeal.Read.val_main_v13 (F := Ideal) (W (Proc.devRef .tc main_arg0)) (W (Proc.devRef .tc main_arg2)) := by
  dsimp only [hostOps0]
  host_results <;> rfl

set_option maxHeartbeats 4000000 in
/-- The gathered destination rows are the reference's. -/
theorem s0_v25 (W : Valuation τ sig (Elt Ideal)) :
    StableHlo.after (hostOps0 (F := Ideal)) W (Proc.devRef .tc main_v25)
      = Cert.ReferenceIdeal.Read.val_main_v20 (F := Ideal) (W (Proc.devRef .tc main_arg0)) (W (Proc.devRef .tc main_arg3)) := by
  dsimp only [hostOps0]
  host_results <;> rfl

set_option maxHeartbeats 4000000 in
/-- The five per-edge scalars, each as a column, joined: the reference's two gathered log-degrees, the mask, and the
    reference's two gathered normalizers. -/
theorem s0_v59 (W : Valuation τ sig (Elt Ideal)) :
    StableHlo.after (hostOps0 (F := Ideal)) W (Proc.devRef .tc main_v59)
      = concatenate S640000x5 1 [⟨S640000x1, broadcastInDim S640000x1 ![0] bcast_S640000_S640000x1_0 (Cert.ReferenceIdeal.Read.val_main_v28 (F := Ideal) (W (Proc.devRef .tc main_arg2)))⟩,
          ⟨S640000x1, broadcastInDim S640000x1 ![0] bcast_S640000_S640000x1_0 (Cert.ReferenceIdeal.Read.val_main_v37 (F := Ideal) (W (Proc.devRef .tc main_arg3)))⟩,
          ⟨S640000x1, broadcastInDim S640000x1 ![0] bcast_S640000_S640000x1_0 (W (Proc.devRef .tc main_arg1))⟩,
          ⟨S640000x1, broadcastInDim S640000x1 ![0] bcast_S640000_S640000x1_0 (Cert.ReferenceIdeal.Read.val_main_v61 (F := Ideal) (W (Proc.devRef .tc main_arg2)) (W (Proc.devRef .tc main_arg3)))⟩,
          ⟨S640000x1, broadcastInDim S640000x1 ![0] bcast_S640000_S640000x1_0 (Cert.ReferenceIdeal.Read.val_main_v69 (F := Ideal) (W (Proc.devRef .tc main_arg3)))⟩]
          concatenates_S640000x1_S640000x1_S640000x1_S640000x1_S640000x1_S640000x5_d1 := by
  dsimp only [hostOps0]
  host_results
  refine concat5_congr _ _ _ _ _ _ _ _ _ _ ?_ ?_ ?_ ?_ ?_
  all_goals (host_results <;> rfl)

/-- The five columns padded to eight. -/
theorem s1_v60 (W : Valuation τ sig (Elt Ideal)) :
    StableHlo.after (hostOps0_1 (F := Ideal)) W (Proc.devRef .tc main_v60)
      = pad S640000x8 ![0, 0] ![0, 3] ![0, 0] (W (Proc.devRef .tc main_v59) : (⟨S640000x5, .f32⟩ : BufTy).Contents (Elt Ideal))
          (sitofp (F := Ideal) .f32 (W (Proc.devRef .tc main_c_14) : (⟨S_, .i32⟩ : BufTy).Contents (Elt Ideal)) : (⟨S_, .f32⟩ : BufTy).Contents (Elt Ideal))
          pads_S640000x5_S640000x8_000_030 h_S_ := by
  dsimp only [hostOps0_1]
  host_results <;> rfl

/-- Rows 0 to 127 of the weight column as one row. -/
theorem s2_v63 (W : Valuation τ sig (Elt Ideal)) :
    StableHlo.after (hostOps0_2 (F := Ideal)) W (Proc.devRef .tc main_v63)
      = broadcastInDim S1x128 ![1] bcast_S128_S1x128_1
          (shapeCast S128 (extractStridedSlice S128x1 ![0, 0] (W (Proc.devRef .tc main_arg4)) slices_S258x1_S128x1_0_0) shapeCasts_S128x1_S128) := by
  dsimp only [hostOps0_2]
  host_results <;> rfl

/-- Rows 128 to 255 of the weight column as one row. -/
theorem s2_v66 (W : Valuation τ sig (Elt Ideal)) :
    StableHlo.after (hostOps0_2 (F := Ideal)) W (Proc.devRef .tc main_v66)
      = broadcastInDim S1x128 ![1] bcast_S128_S1x128_1
          (shapeCast S128 (extractStridedSlice S128x1 ![128, 0] (W (Proc.devRef .tc main_arg4)) slices_S258x1_S128x1_128_0) shapeCasts_S128x1_S128) := by
  dsimp only [hostOps0_2]
  host_results <;> rfl

/-- Rows 256 and 257 of the weight column and the bias, joined. -/
theorem s2_v75 (W : Valuation τ sig (Elt Ideal)) :
    StableHlo.after (hostOps0_2 (F := Ideal)) W (Proc.devRef .tc main_v75)
      = concatenate S3 0 [⟨S1, broadcastInDim S1 ![] bcast_S_S1 (shapeCast S_ (extractStridedSlice S1x1 ![256, 0] (W (Proc.devRef .tc main_arg4)) slices_S258x1_S1x1_256_0) shapeCasts_S1x1_S_)⟩,
          ⟨S1, broadcastInDim S1 ![] bcast_S_S1 (shapeCast S_ (extractStridedSlice S1x1 ![257, 0] (W (Proc.devRef .tc main_arg4)) slices_S258x1_S1x1_257_0) shapeCasts_S1x1_S_)⟩,
          ⟨S1, broadcastInDim S1 ![] bcast_S_S1 (shapeCast S_ (W (Proc.devRef .tc main_arg5)) shapeCasts_S1_S_)⟩]
          concatenates_S1_S1_S1_S3_d0 := by
  dsimp only [hostOps0_2]
  host_results
  refine concat3_congr _ _ _ _ _ _ ?_ ?_ ?_
  all_goals (host_results <;> rfl)

/-- The three coefficients padded to eight. -/
theorem s3_v76 (W : Valuation τ sig (Elt Ideal)) :
    StableHlo.after (hostOps0_3 (F := Ideal)) W (Proc.devRef .tc main_v76)
      = pad S8 ![0] ![5] ![0] (W (Proc.devRef .tc main_v75) : (⟨S3, .f32⟩ : BufTy).Contents (Elt Ideal))
          (sitofp (F := Ideal) .f32 (W (Proc.devRef .tc main_c_15) : (⟨S_, .i32⟩ : BufTy).Contents (Elt Ideal)) : (⟨S_, .f32⟩ : BufTy).Contents (Elt Ideal)) pads_S3_S8_050 h_S_ := by
  dsimp only [hostOps0_3]
  host_results <;> rfl

/-- The eight coefficients as one row. -/
theorem s4_v77 (W : Valuation τ sig (Elt Ideal)) :
    StableHlo.after (hostOps0_4 (F := Ideal)) W (Proc.devRef .tc main_v77)
      = broadcastInDim S1x8 ![1] bcast_S8_S1x8_1 (W (Proc.devRef .tc main_v76)) := by
  dsimp only [hostOps0_4]
  host_results <;> rfl

/-! ## The buffers as the scoring region finds them -/

/-- The valuation after the five host stretches before the scoring region, from the launch valuation `W`. -/
def E5 (W : Valuation τ sig (Elt Ideal)) : Valuation τ sig (Elt Ideal) :=
  StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))

theorem e5_v18 (W : Valuation τ sig (Elt Ideal)) :
    E5 W (Proc.devRef .tc main_v18) = Cert.ReferenceIdeal.Read.val_main_v13 (F := Ideal) (W (Proc.devRef .tc main_arg0)) (W (Proc.devRef .tc main_arg2)) := by
  unfold E5
  rw [keep4 _ main_v18 (by decide), keep3 _ main_v18 (by decide), keep2 _ main_v18 (by decide), keep1 _ main_v18 (by decide), s0_v18]

theorem e5_v25 (W : Valuation τ sig (Elt Ideal)) :
    E5 W (Proc.devRef .tc main_v25) = Cert.ReferenceIdeal.Read.val_main_v20 (F := Ideal) (W (Proc.devRef .tc main_arg0)) (W (Proc.devRef .tc main_arg3)) := by
  unfold E5
  rw [keep4 _ main_v25 (by decide), keep3 _ main_v25 (by decide), keep2 _ main_v25 (by decide), keep1 _ main_v25 (by decide), s0_v25]

/-- A scalar lane below five reads the joined columns. -/
theorem e5_v60 (W : Valuation τ sig (Elt Ideal)) (e : Fin 640000) (j : Fin 8) (hj : j.val < 5) :
    E5 W (Proc.devRef .tc main_v60) (ix2 e j) = StableHlo.after (hostOps0 (F := Ideal)) W (Proc.devRef .tc main_v59) (ix2 e (⟨j.val, hj⟩ : Fin 5)) := by
  unfold E5
  rw [keep4 _ main_v60 (by decide), keep3 _ main_v60 (by decide), keep2 _ main_v60 (by decide), s1_v60]
  exact pad58_read _ _ e j hj

theorem e5_sc0 (W : Valuation τ sig (Elt Ideal)) (e : Fin 640000) :
    E5 W (Proc.devRef .tc main_v60) (ix2 e (0 : Fin 8)) = Cert.ReferenceIdeal.Read.val_main_v28 (F := Ideal) (W (Proc.devRef .tc main_arg2)) (ix1 e) := by
  rw [e5_v60 W e 0 (by decide), s0_v59]
  exact (concat5_read_0 _ _ _ _ _ e).trans (bcol_read _ e)

theorem e5_sc1 (W : Valuation τ sig (Elt Ideal)) (e : Fin 640000) :
    E5 W (Proc.devRef .tc main_v60) (ix2 e (1 : Fin 8)) = Cert.ReferenceIdeal.Read.val_main_v37 (F := Ideal) (W (Proc.devRef .tc main_arg3)) (ix1 e) := by
  rw [e5_v60 W e 1 (by decide), s0_v59]
  exact (concat5_read_1 _ _ _ _ _ e).trans (bcol_read _ e)

theorem e5_sc2 (W : Valuation τ sig (Elt Ideal)) (e : Fin 640000) :
    E5 W (Proc.devRef .tc main_v60) (ix2 e (2 : Fin 8)) = W (Proc.devRef .tc main_arg1) (ix1 e) := by
  rw [e5_v60 W e 2 (by decide), s0_v59]
  exact (concat5_read_2 _ _ _ _ _ e).trans (bcol_read _ e)

theorem e5_sc3 (W : Valuation τ sig (Elt Ideal)) (e : Fin 640000) :
    E5 W (Proc.devRef .tc main_v60) (ix2 e (3 : Fin 8)) = Cert.ReferenceIdeal.Read.val_main_v61 (F := Ideal) (W (Proc.devRef .tc main_arg2)) (W (Proc.devRef .tc main_arg3)) (ix1 e) := by
  rw [e5_v60 W e 3 (by decide), s0_v59]
  exact (concat5_read_3 _ _ _ _ _ e).trans (bcol_read _ e)

theorem e5_sc4 (W : Valuation τ sig (Elt Ideal)) (e : Fin 640000) :
    E5 W (Proc.devRef .tc main_v60) (ix2 e (4 : Fin 8)) = Cert.ReferenceIdeal.Read.val_main_v69 (F := Ideal) (W (Proc.devRef .tc main_arg3)) (ix1 e) := by
  rw [e5_v60 W e 4 (by decide), s0_v59]
  exact (concat5_read_4 _ _ _ _ _ e).trans (bcol_read _ e)

theorem e5_wa (W : Valuation τ sig (Elt Ideal)) (k : Fin 128) :
    E5 W (Proc.devRef .tc main_v63) (ix2 (0 : Fin 1) k) = W (Proc.devRef .tc main_arg4) (ix2 (⟨k.val, by omega⟩ : Fin 258) (0 : Fin 1)) := by
  unfold E5
  rw [keep4 _ main_v63 (by decide), keep3 _ main_v63 (by decide), s2_v63, keep1 _ main_arg4 (by decide), keep0 _ main_arg4 (by decide)]
  exact (brow128_read _ k).trans ((resh128_read _ k).trans (slice0_read _ k))

theorem e5_wb (W : Valuation τ sig (Elt Ideal)) (k : Fin 128) :
    E5 W (Proc.devRef .tc main_v66) (ix2 (0 : Fin 1) k) = W (Proc.devRef .tc main_arg4) (ix2 (⟨128 + k.val, by omega⟩ : Fin 258) (0 : Fin 1)) := by
  unfold E5
  rw [keep4 _ main_v66 (by decide), keep3 _ main_v66 (by decide), s2_v66, keep1 _ main_arg4 (by decide), keep0 _ main_arg4 (by decide)]
  exact (brow128_read _ k).trans ((resh128_read _ k).trans (slice128_read _ k))

/-- A coefficient lane below three reads the joined coefficients. -/
theorem e5_v77 (W : Valuation τ sig (Elt Ideal)) (j : Fin 8) (hj : j.val < 3) :
    E5 W (Proc.devRef .tc main_v77) (ix2 (0 : Fin 1) j)
      = StableHlo.after (hostOps0_2 (F := Ideal)) (StableHlo.after (hostOps0_1 (F := Ideal)) (StableHlo.after (hostOps0 (F := Ideal)) W)) (Proc.devRef .tc main_v75) (ix1 (⟨j.val, hj⟩ : Fin 3)) := by
  unfold E5
  rw [s4_v77, s3_v76]
  exact (brow8_read _ j).trans (pad38_read _ _ j hj)

theorem e5_cc0 (W : Valuation τ sig (Elt Ideal)) :
    E5 W (Proc.devRef .tc main_v77) (ix2 (0 : Fin 1) (0 : Fin 8)) = W (Proc.devRef .tc main_arg4) (ix2 (256 : Fin 258) (0 : Fin 1)) := by
  rw [e5_v77 W 0 (by decide), s2_v75, keep1 _ main_arg4 (by decide), keep0 _ main_arg4 (by decide)]
  exact (concat3_read_0 _ _ _).trans ((bscal_read _).trans ((resh11_read _).trans (slice256_read _)))

theorem e5_cc1 (W : Valuation τ sig (Elt Ideal)) :
    E5 W (Proc.devRef .tc main_v77) (ix2 (0 : Fin 1) (1 : Fin 8)) = W (Proc.devRef .tc main_arg4) (ix2 (257 : Fin 258) (0 : Fin 1)) := by
  rw [e5_v77 W 1 (by decide), s2_v75, keep1 _ main_arg4 (by decide), keep0 _ main_arg4 (by decide)]
  exact (concat3_read_1 _ _ _).trans ((bscal_read _).trans ((resh11_read _).trans (slice257_read _)))

theorem e5_cc2 (W : Valuation τ sig (Elt Ideal)) :
    E5 W (Proc.devRef .tc main_v77) (ix2 (0 : Fin 1) (2 : Fin 8)) = W (Proc.devRef .tc main_arg5) (ix1 (0 : Fin 1)) := by
  rw [e5_v77 W 2 (by decide), s2_v75, keep1 _ main_arg5 (by decide), keep0 _ main_arg5 (by decide)]
  exact (concat3_read_2 _ _ _).trans ((bscal_read _).trans (resh1_read _))

/-! ## The edge weights from the buffers the scoring region finds are the reference's -/

theorem ew_core (W : Valuation τ sig (Elt Ideal)) :
    edgeW (E5 W (Proc.devRef .tc main_v18)) (E5 W (Proc.devRef .tc main_v25)) (E5 W (Proc.devRef .tc main_v60))
        (E5 W (Proc.devRef .tc main_v63)) (E5 W (Proc.devRef .tc main_v66)) (E5 W (Proc.devRef .tc main_v77))
      = Cert.ReferenceIdeal.Read.val_main_v71 (F := Ideal) (W (Proc.devRef .tc main_arg0)) (W (Proc.devRef .tc main_arg1)) (W (Proc.devRef .tc main_arg2)) (W (Proc.devRef .tc main_arg3))
          (W (Proc.devRef .tc main_arg4)) (W (Proc.devRef .tc main_arg5)) := by
  funext i
  rw [Cert.ReferenceIdeal.HandV.ref_col, Cert.ReferenceIdeal.HandV.ref_edge]
  unfold edgeW
  rw [e5_v18, e5_v25]
  refine congrArg₂ (· * ·) (congrArg₂ (· * ·) (congrArg₂ (· * ·) (congrArg Ideal.logistic
    (congrArg₂ (· + ·) (congrArg₂ (· + ·) (congrArg₂ (· + ·) (congrArg₂ (· + ·)
      (Finset.sum_congr rfl fun k _ => ?_) (Finset.sum_congr rfl fun k _ => ?_)) ?_) ?_) ?_)) ?_) ?_) ?_
  · exact congrArg₂ (· * ·) rfl (e5_wa W k)
  · exact congrArg₂ (· * ·) rfl (e5_wb W k)
  · exact congrArg₂ (· * ·) (e5_sc0 W _) (e5_cc0 W)
  · exact congrArg₂ (· * ·) (e5_sc1 W _) (e5_cc1 W)
  · exact e5_cc2 W
  · exact e5_sc2 W _
  · exact e5_sc3 W _
  · exact e5_sc4 W _

end Cert.KernelIdeal.HandV
-- ==== Proof.V.EdgeBridge.lean ====
/- The scoring region's input buffers as the run finds them — the five host stretches applied to the launch contents —
   read against the reference's stages, and the edge weights computed from them. -/
import proofs.«151107_j62362925138837_1_alg».proof.Proof.KI.RunDefs
import proofs.«151107_j62362925138837_1_alg».proof.Proof.V.Host0

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The buffers at the scoring region's entry are the five host stretches run from the launch contents. -/
theorem V5_eq (c : Dev nD) (b : Ref sig .tc) : V5 m ρ c b = E5 (W0 m ρ c) (Proc.devRef .tc b) := rfl

/-- The launch valuation at an argument buffer is the launch memory there. -/
theorem W0_arg (c : Dev nD) (b : Ref sig .tc) : W0 m ρ c (Proc.devRef .tc b) = m ((c : Thread nD τ).loc b) := rfl

/-! ## The scoring region's inputs -/

theorem H_v18 (c : Dev nD) : V5 m ρ c main_v18 = Cert.ReferenceIdeal.Read.val_main_v13 (F := Ideal) (m ((c : Thread nD τ).loc main_arg0)) (m ((c : Thread nD τ).loc main_arg2)) :=
  e5_v18 (W0 m ρ c)

theorem H_v25 (c : Dev nD) : V5 m ρ c main_v25 = Cert.ReferenceIdeal.Read.val_main_v20 (F := Ideal) (m ((c : Thread nD τ).loc main_arg0)) (m ((c : Thread nD τ).loc main_arg3)) :=
  e5_v25 (W0 m ρ c)

theorem H_sc0 (c : Dev nD) (e : Fin 640000) : V5 m ρ c main_v60 (ix2 e (0 : Fin 8)) = Cert.ReferenceIdeal.Read.val_main_v28 (F := Ideal) (m ((c : Thread nD τ).loc main_arg2)) (ix1 e) :=
  e5_sc0 (W0 m ρ c) e

theorem H_sc1 (c : Dev nD) (e : Fin 640000) : V5 m ρ c main_v60 (ix2 e (1 : Fin 8)) = Cert.ReferenceIdeal.Read.val_main_v37 (F := Ideal) (m ((c : Thread nD τ).loc main_arg3)) (ix1 e) :=
  e5_sc1 (W0 m ρ c) e

theorem H_sc2 (c : Dev nD) (e : Fin 640000) : V5 m ρ c main_v60 (ix2 e (2 : Fin 8)) = (m ((c : Thread nD τ).loc main_arg1)) (ix1 e) :=
  e5_sc2 (W0 m ρ c) e

theorem H_sc3 (c : Dev nD) (e : Fin 640000) : V5 m ρ c main_v60 (ix2 e (3 : Fin 8)) = Cert.ReferenceIdeal.Read.val_main_v61 (F := Ideal) (m ((c : Thread nD τ).loc main_arg2)) (m ((c : Thread nD τ).loc main_arg3)) (ix1 e) :=
  e5_sc3 (W0 m ρ c) e

theorem H_sc4 (c : Dev nD) (e : Fin 640000) : V5 m ρ c main_v60 (ix2 e (4 : Fin 8)) = Cert.ReferenceIdeal.Read.val_main_v69 (F := Ideal) (m ((c : Thread nD τ).loc main_arg3)) (ix1 e) :=
  e5_sc4 (W0 m ρ c) e

theorem H_wa (c : Dev nD) (k : Fin 128) :
    V5 m ρ c main_v63 (ix2 (0 : Fin 1) k) = (m ((c : Thread nD τ).loc main_arg4)) (ix2 (⟨k.val, by omega⟩ : Fin 258) (0 : Fin 1)) :=
  e5_wa (W0 m ρ c) k

theorem H_wb (c : Dev nD) (k : Fin 128) :
    V5 m ρ c main_v66 (ix2 (0 : Fin 1) k) = (m ((c : Thread nD τ).loc main_arg4)) (ix2 (⟨128 + k.val, by omega⟩ : Fin 258) (0 : Fin 1)) :=
  e5_wb (W0 m ρ c) k

theorem H_cc0 (c : Dev nD) : V5 m ρ c main_v77 (ix2 (0 : Fin 1) (0 : Fin 8)) = (m ((c : Thread nD τ).loc main_arg4)) (ix2 (256 : Fin 258) (0 : Fin 1)) :=
  e5_cc0 (W0 m ρ c)

theorem H_cc1 (c : Dev nD) : V5 m ρ c main_v77 (ix2 (0 : Fin 1) (1 : Fin 8)) = (m ((c : Thread nD τ).loc main_arg4)) (ix2 (257 : Fin 258) (0 : Fin 1)) :=
  e5_cc1 (W0 m ρ c)

theorem H_cc2 (c : Dev nD) : V5 m ρ c main_v77 (ix2 (0 : Fin 1) (2 : Fin 8)) = (m ((c : Thread nD τ).loc main_arg5)) (ix1 (0 : Fin 1)) :=
  e5_cc2 (W0 m ρ c)

/-! ## The edge weights -/

/-- The edge weights computed from the scoring region's inputs are the reference's edge-weight column. -/
theorem ew_eq (c : Dev nD) :
    edgeW (V5 m ρ c main_v18) (V5 m ρ c main_v25) (V5 m ρ c main_v60) (V5 m ρ c main_v63) (V5 m ρ c main_v66) (V5 m ρ c main_v77)
      = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ew_core (W0 m ρ c)

end Cert.KernelIdeal.HandV
-- ==== Proof.LibPlainDot.lean ====
/-
  A plain two-axis matrix product on the host, read at an index given by coordinates: for dimension numbers that
  contract the left operand's columns with the right operand's rows, an `[m, k] · [k, n]` `dot_general` over the
  extended reals reads, at `(r, c)`, the sum over `f` of left `(r, f)` times right `(f, c)` — the same sum a
  matrix product into a zero accumulator reads there, whatever the order the host adds in.
-/
import Idealize.ShloMosaic.Lib.ValueIdx
import Idealize.ShloMosaic.PureOps.Ideal.Laws

noncomputable section

namespace Cert.PlainDot

open Idealize.ShloMosaic Idealize.ShloMosaic.ValueIdx

/-- For dimension numbers that contract the left operand's columns with the right operand's rows (`hl0` … `hr1`: the
    operand indices at an output index and a contraction position, read off the numbers), an `[m, k] · [k, n]`
    host product reads, at `(r, c)`, the sum over `f` of left `(r, f)` times right `(f, c)`. -/
theorem dotGeneral_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (sched : HostSchedule)
    (lhs : FVec Ideal ⟨2, ![m, k]⟩ φ₁) (rhs : FVec Ideal ⟨2, ![k, n]⟩ φ₂) (r : Fin m) (c : Fin n) :
    FloatOps.dotGeneral D prec sched lhs rhs (ix2 r c) = ∑ f : Fin k, lhs (ix2 r f) * rhs (ix2 f c) := by
  refine (Ideal.dotGeneral_apply D prec sched lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainDot

end
-- ==== Proof.V.RefLayer.lean ====
/-
  The reference's layer tail as the same index-by-index functions the kernel's regions compute: the host product of a
  [50000, 128] array with a weight array is the row-by-row product; adding the bias vector (given a unit row axis, then
  repeated down the rows) and clamping at the zero splat is "add the bias row, clamp at zero" of the vector reshaped to
  one row; the last layer adds the bias row and does not clamp.
-/
import proofs.«151107_j62362925138837_1_alg».proof.Proof.Gen.ReferenceIdeal
import proofs.«151107_j62362925138837_1_alg».proof.Proof.LibRowBias
import proofs.«151107_j62362925138837_1_alg».proof.Proof.LibPlainDot

noncomputable section

namespace Cert.ReferenceIdeal.HandV

open Idealize.ShloMosaic Idealize.ShloMosaic.ValueIdx
open Cert.ReferenceIdeal Cert.RowOps

open Facts₀ Facts

/-- The host product with the [128, 128] weights, entry by entry: the sum over f of A (r, f) · W (f, q). -/
theorem ref_dot128 (A : Mat 50000 128) (W : Mat 128 128) :
    Host.dotGeneral (F := Ideal) dot_S50000x128_S128x128_S50000x128_1_0_0_1_n_n none A W = rowsMul A W := by
  funext j
  obtain ⟨r, q, rfl⟩ : ∃ (r : Fin 50000) (q : Fin 128), j = ix2 r q := ⟨j 0, j 1, eq_ix2 j⟩
  rw [rowsMul_ix2]
  simp only [Host.dotGeneral]
  refine Cert.PlainDot.dotGeneral_ix2_apply dot_S50000x128_S128x128_S50000x128_1_0_0_1_n_n rfl rfl ?_ ?_ ?_ ?_ none _ A W r q
  · intro i q
    unfold DotDims.lhsIdx
    rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
    rfl
  · intro i q
    exact dot_S50000x128_S128x128_S50000x128_1_0_0_1_n_n.lhsIdx_val_of_single rfl i q
  · intro i q
    exact dot_S50000x128_S128x128_S50000x128_1_0_0_1_n_n.rhsIdx_val_of_single rfl i q
  · intro i q
    unfold DotDims.rhsIdx
    rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
    rfl

/-- The host product with the [128, 40] weights of the last layer. -/
theorem ref_dot40 (A : Mat 50000 128) (W : Mat 128 40) :
    Host.dotGeneral (F := Ideal) dot_S50000x128_S128x40_S50000x40_1_0_0_1_n_n none A W = rowsMul A W := by
  funext j
  obtain ⟨r, q, rfl⟩ : ∃ (r : Fin 50000) (q : Fin 40), j = ix2 r q := ⟨j 0, j 1, eq_ix2 j⟩
  rw [rowsMul_ix2]
  simp only [Host.dotGeneral]
  refine Cert.PlainDot.dotGeneral_ix2_apply dot_S50000x128_S128x40_S50000x40_1_0_0_1_n_n rfl rfl ?_ ?_ ?_ ?_ none _ A W r q
  · intro i q
    unfold DotDims.lhsIdx
    rw [dif_neg (show ¬(0 : Fin S50000x128.rank) ∈ dot_S50000x128_S128x40_S50000x40_1_0_0_1_n_n.lhsBatch by decide), dif_pos (show (0 : Fin S50000x128.rank) ∈ dot_S50000x128_S128x40_S50000x40_1_0_0_1_n_n.lhsNonContracting by decide)]
    rfl
  · intro i q
    exact dot_S50000x128_S128x40_S50000x40_1_0_0_1_n_n.lhsIdx_val_of_single rfl i q
  · intro i q
    exact dot_S50000x128_S128x40_S50000x40_1_0_0_1_n_n.rhsIdx_val_of_single rfl i q
  · intro i q
    unfold DotDims.rhsIdx
    rw [dif_neg (show ¬(1 : Fin S128x40.rank) ∈ dot_S50000x128_S128x40_S50000x40_1_0_0_1_n_n.rhsBatch by decide), dif_pos (show (1 : Fin S128x40.rank) ∈ dot_S50000x128_S128x40_S50000x40_1_0_0_1_n_n.rhsNonContracting by decide)]
    rfl

/-- A hidden layer's tail on the host: product, bias, clamp at zero. -/
theorem ref_relu (A : Mat 50000 128) (W : Mat 128 128) (b : FVec Ideal S128 .f32) (hc : S128.ShapeCasts S1x128) :
    maximumf (addf (Host.dotGeneral (F := Ideal) dot_S50000x128_S128x128_S50000x128_1_0_0_1_n_n none A W)
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))
      = biasRelu (rowsMul A W) (shapeCast S1x128 b hc) := by
  rw [ref_dot128]
  exact hostBiasRelu_eq (a := 50000) (c := 128) (rowsMul A W) b bcast_S128_S1x128_1 bcast_S1x128_S50000x128_0_1 bcast_S_S50000x128 hc

/-- The last layer's tail on the host: product and bias, no clamp. -/
theorem ref_lin (A : Mat 50000 128) (W : Mat 128 40) (b : FVec Ideal S40 .f32) (hc : S40.ShapeCasts S1x40) :
    addf (Host.dotGeneral (F := Ideal) dot_S50000x128_S128x40_S50000x40_1_0_0_1_n_n none A W)
        (broadcastInDim S50000x40 ![0, 1] bcast_S1x40_S50000x40_0_1 (broadcastInDim S1x40 ![1] bcast_S40_S1x40_1 b))
      = addRow (rowsMul A W) (shapeCast S1x40 b hc) := by
  rw [ref_dot40]
  exact hostAddRow_eq (a := 50000) (c := 40) (rowsMul A W) b bcast_S40_S1x40_1 bcast_S1x40_S50000x40_0_1 hc

end Cert.ReferenceIdeal.HandV

end
-- ==== Proof.V.RefChain.lean ====
/-
  The reference's three layers as the same functions the kernel program's regions and host stretches compute:
  each layer's aggregation is the message-passing step `msg` applied to the column of edge weights, and each
  layer's tail (matrix product, bias row, clamp at zero) is `biasRelu (rowsMul · W) b`, the last `addRow (rowsMul · W) b`.
-/
import proofs.«151107_j62362925138837_1_alg».proof.Proof.Gen.ReferenceIdeal.Read
import proofs.«151107_j62362925138837_1_alg».proof.Proof.V.RefLayer
import proofs.«151107_j62362925138837_1_alg».proof.Proof.V.Stretch

noncomputable section

namespace Cert.ReferenceIdeal.HandV

open Idealize.ShloMosaic Cert.ReferenceIdeal Cert.ReferenceIdeal.Read Cert.RowOps
open Cert.KernelIdeal.HandV (msg)

variable (x0 : (⟨S50000x128, .f32⟩ : BufTy).Contents (Elt Ideal)) (x1 : (⟨S640000, .f32⟩ : BufTy).Contents (Elt Ideal))
  (x2 x3 : (⟨S640000, .i32⟩ : BufTy).Contents (Elt Ideal)) (x4 : (⟨S258x1, .f32⟩ : BufTy).Contents (Elt Ideal))
  (x5 : (⟨S1, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x40, .f32⟩ : BufTy).Contents (Elt Ideal))
  (x11 : (⟨S40, .f32⟩ : BufTy).Contents (Elt Ideal))

/-- Layer 1's aggregation is the message-passing step on the input features. -/
theorem v83_eq : val_main_v83 (F := Ideal) x0 x1 x2 x3 x4 x5 = msg (val_main_v71 (F := Ideal) x0 x1 x2 x3 x4 x5) x0 x2 x3 := rfl

/-- Layer 1's output. -/
theorem v88_eq (hc : S128.ShapeCasts S1x128) :
    val_main_v88 (F := Ideal) x0 x1 x2 x3 x4 x5 x6 x7
      = biasRelu (rowsMul (msg (val_main_v71 (F := Ideal) x0 x1 x2 x3 x4 x5) x0 x2 x3) x6) (shapeCast S1x128 x7 hc) :=
  (ref_relu (val_main_v83 (F := Ideal) x0 x1 x2 x3 x4 x5) x6 x7 hc).trans (by rw [v83_eq])

/-- Layer 2's aggregation: the same step on layer 1's output. -/
theorem v101_eq : val_main_v101 (F := Ideal) x0 x1 x2 x3 x4 x5 x6 x7
    = msg (val_main_v71 (F := Ideal) x0 x1 x2 x3 x4 x5) (val_main_v88 (F := Ideal) x0 x1 x2 x3 x4 x5 x6 x7) x2 x3 := rfl

/-- Layer 2's output. -/
theorem v106_eq (hc : S128.ShapeCasts S1x128) :
    val_main_v106 (F := Ideal) x0 x1 x2 x3 x4 x5 x6 x7 x8 x9
      = biasRelu (rowsMul (msg (val_main_v71 (F := Ideal) x0 x1 x2 x3 x4 x5) (val_main_v88 (F := Ideal) x0 x1 x2 x3 x4 x5 x6 x7) x2 x3) x8)
          (shapeCast S1x128 x9 hc) :=
  (ref_relu (val_main_v101 (F := Ideal) x0 x1 x2 x3 x4 x5 x6 x7) x8 x9 hc).trans (by rw [v101_eq])

/-- Layer 3's aggregation. -/
theorem v119_eq : val_main_v119 (F := Ideal) x0 x1 x2 x3 x4 x5 x6 x7 x8 x9
    = msg (val_main_v71 (F := Ideal) x0 x1 x2 x3 x4 x5) (val_main_v106 (F := Ideal) x0 x1 x2 x3 x4 x5 x6 x7 x8 x9) x2 x3 := rfl

/-- The result: layer 3 has no clamp. -/
theorem v123_eq (hc : S40.ShapeCasts S1x40) :
    val_main_v123 (F := Ideal) x0 x1 x2 x3 x4 x5 x6 x7 x8 x9 x10 x11
      = addRow (rowsMul (msg (val_main_v71 (F := Ideal) x0 x1 x2 x3 x4 x5) (val_main_v106 (F := Ideal) x0 x1 x2 x3 x4 x5 x6 x7 x8 x9) x2 x3) x10)
          (shapeCast S1x40 x11 hc) :=
  (ref_lin (val_main_v119 (F := Ideal) x0 x1 x2 x3 x4 x5 x6 x7 x8 x9) x10 x11 hc).trans (by rw [v119_eq])

end Cert.ReferenceIdeal.HandV

end
-- ==== Proof.V.KernelValue.lean ====
/-
  The kernel program's result array, followed through its four regions and the host stretches between them, is the
  reference's result as a function of the launch contents of the twelve arguments: region 0 leaves the column of
  edge weights; each later stretch aggregates messages from the current node features with those weights, and each
  later region applies that layer's matrix product, bias row and (for the first two) clamp at zero.
-/
import proofs.«151107_j62362925138837_1_alg».proof.Proof.KI.Run
import proofs.«151107_j62362925138837_1_alg».proof.Proof.KI.RunKeep
import proofs.«151107_j62362925138837_1_alg».proof.Proof.V.Stretch
import proofs.«151107_j62362925138837_1_alg».proof.Proof.V.NodeApply
import proofs.«151107_j62362925138837_1_alg».proof.Proof.V.EdgeArr
import proofs.«151107_j62362925138837_1_alg».proof.Proof.V.EdgeBridge
import proofs.«151107_j62362925138837_1_alg».proof.Proof.V.RefChain

set_option maxRecDepth 16384

noncomputable section

namespace Cert.KernelIdeal.HandV

open Idealize.ShloMosaic Idealize.ShloMosaic.TcCoe Idealize.ShloMosaic.StableHlo Idealize.SL.Sem
open Cert.KernelIdeal Cert.KernelIdeal.Gen Cert.KernelIdeal.Hand Cert.RowOps

variable (m : (ℓ : Loc nD τ sig) → Buf (Elt Ideal) ℓ) (ρ : Dev nD → PrngReg) (c : Dev nD)

/-- The launch contents of a buffer on core `c`. -/
abbrev arg (b : Ref sig .tc) : Buf (Elt Ideal) ((c : Thread nD τ).loc b) := m ((c : Thread nD τ).loc b)

/-! ## Region 0 leaves the edge weights -/

theorem ew6 : W6 m ρ c (Proc.devRef .tc main_v78) = (Cert.ReferenceIdeal.Read.val_main_v71 (F := Ideal) (arg m c main_arg0) (arg m c main_arg1) (arg m c main_arg2) (arg m c main_arg3) (arg m c main_arg4) (arg m c main_arg5)) :=
  (W6_arr m ρ c 6).trans ((arr0 (V5 m ρ) c).trans (ew_eq m ρ c))

/-! ## Layer 1 -/

theorem in1_v90 : V7 m ρ c main_v90 = msg (Cert.ReferenceIdeal.Read.val_main_v71 (F := Ideal) (arg m c main_arg0) (arg m c main_arg1) (arg m c main_arg2) (arg m c main_arg3) (arg m c main_arg4) (arg m c main_arg5)) (arg m c main_arg0) (arg m c main_arg2) (arg m c main_arg3) := by
  show StableHlo.after hostOps1 (W6 m ρ c) (Proc.devRef .tc main_v90) = _
  rw [stretch1_v90, ew6, W6_arg m ρ c main_arg0 (by decide), W6_arg m ρ c main_arg2 (by decide), W6_arg m ρ c main_arg3 (by decide)]

theorem in1_arg6 : V7 m ρ c main_arg6 = (arg m c main_arg6) := by
  show StableHlo.after hostOps1 (W6 m ρ c) (Proc.devRef .tc main_arg6) = _
  rw [stretch1_arg6, W6_arg m ρ c main_arg6 (by decide)]

theorem in1_v91 : V7 m ρ c main_v91 = shapeCast S1x128 (arg m c main_arg7) shapeCasts_S128_S1x128 := by
  show StableHlo.after hostOps1 (W6 m ρ c) (Proc.devRef .tc main_v91) = _
  rw [stretch1_v91, W6_arg m ρ c main_arg7 (by decide)]

theorem out1 : W8 m ρ c (Proc.devRef .tc main_v92) = (Cert.ReferenceIdeal.Read.val_main_v88 (F := Ideal) (arg m c main_arg0) (arg m c main_arg1) (arg m c main_arg2) (arg m c main_arg3) (arg m c main_arg4) (arg m c main_arg5) (arg m c main_arg6) (arg m c main_arg7)) := by
  refine (W8_arr m ρ c 3).trans ?_
  rw [arr1 (V7 m ρ) c, in1_v90, in1_arg6, in1_v91]
  exact (Cert.ReferenceIdeal.HandV.v88_eq _ _ _ _ _ _ _ _ _).symm

/-! ## Layer 2 -/

theorem ew8 : W8 m ρ c (Proc.devRef .tc main_v78) = (Cert.ReferenceIdeal.Read.val_main_v71 (F := Ideal) (arg m c main_arg0) (arg m c main_arg1) (arg m c main_arg2) (arg m c main_arg3) (arg m c main_arg4) (arg m c main_arg5)) := by
  refine (W8_of_ne m ρ c main_v78 (by decide)).trans ?_
  show StableHlo.after hostOps1 (W6 m ρ c) (Proc.devRef .tc main_v78) = _
  rw [stretch1_v78, ew6]

theorem in2_v104 : V9 m ρ c main_v104 = msg (Cert.ReferenceIdeal.Read.val_main_v71 (F := Ideal) (arg m c main_arg0) (arg m c main_arg1) (arg m c main_arg2) (arg m c main_arg3) (arg m c main_arg4) (arg m c main_arg5)) (Cert.ReferenceIdeal.Read.val_main_v88 (F := Ideal) (arg m c main_arg0) (arg m c main_arg1) (arg m c main_arg2) (arg m c main_arg3) (arg m c main_arg4) (arg m c main_arg5) (arg m c main_arg6) (arg m c main_arg7)) (arg m c main_arg2) (arg m c main_arg3) := by
  show StableHlo.after hostOps2 (W8 m ρ c) (Proc.devRef .tc main_v104) = _
  rw [stretch2_v104, ew8, out1, W8_arg m ρ c main_arg2 (by decide), W8_arg m ρ c main_arg3 (by decide)]

theorem in2_arg8 : V9 m ρ c main_arg8 = (arg m c main_arg8) := by
  show StableHlo.after hostOps2 (W8 m ρ c) (Proc.devRef .tc main_arg8) = _
  rw [stretch2_arg8, W8_arg m ρ c main_arg8 (by decide)]

theorem in2_v105 : V9 m ρ c main_v105 = shapeCast S1x128 (arg m c main_arg9) shapeCasts_S128_S1x128 := by
  show StableHlo.after hostOps2 (W8 m ρ c) (Proc.devRef .tc main_v105) = _
  rw [stretch2_v105, W8_arg m ρ c main_arg9 (by decide)]

theorem out2 : W10 m ρ c (Proc.devRef .tc main_v106) = (Cert.ReferenceIdeal.Read.val_main_v106 (F := Ideal) (arg m c main_arg0) (arg m c main_arg1) (arg m c main_arg2) (arg m c main_arg3) (arg m c main_arg4) (arg m c main_arg5) (arg m c main_arg6) (arg m c main_arg7) (arg m c main_arg8) (arg m c main_arg9)) := by
  refine (W10_arr m ρ c 3).trans ?_
  rw [arr2 (V9 m ρ) c, in2_v104, in2_arg8, in2_v105]
  exact (Cert.ReferenceIdeal.HandV.v106_eq _ _ _ _ _ _ _ _ _ _ _).symm

/-! ## Layer 3 -/

theorem ew10 : W10 m ρ c (Proc.devRef .tc main_v78) = (Cert.ReferenceIdeal.Read.val_main_v71 (F := Ideal) (arg m c main_arg0) (arg m c main_arg1) (arg m c main_arg2) (arg m c main_arg3) (arg m c main_arg4) (arg m c main_arg5)) := by
  refine (W10_of_ne m ρ c main_v78 (by decide)).trans ?_
  show StableHlo.after hostOps2 (W8 m ρ c) (Proc.devRef .tc main_v78) = _
  rw [stretch2_v78, ew8]

theorem in3_v118 : V11 m ρ c main_v118 = msg (Cert.ReferenceIdeal.Read.val_main_v71 (F := Ideal) (arg m c main_arg0) (arg m c main_arg1) (arg m c main_arg2) (arg m c main_arg3) (arg m c main_arg4) (arg m c main_arg5)) (Cert.ReferenceIdeal.Read.val_main_v106 (F := Ideal) (arg m c main_arg0) (arg m c main_arg1) (arg m c main_arg2) (arg m c main_arg3) (arg m c main_arg4) (arg m c main_arg5) (arg m c main_arg6) (arg m c main_arg7) (arg m c main_arg8) (arg m c main_arg9)) (arg m c main_arg2) (arg m c main_arg3) := by
  show StableHlo.after hostOps3 (W10 m ρ c) (Proc.devRef .tc main_v118) = _
  rw [stretch3_v118, ew10, out2, W10_arg m ρ c main_arg2 (by decide), W10_arg m ρ c main_arg3 (by decide)]

theorem in3_arg10 : V11 m ρ c main_arg10 = (arg m c main_arg10) := by
  show StableHlo.after hostOps3 (W10 m ρ c) (Proc.devRef .tc main_arg10) = _
  rw [stretch3_arg10, W10_arg m ρ c main_arg10 (by decide)]

theorem in3_v119 : V11 m ρ c main_v119 = shapeCast S1x40 (arg m c main_arg11) shapeCasts_S40_S1x40 := by
  show StableHlo.after hostOps3 (W10 m ρ c) (Proc.devRef .tc main_v119) = _
  rw [stretch3_v119, W10_arg m ρ c main_arg11 (by decide)]

/-- THE KERNEL PROGRAM'S RESULT is the reference's result term at the launch contents of the arguments. -/
theorem kernel_value : W12 m ρ c (Proc.devRef .tc main_v120)
    = Cert.ReferenceIdeal.Read.val_main_v123 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  refine (W12_arr m ρ c 3).trans ?_
  rw [arr3 (V11 m ρ) c, in3_v118, in3_arg10, in3_v119]
  exact (Cert.ReferenceIdeal.HandV.v123_eq _ _ _ _ _ _ _ _ _ _ _ _ _).symm

end Cert.KernelIdeal.HandV

end
-- ==== Proof.lean ====
/-
  The certificate. The kernel program runs as twelve segments — five host stretches, the edge-scoring region, and
  three times a host stretch followed by a node-apply region —, each region a grid of whole-block loads, one pure
  payload and one whole-block store; its frames (at the word level and over the extended reals) are that run with
  the argument arrays read back to their launch contents. Over the extended reals the result array is followed through
  the segments: the edge-scoring region leaves sigmoid(h[src]·wa + h[dst]·wb + ld_out[src]·c0 + ld_in[dst]·c1 + c2)
  · mask · isq[src] · isq[dst] per edge, which is the reference's edge weight because a sum over the 258 concatenated
  feature lanes splits into the two 128-lane sums and the two scalar terms (addition on the extended reals is
  commutative and associative; nothing else is used); every layer then applies the same gather, scaling and
  scatter-add as the reference, and a region's blockwise bf16-input matrix product plus bias row (clamped at zero in
  the first two layers) is the reference's whole-array one, row by row.
-/
import proofs.«151107_j62362925138837_1_alg».proof.Defs
import proofs.«151107_j62362925138837_1_alg».proof.Proof.Gen.Kernel
import proofs.«151107_j62362925138837_1_alg».proof.Proof.Gen.KernelIdeal
import proofs.«151107_j62362925138837_1_alg».proof.Proof.Gen.ReferenceIdeal
import proofs.«151107_j62362925138837_1_alg».proof.Proof.Gen.ReferenceIdeal.Run
import proofs.«151107_j62362925138837_1_alg».proof.Proof.Gen.ReferenceIdeal.Read
import proofs.«151107_j62362925138837_1_alg».proof.Proof.Gen.Pre_finite_inputs
import proofs.«151107_j62362925138837_1_alg».proof.Proof.K.RunArgs
import proofs.«151107_j62362925138837_1_alg».proof.Proof.KI.RunArgs
import proofs.«151107_j62362925138837_1_alg».proof.Proof.V.KernelValue
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ

/-- So does the program read over the extended reals. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same result array: the kernel program's, followed through its segments, is the
    reference's term of the arguments, and the two launches agree on the arguments. -/
theorem algebraic : Cert.algebraic_KernelIdeal_ReferenceIdeal := by
  intro m ρ m' ρ' _ hagree
  refine ⟨fun c => Cert.KernelIdeal.Hand.W12 m ρ c (Proc.devRef .tc Cert.KernelIdeal.main_v120),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v123_eq, e0, e1, e2, e3, e4, e5, e6, e7, e8, e9, e10, e11]
  exact (Cert.KernelIdeal.HandV.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
